-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v28_0)) (v2 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v28_0) = v1 c
          ∧ r.2.mem ((c.tc : Thread Cert.KernelIdeal.nD Cert.KernelIdeal.τ).loc Cert.KernelIdeal.main_v28_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512 : Shape := ⟨1, ![512]⟩
abbrev S128x512 : Shape := ⟨2, ![128, 512]⟩
abbrev S128 : Shape := ⟨1, ![128]⟩
abbrev S512x512 : Shape := ⟨2, ![512, 512]⟩
abbrev S33x512 : Shape := ⟨2, ![33, 512]⟩
abbrev S33 : Shape := ⟨1, ![33]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S512x512 : S_.BroadcastsInDim S512x512 (![] : Fin 0 → Fin S512x512.rank)
  reducesTo_S512x512_S_d0_1 : S512x512.ReducesTo [0, 1] S_
  bcast_S_S33x512 : S_.BroadcastsInDim S33x512 (![] : Fin 0 → Fin S33x512.rank)
  reducesTo_S33x512_S_d0_1 : S33x512.ReducesTo [0, 1] S_
  bcast_S_S33 : S_.BroadcastsInDim S33 (![] : Fin 0 → Fin S33.rank)
  reducesTo_S33_S_d0 : S33.ReducesTo [0] S_

variable [Facts]

def fn_part7 {F : FTy → Type} [FloatOps F] (main_arg14 : FVec F S512 .f32) (main_arg20 : FVec F S512 .f32) (main_v117 : IVec S_ 1) (main_v118 : FVec F S512 .f32) : IVec S_ 1 :=
  let main_v119 : IVec S512 1 := cmpf .oge main_arg14 main_v118
  let main_c_47 : IVec S_ 1 := constantI S_ 1 1#1
  let main_v120 : IVec S_ 1 := (fun x v => Host.reduce IntOp.andi x v reducesTo_S512_S_d0 h_S_) main_v119 main_c_47
  let main_v121 : IVec S_ 1 := andi main_v117 main_v120
  let main_cst_48 : FVec F S_ .f32 := constant S_ .f32 0x00000000#32
  let main_v122 : FVec F S512 .f32 := broadcastInDim S512 ![] bcast_S_S512 main_cst_48
  let main_v123 : IVec S512 1 := cmpf .oge main_arg20 main_v122
  let main_c_49 : IVec S_ 1 := constantI S_ 1 1#1
  let main_v124 : IVec S_ 1 := (fun x v => Host.reduce IntOp.andi x v reducesTo_S512_S_d0 h_S_) main_v123 main_c_49
  let main_v125 : IVec S_ 1 := andi main_v121 main_v124
  main_v125

def fn_part6 {F : FTy → Type} [FloatOps F] (main_arg6 : FVec F S512 .f32) (main_arg14 : FVec F S512 .f32) (main_arg20 : FVec F S512 .f32) (main_arg21 : FVec F S33x512 .f32) (main_arg22 : FVec F S33 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S33x512 .f32 := Host.absf main_arg21
  let main_cst_40 : FVec F S_ .f32 := constant S_ .f32 0x7F800000#32
  let main_v105 : FVec F S33x512 .f32 := broadcastInDim S33x512 ![] bcast_S_S33x512 main_cst_40
  let main_v106 : IVec S33x512 1 := cmpf .olt main_v104 main_v105
  let main_c_41 : IVec S_ 1 := constantI S_ 1 1#1
  let main_v107 : IVec S_ 1 := (fun x v => Host.reduce IntOp.andi x v reducesTo_S33x512_S_d0_1 h_S_) main_v106 main_c_41
  let main_v108 : IVec S_ 1 := andi main_v103 main_v107
  let main_v109 : FVec F S33 .f32 := Host.absf main_arg22
  let main_cst_42 : FVec F S_ .f32 := constant S_ .f32 0x7F800000#32
  let main_v110 : FVec F S33 .f32 := broadcastInDim S33 ![] bcast_S_S33 main_cst_42
  let main_v111 : IVec S33 1 := cmpf .olt main_v109 main_v110
  let main_c_43 : IVec S_ 1 := constantI S_ 1 1#1
  let main_v112 : IVec S_ 1 := (fun x v => Host.reduce IntOp.andi x v reducesTo_S33_S_d0 h_S_) main_v111 main_c_43
  let main_v113 : IVec S_ 1 := andi main_v108 main_v112
  let main_cst_44 : FVec F S_ .f32 := constant S_ .f32 0x00000000#32
  let main_v114 : FVec F S512 .f32 := broadcastInDim S512 ![] bcast_S_S512 main_cst_44
  let main_v115 : IVec S512 1 := cmpf .oge main_arg6 main_v114
  let main_c_45 : IVec S_ 1 := constantI S_ 1 1#1
  let main_v116 : IVec S_ 1 := (fun x v => Host.reduce IntOp.andi x v reducesTo_S512_S_d0 h_S_) main_v115 main_c_45
  let main_v117 : IVec S_ 1 := andi main_v113 main_v116
  let main_cst_46 : FVec F S_ .f32 := constant S_ .f32 0x00000000#32
  let main_v118 : FVec F S512 .f32 := broadcastInDim S512 ![] bcast_S_S512 main_cst_46
  fn_part7 (F := F) main_arg14 main_arg20 main_v117 main_v118

def fn_part5 {F : FTy → Type} [FloatOps F] (main_arg6 : FVec F S512 .f32) (main_arg14 : FVec F S512 .f32) (main_arg18 : FVec F S512 .f32) (main_arg19 : FVec F S512 .f32) (main_arg20 : FVec F S512 .f32) (main_arg21 : FVec F S33x512 .f32) (main_arg22 : FVec F S33 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512 .f32 := Host.absf main_arg20
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg6 main_arg14 main_arg20 main_arg21 main_arg22 main_v98 main_v101 main_c_39

def fn_part4 {F : FTy → Type} [FloatOps F] (main_arg6 : FVec F S512 .f32) (main_arg14 : FVec F S512 .f32) (main_arg15 : FVec F S512x512 .f32) (main_arg16 : FVec F S512 .f32) (main_arg17 : FVec F S512 .f32) (main_arg18 : FVec F S512 .f32) (main_arg19 : FVec F S512 .f32) (main_arg20 : FVec F S512 .f32) (main_arg21 : FVec F S33x512 .f32) (main_arg22 : FVec F S33 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg6 main_arg14 main_arg18 main_arg19 main_arg20 main_arg21 main_arg22 main_v83 main_v84 main_cst_32

def fn_part3 {F : FTy → Type} [FloatOps F] (main_arg6 : FVec F S512 .f32) (main_arg11 : FVec F S512 .f32) (main_arg12 : FVec F S512 .f32) (main_arg13 : FVec F S512 .f32) (main_arg14 : FVec F S512 .f32) (main_arg15 : FVec F S512x512 .f32) (main_arg16 : FVec F S512 .f32) (main_arg17 : FVec F S512 .f32) (main_arg18 : FVec F S512 .f32) (main_arg19 : FVec F S512 .f32) (main_arg20 : FVec F S512 .f32) (main_arg21 : FVec F S33x512 .f32) (main_arg22 : FVec F S33 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg6 main_arg14 main_arg15 main_arg16 main_arg17 main_arg18 main_arg19 main_arg20 main_arg21 main_arg22 main_v63 main_v67

def fn_part2 {F : FTy → Type} [FloatOps F] (main_arg6 : FVec F S512 .f32) (main_arg7 : FVec F S128x512 .f32) (main_arg8 : FVec F S128 .f32) (main_arg9 : FVec F S512x512 .f32) (main_arg10 : FVec F S512 .f32) (main_arg11 : FVec F S512 .f32) (main_arg12 : FVec F S512 .f32) (main_arg13 : FVec F S512 .f32) (main_arg14 : FVec F S512 .f32) (main_arg15 : FVec F S512x512 .f32) (main_arg16 : FVec F S512 .f32) (main_arg17 : FVec F S512 .f32) (main_arg18 : FVec F S512 .f32) (main_arg19 : FVec F S512 .f32) (main_arg20 : FVec F S512 .f32) (main_arg21 : FVec F S33x512 .f32) (main_arg22 : FVec F S33 .f32) (main_v33 : IVec S_ 1) : IVec S_ 1 :=
  let main_v34 : FVec F S128x512 .f32 := Host.absf main_arg7
  let main_cst_12 : FVec F S_ .f32 := constant S_ .f32 0x7F800000#32
  let main_v35 : FVec F S128x512 .f32 := broadcastInDim S128x512 ![] bcast_S_S128x512 main_cst_12
  let main_v36 : IVec S128x512 1 := cmpf .olt main_v34 main_v35
  let main_c_13 : IVec S_ 1 := constantI S_ 1 1#1
  let main_v37 : IVec S_ 1 := (fun x v => Host.reduce IntOp.andi x v reducesTo_S128x512_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg6 main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S512 .f32) (main_arg5 : FVec F S512 .f32) (main_arg6 : FVec F S512 .f32) (main_arg7 : FVec F S128x512 .f32) (main_arg8 : FVec F S128 .f32) (main_arg9 : FVec F S512x512 .f32) (main_arg10 : FVec F S512 .f32) (main_arg11 : FVec F S512 .f32) (main_arg12 : FVec F S512 .f32) (main_arg13 : FVec F S512 .f32) (main_arg14 : FVec F S512 .f32) (main_arg15 : FVec F S512x512 .f32) (main_arg16 : FVec F S512 .f32) (main_arg17 : FVec F S512 .f32) (main_arg18 : FVec F S512 .f32) (main_arg19 : FVec F S512 .f32) (main_arg20 : FVec F S512 .f32) (main_arg21 : FVec F S33x512 .f32) (main_arg22 : FVec F S33 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg6 main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S512x256 .f32) (main_arg1 : FVec F S512x256 .f32) (main_arg2 : FVec F S512 .f32) (main_arg3 : FVec F S512 .f32) (main_arg4 : FVec F S512 .f32) (main_arg5 : FVec F S512 .f32) (main_arg6 : FVec F S512 .f32) (main_arg7 : FVec F S128x512 .f32) (main_arg8 : FVec F S128 .f32) (main_arg9 : FVec F S512x512 .f32) (main_arg10 : FVec F S512 .f32) (main_arg11 : FVec F S512 .f32) (main_arg12 : FVec F S512 .f32) (main_arg13 : FVec F S512 .f32) (main_arg14 : FVec F S512 .f32) (main_arg15 : FVec F S512x512 .f32) (main_arg16 : FVec F S512 .f32) (main_arg17 : FVec F S512 .f32) (main_arg18 : FVec F S512 .f32) (main_arg19 : FVec F S512 .f32) (main_arg20 : FVec F S512 .f32) (main_arg21 : FVec F S33x512 .f32) (main_arg22 : FVec F S33 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S512x256 : Shape := ⟨2, ![512, 256]⟩
abbrev S512 : Shape := ⟨1, ![512]⟩
abbrev S128x512 : Shape := ⟨2, ![128, 512]⟩
abbrev S128 : Shape := ⟨1, ![128]⟩
abbrev S512x512 : Shape := ⟨2, ![512, 512]⟩
abbrev S33x512 : Shape := ⟨2, ![33, 512]⟩
abbrev S33 : Shape := ⟨1, ![33]⟩
abbrev S256x512 : Shape := ⟨2, ![256, 512]⟩
abbrev S512x128 : Shape := ⟨2, ![512, 128]⟩
abbrev S_ : Shape := ⟨0, ![]⟩
abbrev S512x1 : Shape := ⟨2, ![512, 1]⟩
abbrev S512x33 : Shape := ⟨2, ![512, 33]⟩
abbrev S1x512 : Shape := ⟨2, ![1, 512]⟩
abbrev S1x128 : Shape := ⟨2, ![1, 128]⟩
abbrev S512x512x32 : Shape := ⟨3, ![512, 512, 32]⟩
abbrev S64x512 : Shape := ⟨2, ![64, 512]⟩
abbrev S64x128 : Shape := ⟨2, ![64, 128]⟩
abbrev S64x128x32 : Shape := ⟨3, ![64, 128, 32]⟩
abbrev S64x1x512 : Shape := ⟨3, ![64, 1, 512]⟩
abbrev S1x128x512 : Shape := ⟨3, ![1, 128, 512]⟩
abbrev S64x128x512 : Shape := ⟨3, ![64, 128, 512]⟩
abbrev S1x1x512 : Shape := ⟨3, ![1, 1, 512]⟩
abbrev S8192x512 : Shape := ⟨2, ![8192, 512]⟩
abbrev S8192x33 : Shape := ⟨2, ![8192, 33]⟩
abbrev S1x33 : Shape := ⟨2, ![1, 33]⟩
abbrev S64x128x33 : Shape := ⟨3, ![64, 128, 33]⟩
abbrev S64x128x1 : Shape := ⟨3, ![64, 128, 1]⟩

abbrev nBuf : Space → Nat
  | .hbm => 57
  | .vmem => 28
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S128x512, .f32⟩
  | .hbm, ⟨8, _⟩ => ⟨S128, .f32⟩
  | .hbm, ⟨9, _⟩ => ⟨S512x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S33x512, .f32⟩
  | .hbm, ⟨22, _⟩ => ⟨S33, .f32⟩
  | .hbm, ⟨23, _⟩ => ⟨S256x512, .f32⟩
  | .hbm, ⟨24, _⟩ => ⟨S512x128, .f32⟩
  | .hbm, ⟨25, _⟩ => ⟨S512x256, .f32⟩
  | .hbm, ⟨26, _⟩ => ⟨S512x256, .f32⟩
  | .hbm, ⟨27, _⟩ => ⟨S256x512, .f32⟩
  | .hbm, ⟨28, _⟩ => ⟨S256x512, .f32⟩
  | .hbm, ⟨29, _⟩ => ⟨S_, .f32⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S512, .f32⟩
  | .hbm, ⟨36, _⟩ => ⟨S512, .f32⟩
  | .hbm, ⟨37, _⟩ => ⟨S_, .f32⟩
  | .hbm, ⟨38, _⟩ => ⟨S512, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S512x1, .f32⟩
  | .hbm, ⟨43, _⟩ => ⟨S512x512, .f32⟩
  | .hbm, ⟨44, _⟩ => ⟨S512x512, .f32⟩
  | .hbm, ⟨45, _⟩ => ⟨S512, .f32⟩
  | .hbm, ⟨46, _⟩ => ⟨S512, .f32⟩
  | .hbm, ⟨47, _⟩ => ⟨S512, .f32⟩
  | .hbm, ⟨48, _⟩ => ⟨S512x512, .f32⟩
  | .hbm, ⟨49, _⟩ => ⟨S512x512, .bf16⟩
  | .hbm, ⟨50, _⟩ => ⟨S512x33, .f32⟩
  | .hbm, ⟨51, _⟩ => ⟨S512x33, .bf16⟩
  | .hbm, ⟨52, _⟩ => ⟨S512x128, .f32⟩
  | .hbm, ⟨53, _⟩ => ⟨S512x512, .f32⟩
  | .hbm, ⟨54, _⟩ => ⟨S512x512, .f32⟩
  | .hbm, ⟨55, _⟩ => ⟨S512x512, .f32⟩
  | .hbm, ⟨56, _⟩ => ⟨S512x512x32, .f32⟩
  | .local _ .vmem, ⟨0, _⟩ => ⟨S512x256, .f32⟩
  | .local _ .vmem, ⟨1, _⟩ => ⟨S256x512, .f32⟩
  | .local _ .vmem, ⟨2, _⟩ => ⟨S512, .f32⟩
  | .local _ .vmem, ⟨3, _⟩ => ⟨S512, .f32⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S512x128, .f32⟩
  | .local _ .vmem, ⟨8, _⟩ => ⟨S128, .f32⟩
  | .local _ .vmem, ⟨9, _⟩ => ⟨S256x512, .f32⟩
  | .local _ .vmem, ⟨10, _⟩ => ⟨S256x512, .f32⟩
  | .local _ .vmem, ⟨11, _⟩ => ⟨S512, .f32⟩
  | .local _ .vmem, ⟨12, _⟩ => ⟨S512x128, .f32⟩
  | .local _ .vmem, ⟨13, _⟩ => ⟨S512x512, .f32⟩
  | .local _ .vmem, ⟨14, _⟩ => ⟨S512x512, .f32⟩
  | .local _ .vmem, ⟨15, _⟩ => ⟨S64x512, .f32⟩
  | .local _ .vmem, ⟨16, _⟩ => ⟨S64x512, .f32⟩
  | .local _ .vmem, ⟨17, _⟩ => ⟨S128x512, .f32⟩
  | .local _ .vmem, ⟨18, _⟩ => ⟨S128x512, .f32⟩
  | .local _ .vmem, ⟨19, _⟩ => ⟨S512, .f32⟩
  | .local _ .vmem, ⟨20, _⟩ => ⟨S512x512, .bf16⟩
  | .local _ .vmem, ⟨21, _⟩ => ⟨S512, .f32⟩
  | .local _ .vmem, ⟨22, _⟩ => ⟨S512x33, .bf16⟩
  | .local _ .vmem, ⟨23, _⟩ => ⟨S33, .f32⟩
  | .local _ .vmem, ⟨24, _⟩ => ⟨S64x128, .f32⟩
  | .local _ .vmem, ⟨25, _⟩ => ⟨S64x128, .f32⟩
  | .local _ .vmem, ⟨26, _⟩ => ⟨S64x128x32, .f32⟩
  | .local _ .vmem, ⟨27, _⟩ => ⟨S64x128x32, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27_0 : Ref sig .tc := ⟨.hbm, 52, rfl⟩
abbrev main_v27_1 : Ref sig .tc := ⟨.hbm, 53, rfl⟩
abbrev main_v27_2 : Ref sig .tc := ⟨.hbm, 54, rfl⟩
abbrev main_v28_0 : Ref sig .tc := ⟨.hbm, 55, rfl⟩
abbrev main_v28_1 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x33 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S33 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S64x128x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  transposes_S512x256_S256x512_1_0 : S512x256.Transposes [1, 0] S256x512
  transposes_S128x512_S512x128_1_0 : S128x512.Transposes [1, 0] S512x128
  slices_S512x512_S512x256_0_0 : S512x512.Slices ![0, 0] S512x256
  slices_S512x512_S512x256_0_256 : S512x512.Slices ![0, 256] S512x256
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  transposes_S512x512_S512x512_1_0 : S512x512.Transposes [1, 0] S512x512
  bitsLt_bf16_f32 : FTy.bits .bf16 < FTy.bits .f32
  transposes_S33x512_S512x33_1_0 : S33x512.Transposes [1, 0] S512x33
  inb_S512x256_S512x256_0_0 : ∀ a, (![0, 0] : Fin 2 → Nat) a + S512x256.size a ≤ S512x256.size a
  h_S512x256 : 0 < S512x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  shapeCasts_S512_S512 : S512.ShapeCasts S512
  inb_S512x512_S512x512_0_0 : ∀ a, (![0, 0] : Fin 2 → Nat) a + S512x512.size a ≤ S512x512.size a
  h_S512x512 : 0 < S512x512.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  shapeCasts_S64x512_S64x1x512 : S64x512.ShapeCasts S64x1x512
  shapeCasts_S128x512_S1x128x512 : S128x512.ShapeCasts S1x128x512
  broadcasts_S64x1x512_S64x128x512 : S64x1x512.Broadcasts S64x128x512
  broadcasts_S1x128x512_S64x128x512 : S1x128x512.Broadcasts S64x128x512
  shapeCasts_S512_S1x1x512 : S512.ShapeCasts S1x1x512
  broadcasts_S1x1x512_S64x128x512 : S1x1x512.Broadcasts S64x128x512
  shapeCasts_S64x128x512_S8192x512 : S64x128x512.ShapeCasts S8192x512
  shapeCasts_S512x512_S512x512 : S512x512.ShapeCasts S512x512
  shapeCasts_S8192x512_S64x128x512 : S8192x512.ShapeCasts S64x128x512
  inb_S512x33_S512x33_0_0 : ∀ a, (![0, 0] : Fin 2 → Nat) a + S512x33.size a ≤ S512x33.size a
  h_S512x33 : 0 < S512x33.numel
  shapeCasts_S512x33_S512x33 : S512x33.ShapeCasts S512x33
  inb_S33_S33_0 : ∀ a, (![0] : Fin 1 → Nat) a + S33.size a ≤ S33.size a
  h_S33 : 0 < S33.numel
  shapeCasts_S33_S1x33 : S33.ShapeCasts S1x33
  broadcasts_S1x33_S8192x33 : S1x33.Broadcasts S8192x33
  shapeCasts_S8192x33_S64x128x33 : S8192x33.ShapeCasts S64x128x33
  slices_S64x128x33_o0_0_0_S64x128x1 : S64x128x33.Slices ![0, 0, 0] S64x128x1
  shapeCasts_S64x128x1_S64x128 : S64x128x1.ShapeCasts S64x128
  inb_S64x128_S64x128_0_0 : ∀ a, (![0, 0] : Fin 2 → Nat) a + S64x128.size a ≤ S64x128.size a
  h_S64x128 : 0 < S64x128.numel
  slices_S64x128x33_o0_0_1_S64x128x32 : S64x128x33.Slices ![0, 0, 1] S64x128x32
  inb_S64x128x32_S64x128x32_0_0_0 : ∀ a, (![0, 0, 0] : Fin 3 → Nat) a + S64x128x32.size a ≤ S64x128x32.size a
  h_S64x128x32 : 0 < S64x128x32.numel
  dot_S512x256_S256x512_S512x512_1_0_0_1_n_n_wf : DotDims.WF S512x256 S256x512 S512x512 [1] [0] [0] [1] [] []
  dot_S512x512_S512x128_S512x128_1_0_0_1_n_n_wf : DotDims.WF S512x512 S512x128 S512x128 [1] [0] [0] [1] [] []
  dot_S8192x512_S512x512_S8192x512_1_0_0_1_n_n_wf : DotDims.WF S8192x512 S512x512 S8192x512 [1] [0] [0] [1] [] []
  dot_S8192x512_S512x33_S8192x33_1_0_0_1_n_n_wf : DotDims.WF S8192x512 S512x33 S8192x33 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .f32 = 32 ∨ (Rect.block (s := S512x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .f32 = 32 ∨ (Rect.block (s := S512x128) S512x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S256x512.size a
  hwx0_9 : ∀ i : grid0.Coords, EltTy.bits .f32 = 32 ∨ (Rect.block (s := S256x512) S256x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x512.size a ≤ S256x512.size a
  hwx0_10 : ∀ i : grid0.Coords, EltTy.bits .f32 = 32 ∨ (Rect.block (s := S256x512) S256x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x128.size a ≤ S512x128.size a
  hwx0_12 : ∀ i : grid0.Coords, EltTy.bits .f32 = 32 ∨ (Rect.block (s := S512x128) S512x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S512x512.size a
  hwx0_13 : ∀ i : grid0.Coords, EltTy.bits .f32 = 32 ∨ (Rect.block (s := S512x512) S512x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S512x512.size a
  hwx0_14 : ∀ i : grid0.Coords, EltTy.bits .f32 = 32 ∨ (Rect.block (s := S512x512) S512x512.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x512.size a ≤ S512x512.size a
  hwx1_0 : ∀ i : grid1.Coords, EltTy.bits .f32 = 32 ∨ (Rect.block (s := S512x512) S64x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S512x512.size a
  hwx1_1 : ∀ i : grid1.Coords, EltTy.bits .f32 = 32 ∨ (Rect.block (s := S512x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x33.size a ≤ S512x33.size a
  hwx1_5 : ∀ i : grid1.Coords, EltTy.bits .bf16 = 32 ∨ (Rect.block (s := S512x33) S512x33.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S33.size a ≤ S33.size a
  hwx1_6 : ∀ i : grid1.Coords, EltTy.bits .f32 = 32 ∨ (Rect.block (s := S33) S33.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S64x128.size a ≤ S512x512.size a
  hwx1_7 : ∀ i : grid1.Coords, EltTy.bits .f32 = 32 ∨ (Rect.block (s := S512x512) S64x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S64x128x32.size a ≤ S512x512x32.size a
  hwx1_8 : ∀ i : grid1.Coords, EltTy.bits .f32 = 32 ∨ (Rect.block (s := S512x512x32) S64x128x32.size (cc1_transform_8 i) (hinb1_8 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x33_S8192x33_1_0_0_1_n_n : DotDims S8192x512 S512x33 S8192x33 where
  lhsContracting := [1]
  rhsContracting := [0]
  lhsNonContracting := [0]
  rhsNonContracting := [1]
  lhsBatch := []
  rhsBatch := []
  wf := dot_S8192x512_S512x33_S8192x33_1_0_0_1_n_n_wf

abbrev win0_0 : Pipeline.Window sig grid0 :=
  Pipeline.Window.ofSpec (Memref.whole main_arg0) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S512x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S256x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S256x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v27_0) S512x128.size cc0_transform_12 reads0_12 true true 1 stage0_12 sem0_12
    hrank0 hreads0_12 hinb0_12 nbuf0_12 (Memref.isWhole_whole _) hwx0_12 hstage0_12

abbrev win0_13 : Pipeline.Window sig grid0 :=
  Pipeline.Window.ofSpec (Memref.whole main_v27_1) S512x512.size cc0_transform_13 reads0_13 true true 1 stage0_13 sem0_13
    hrank0 hreads0_13 hinb0_13 nbuf0_13 (Memref.isWhole_whole _) hwx0_13 hstage0_13

abbrev win0_14 : Pipeline.Window sig grid0 :=
  Pipeline.Window.ofSpec (Memref.whole main_v27_2) S512x512.size cc0_transform_14 reads0_14 true true 1 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v27_1) S64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27_2) S128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S512x33.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg22) S33.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28_0) S64x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v28_1) S64x128x32.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S512x256 : Shape := ⟨2, ![512, 256]⟩
abbrev S512 : Shape := ⟨1, ![512]⟩
abbrev S128x512 : Shape := ⟨2, ![128, 512]⟩
abbrev S128 : Shape := ⟨1, ![128]⟩
abbrev S512x512 : Shape := ⟨2, ![512, 512]⟩
abbrev S33x512 : Shape := ⟨2, ![33, 512]⟩
abbrev S33 : Shape := ⟨1, ![33]⟩
abbrev S256x512 : Shape := ⟨2, ![256, 512]⟩
abbrev S1x512 : Shape := ⟨2, ![1, 512]⟩
abbrev S_ : Shape := ⟨0, ![]⟩
abbrev S512x128 : Shape := ⟨2, ![512, 128]⟩
abbrev S1x128 : Shape := ⟨2, ![1, 128]⟩
abbrev S512x1x512 : Shape := ⟨3, ![512, 1, 512]⟩
abbrev S1x512x512 : Shape := ⟨3, ![1, 512, 512]⟩
abbrev S512x512x512 : Shape := ⟨3, ![512, 512, 512]⟩
abbrev S1x1x512 : Shape := ⟨3, ![1, 1, 512]⟩
abbrev S262144x512 : Shape := ⟨2, ![262144, 512]⟩
abbrev S512x33 : Shape := ⟨2, ![512, 33]⟩
abbrev S262144x33 : Shape := ⟨2, ![262144, 33]⟩
abbrev S1x33 : Shape := ⟨2, ![1, 33]⟩
abbrev S262144x1 : Shape := ⟨2, ![262144, 1]⟩
abbrev S262144 : Shape := ⟨1, ![262144]⟩
abbrev S262144x32 : Shape := ⟨2, ![262144, 32]⟩
abbrev S512x512x32 : Shape := ⟨3, ![512, 512, 32]⟩

abbrev nBuf : Space → Nat
  | .hbm => 114
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S128x512, .f32⟩
  | .hbm, ⟨8, _⟩ => ⟨S128, .f32⟩
  | .hbm, ⟨9, _⟩ => ⟨S512x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S33x512, .f32⟩
  | .hbm, ⟨22, _⟩ => ⟨S33, .f32⟩
  | .hbm, ⟨23, _⟩ => ⟨S256x512, .f32⟩
  | .hbm, ⟨24, _⟩ => ⟨S512x512, .f32⟩
  | .hbm, ⟨25, _⟩ => ⟨S1x512, .f32⟩
  | .hbm, ⟨26, _⟩ => ⟨S512x512, .f32⟩
  | .hbm, ⟨27, _⟩ => ⟨S512x512, .f32⟩
  | .hbm, ⟨28, _⟩ => ⟨S1x512, .f32⟩
  | .hbm, ⟨29, _⟩ => ⟨S512x512, .f32⟩
  | .hbm, ⟨30, _⟩ => ⟨S512x512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S512, .f32⟩
  | .hbm, ⟨36, _⟩ => ⟨S1x512, .f32⟩
  | .hbm, ⟨37, _⟩ => ⟨S512x512, .f32⟩
  | .hbm, ⟨38, _⟩ => ⟨S512x512, .f32⟩
  | .hbm, ⟨39, _⟩ => ⟨S1x512, .f32⟩
  | .hbm, ⟨40, _⟩ => ⟨S512x512, .f32⟩
  | .hbm, ⟨41, _⟩ => ⟨S512x512, .f32⟩
  | .hbm, ⟨42, _⟩ => ⟨S_, .f32⟩
  | .hbm, ⟨43, _⟩ => ⟨S512x512, .f32⟩
  | .hbm, ⟨44, _⟩ => ⟨S512x512, .f32⟩
  | .hbm, ⟨45, _⟩ => ⟨S512x128, .f32⟩
  | .hbm, ⟨46, _⟩ => ⟨S512x128, .f32⟩
  | .hbm, ⟨47, _⟩ => ⟨S1x128, .f32⟩
  | .hbm, ⟨48, _⟩ => ⟨S512x128, .f32⟩
  | .hbm, ⟨49, _⟩ => ⟨S512x128, .f32⟩
  | .hbm, ⟨50, _⟩ => ⟨S512x256, .f32⟩
  | .hbm, ⟨51, _⟩ => ⟨S512x256, .f32⟩
  | .hbm, ⟨52, _⟩ => ⟨S256x512, .f32⟩
  | .hbm, ⟨53, _⟩ => ⟨S512x512, .f32⟩
  | .hbm, ⟨54, _⟩ => ⟨S256x512, .f32⟩
  | .hbm, ⟨55, _⟩ => ⟨S512x512, .f32⟩
  | .hbm, ⟨56, _⟩ => ⟨S512x1x512, .f32⟩
  | .hbm, ⟨57, _⟩ => ⟨S1x512x512, .f32⟩
  | .hbm, ⟨58, _⟩ => ⟨S512x512x512, .f32⟩
  | .hbm, ⟨59, _⟩ => ⟨S512x512x512, .f32⟩
  | .hbm, ⟨60, _⟩ => ⟨S512x512x512, .f32⟩
  | .hbm, ⟨61, _⟩ => ⟨S1x1x512, .f32⟩
  | .hbm, ⟨62, _⟩ => ⟨S512x512x512, .f32⟩
  | .hbm, ⟨63, _⟩ => ⟨S512x512x512, .f32⟩
  | .hbm, ⟨64, _⟩ => ⟨S262144x512, .f32⟩
  | .hbm, ⟨65, _⟩ => ⟨S1x512, .f32⟩
  | .hbm, ⟨66, _⟩ => ⟨S262144x512, .f32⟩
  | .hbm, ⟨67, _⟩ => ⟨S262144x512, .f32⟩
  | .hbm, ⟨68, _⟩ => ⟨S_, .f32⟩
  | .hbm, ⟨69, _⟩ => ⟨S512, .f32⟩
  | .hbm, ⟨70, _⟩ => ⟨S512, .f32⟩
  | .hbm, ⟨71, _⟩ => ⟨S512, .f32⟩
  | .hbm, ⟨72, _⟩ => ⟨S512, .f32⟩
  | .hbm, ⟨73, _⟩ => ⟨S1x512, .f32⟩
  | .hbm, ⟨74, _⟩ => ⟨S262144x512, .f32⟩
  | .hbm, ⟨75, _⟩ => ⟨S262144x512, .f32⟩
  | .hbm, ⟨76, _⟩ => ⟨S1x512, .f32⟩
  | .hbm, ⟨77, _⟩ => ⟨S262144x512, .f32⟩
  | .hbm, ⟨78, _⟩ => ⟨S262144x512, .f32⟩
  | .hbm, ⟨79, _⟩ => ⟨S_, .f32⟩
  | .hbm, ⟨80, _⟩ => ⟨S262144x512, .f32⟩
  | .hbm, ⟨81, _⟩ => ⟨S262144x512, .f32⟩
  | .hbm, ⟨82, _⟩ => ⟨S512x512, .f32⟩
  | .hbm, ⟨83, _⟩ => ⟨S262144x512, .f32⟩
  | .hbm, ⟨84, _⟩ => ⟨S1x512, .f32⟩
  | .hbm, ⟨85, _⟩ => ⟨S262144x512, .f32⟩
  | .hbm, ⟨86, _⟩ => ⟨S262144x512, .f32⟩
  | .hbm, ⟨87, _⟩ => ⟨S1x512, .f32⟩
  | .hbm, ⟨88, _⟩ => ⟨S262144x512, .f32⟩
  | .hbm, ⟨89, _⟩ => ⟨S262144x512, .f32⟩
  | .hbm, ⟨90, _⟩ => ⟨S_, .f32⟩
  | .hbm, ⟨91, _⟩ => ⟨S512, .f32⟩
  | .hbm, ⟨92, _⟩ => ⟨S512, .f32⟩
  | .hbm, ⟨93, _⟩ => ⟨S512, .f32⟩
  | .hbm, ⟨94, _⟩ => ⟨S512, .f32⟩
  | .hbm, ⟨95, _⟩ => ⟨S1x512, .f32⟩
  | .hbm, ⟨96, _⟩ => ⟨S262144x512, .f32⟩
  | .hbm, ⟨97, _⟩ => ⟨S262144x512, .f32⟩
  | .hbm, ⟨98, _⟩ => ⟨S1x512, .f32⟩
  | .hbm, ⟨99, _⟩ => ⟨S262144x512, .f32⟩
  | .hbm, ⟨100, _⟩ => ⟨S262144x512, .f32⟩
  | .hbm, ⟨101, _⟩ => ⟨S_, .f32⟩
  | .hbm, ⟨102, _⟩ => ⟨S262144x512, .f32⟩
  | .hbm, ⟨103, _⟩ => ⟨S262144x512, .f32⟩
  | .hbm, ⟨104, _⟩ => ⟨S512x33, .f32⟩
  | .hbm, ⟨105, _⟩ => ⟨S262144x33, .f32⟩
  | .hbm, ⟨106, _⟩ => ⟨S1x33, .f32⟩
  | .hbm, ⟨107, _⟩ => ⟨S262144x33, .f32⟩
  | .hbm, ⟨108, _⟩ => ⟨S262144x33, .f32⟩
  | .hbm, ⟨109, _⟩ => ⟨S262144x1, .f32⟩
  | .hbm, ⟨110, _⟩ => ⟨S262144, .f32⟩
  | .hbm, ⟨111, _⟩ => ⟨S512x512, .f32⟩
  | .hbm, ⟨112, _⟩ => ⟨S262144x32, .f32⟩
  | .hbm, ⟨113, _⟩ => ⟨S512x512x32, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_call0_cst : Ref sig .tc := ⟨.hbm, 42, rfl⟩
abbrev main_call0_v0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call1_cst : Ref sig .tc := ⟨.hbm, 79, rfl⟩
abbrev main_call1_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_1 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call2_cst : Ref sig .tc := ⟨.hbm, 101, rfl⟩
abbrev main_call2_v0 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩

abbrev nD : Nat := 1
abbrev τ : Topo := Topo.v7x

variable {F : FTy → Type} [FloatOps F]

class Facts₀ : Prop where
  transposes_S512x256_S256x512_1_0 : S512x256.Transposes [1, 0] S256x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512 : S_.BroadcastsInDim S512 (![] : Fin 0 → Fin S512.rank)
  bcast_S_S512x512 : S_.BroadcastsInDim S512x512 (![] : Fin 0 → Fin S512x512.rank)
  transposes_S128x512_S512x128_1_0 : S128x512.Transposes [1, 0] S512x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  slices_S512x512_S512x256_0_0 : S512x512.Slices ![0, 0] S512x256
  slices_S512x512_S512x256_0_256 : S512x512.Slices ![0, 256] S512x256
  bcast_S512x512_S512x1x512_0_2 : S512x512.BroadcastsInDim S512x1x512 (![0, 2] : Fin 2 → Fin S512x1x512.rank)
  bcast_S512x512_S1x512x512_1_2 : S512x512.BroadcastsInDim S1x512x512 (![1, 2] : Fin 2 → Fin S1x512x512.rank)
  bcast_S512x1x512_S512x512x512_0_1_2 : S512x1x512.BroadcastsInDim S512x512x512 (![0, 1, 2] : Fin 3 → Fin S512x512x512.rank)
  bcast_S1x512x512_S512x512x512_0_1_2 : S1x512x512.BroadcastsInDim S512x512x512 (![0, 1, 2] : Fin 3 → Fin S512x512x512.rank)
  bcast_S512_S1x1x512_2 : S512.BroadcastsInDim S1x1x512 (![2] : Fin 1 → Fin S1x1x512.rank)
  bcast_S1x1x512_S512x512x512_0_1_2 : S1x1x512.BroadcastsInDim S512x512x512 (![0, 1, 2] : Fin 3 → Fin S512x512x512.rank)
  shapeCasts_S512x512x512_S262144x512 : S512x512x512.ShapeCasts S262144x512
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  transposes_S512x512_S512x512_1_0 : S512x512.Transposes [1, 0] S512x512
  transposes_S33x512_S512x33_1_0 : S33x512.Transposes [1, 0] S512x33
  bcast_S33_S1x33_1 : S33.BroadcastsInDim S1x33 (![1] : Fin 1 → Fin S1x33.rank)
  bcast_S1x33_S262144x33_0_1 : S1x33.BroadcastsInDim S262144x33 (![0, 1] : Fin 2 → Fin S262144x33.rank)
  slices_S262144x33_S262144x1_0_0 : S262144x33.Slices ![0, 0] S262144x1
  shapeCasts_S262144x1_S262144 : S262144x1.ShapeCasts S262144
  shapeCasts_S262144_S512x512 : S262144.ShapeCasts S512x512
  slices_S262144x33_S262144x32_0_1 : S262144x33.Slices ![0, 1] S262144x32
  shapeCasts_S262144x32_S512x512x32 : S262144x32.ShapeCasts S512x512x32
  dot_S512x256_S256x512_S512x512_1_0_0_1_n_n_wf : DotDims.WF S512x256 S256x512 S512x512 [1] [0] [0] [1] [] []
  dot_S512x512_S512x128_S512x128_1_0_0_1_n_n_wf : DotDims.WF S512x512 S512x128 S512x128 [1] [0] [0] [1] [] []
  dot_S262144x512_S512x512_S262144x512_1_0_0_1_n_n_wf : DotDims.WF S262144x512 S512x512 S262144x512 [1] [0] [0] [1] [] []
  dot_S262144x512_S512x33_S262144x33_1_0_0_1_n_n_wf : DotDims.WF S262144x512 S512x33 S262144x33 [1] [0] [0] [1] [] []

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S262144x512_S512x512_S262144x512_1_0_0_1_n_n : DotDims S262144x512 S512x512 S262144x512 where
  lhsContracting := [1]
  rhsContracting := [0]
  lhsNonContracting := [0]
  rhsNonContracting := [1]
  lhsBatch := []
  rhsBatch := []
  wf := dot_S262144x512_S512x512_S262144x512_1_0_0_1_n_n_wf
def dot_S262144x512_S512x33_S262144x33_1_0_0_1_n_n : DotDims S262144x512 S512x33 S262144x33 where
  lhsContracting := [1]
  rhsContracting := [0]
  lhsNonContracting := [0]
  rhsNonContracting := [1]
  lhsBatch := []
  rhsBatch := []
  wf := dot_S262144x512_S512x33_S262144x33_1_0_0_1_n_n_wf

class Facts : Prop extends Facts₀ where

variable [Facts]
-- ==== Proof.Spec.lean ====
/-
  A graph decoder on the extended reals: a node head and an all-pairs edge head, each a small perceptron whose hidden
  layers are followed by an evaluation-mode batch normalisation and a rectifier.

  A normalisation acts column by column: `v ↦ (v - μ) · s + β` with the column scale `s = γ / √(var + ε)`. The scale is
  spelt in two ways, as a quotient by the root (`scaleQuot`) and as a product with the reciprocal root (`scaleRoot`);
  every function below takes the scale as a parameter, so the two spellings give two instances of one function.

  The node head sends row `p` of the embeddings `x : [512, 256]` to `relu (norm (x_p · W1ᵀ + b1)) · W2ᵀ + b2`.

  The edge head sends a pair `(i, j)` of nodes to a vector of 33 numbers. Its first linear layer acts on the concatenation
  of the two embeddings, so it is the sum of a projection of `x_i` by the left half of the weight's columns (`projL`) and
  a projection of `x_j` by the right half (`projR`), plus the bias. `edgeStated` applies the two normalisations where they
  stand. `edgeFolded` has them folded into the layers before them: since `(a + c + b - μ) · s + β = a · s + c · s + (s · (b - μ) + β)`
  and `((∑ x · w) + b - μ) · s + β = (∑ x · (w · s)) + (s · (b - μ) + β)` on real numbers, the first normalisation becomes a
  scaling of the two projections and a new bias, and the second a scaling of the weight's rows and a new bias.
  Entry 0 of the 33 is the edge logit; entries 1 to 32 are the edge features.
-/
import Idealize.ShloMosaic.PureOps.Ideal
import Idealize.ShloMosaic.Lib.ValueIdx

noncomputable section

open scoped BigOperators

namespace Cert.PairDecoder

open Idealize.ShloMosaic Idealize.ShloMosaic.ValueIdx

/-- A vector, a matrix and a rank-3 array of extended reals. -/
abbrev Vec1 (n : ℕ) : Type := (⟨1, ![n]⟩ : Shape).Idx → EReal
abbrev Mat (a b : ℕ) : Type := (⟨2, ![a, b]⟩ : Shape).Idx → EReal
abbrev Ten (a b c : ℕ) : Type := (⟨3, ![a, b, c]⟩ : Shape).Idx → EReal

/-- The variance offset `ε`: the single-precision number nearest to `1e-5`. -/
def eps : EReal := Ideal.ofBits .f32 0x3727C5AC#32

/-- The column scale as a quotient: `γ / √(var + ε)`. -/
def scaleQuot {n : ℕ} (g var : Vec1 n) : Fin n → EReal :=
  fun h => Ideal.div (g (ix1 h)) (Ideal.sqrt (var (ix1 h) + eps))

/-- The column scale as a product with the reciprocal root: `γ · (var + ε)^(-1/2)`. -/
def scaleRoot {n : ℕ} (g var : Vec1 n) : Fin n → EReal :=
  fun h => g (ix1 h) * Ideal.rsqrt (var (ix1 h) + eps)

/-- A linear layer on one row: `q ↦ (∑ k, x k · w (q, k)) + b q`, the weight stored output-major `[N, K]`. -/
def lin {K N : ℕ} (x : Fin K → EReal) (w : Mat N K) (b : Vec1 N) : Fin N → EReal :=
  fun q => (∑ k : Fin K, x k * w (ix2 q k)) + b (ix1 q)

/-- The normalisation of one row: `h ↦ (v h - μ h) · s h + β h`. -/
def normRow {n : ℕ} (s : Fin n → EReal) (mu be : Vec1 n) (v : Fin n → EReal) : Fin n → EReal :=
  fun h => (v h - mu (ix1 h)) * s h + be (ix1 h)

/-- The rectifier of one row. -/
def reluRow {n : ℕ} (v : Fin n → EReal) : Fin n → EReal := fun h => max (v h) 0

/-- A linear layer with the normalisation after it folded in: the weight's row `q` scaled by `s q`, the bias
    `s q · (b q - μ q) + β q`. -/
def linFolded {K N : ℕ} (s : Fin N → EReal) (x : Fin K → EReal) (w : Mat N K) (b mu be : Vec1 N) : Fin N → EReal :=
  fun q => (∑ k : Fin K, x k * (w (ix2 q k) * s q)) + (s q * (b (ix1 q) - mu (ix1 q)) + be (ix1 q))

/-! ## The node head -/

/-- Row `p` of the embeddings. -/
def rowOf {M K : ℕ} (x : Mat M K) (p : Fin M) : Fin K → EReal := fun k => x (ix2 p k)

/-- The node head at node `p`, with column scale `s`. -/
def nodeAt (s : Fin 512 → EReal) (x : Mat 512 256) (nW1 : Mat 512 256) (nb1 nbeta nmean : Vec1 512) (nW2 : Mat 128 512)
    (nb2 : Vec1 128) (p : Fin 512) : Fin 128 → EReal :=
  lin (reluRow (normRow s nmean nbeta (lin (rowOf x p) nW1 nb1))) nW2 nb2

/-- The node features as an array. -/
def nodeArr (s : Fin 512 → EReal) (x : Mat 512 256) (nW1 : Mat 512 256) (nb1 nbeta nmean : Vec1 512) (nW2 : Mat 128 512)
    (nb2 : Vec1 128) : Mat 512 128 :=
  fun i => nodeAt s x nW1 nb1 nbeta nmean nW2 nb2 (i 0) (i 1)

/-! ## The edge head -/

/-- Column `k` of the left half and of the right half of a `[512, 512]` weight's columns. -/
def leftCol (k : Fin 256) : Fin 512 := ⟨k.val, lt_trans k.isLt (by norm_num)⟩
def rightCol (k : Fin 256) : Fin 512 := ⟨256 + k.val, by have := k.isLt; omega⟩

/-- The projection of node `p`'s embedding by the left half of the first edge weight: `∑ k, x (p, k) · W (h, k)`. -/
def projL (x : Mat 512 256) (eW1 : Mat 512 512) (p h : Fin 512) : EReal :=
  ∑ k : Fin 256, x (ix2 p k) * eW1 (ix2 h (leftCol k))

/-- The projection by the right half: `∑ k, x (p, k) · W (h, 256 + k)`. -/
def projR (x : Mat 512 256) (eW1 : Mat 512 512) (p h : Fin 512) : EReal :=
  ∑ k : Fin 256, x (ix2 p k) * eW1 (ix2 h (rightCol k))

/-- The first edge layer before its normalisation, for the pair `(i, j)`. -/
def pairRow (x : Mat 512 256) (eW1 : Mat 512 512) (eb1 : Vec1 512) (i j : Fin 512) : Fin 512 → EReal :=
  fun h => projL x eW1 i h + projR x eW1 j h + eb1 (ix1 h)

/-- The first edge layer with its normalisation folded in, for the pair `(i, j)`. -/
def pairRowFolded (s : Fin 512 → EReal) (x : Mat 512 256) (eW1 : Mat 512 512) (eb1 emean1 ebeta1 : Vec1 512)
    (i j : Fin 512) : Fin 512 → EReal :=
  fun h => projL x eW1 i h * s h + projR x eW1 j h * s h + (s h * (eb1 (ix1 h) - emean1 (ix1 h)) + ebeta1 (ix1 h))

/-- The edge head as stated: both normalisations where they stand. -/
def edgeStated (s1 s2 : Fin 512 → EReal) (x : Mat 512 256) (eW1 : Mat 512 512) (eb1 ebeta1 emean1 : Vec1 512)
    (eW2 : Mat 512 512) (eb2 ebeta2 emean2 : Vec1 512) (eW3 : Mat 33 512) (eb3 : Vec1 33) (i j : Fin 512) : Fin 33 → EReal :=
  lin (reluRow (normRow s2 emean2 ebeta2 (lin (reluRow (normRow s1 emean1 ebeta1 (pairRow x eW1 eb1 i j))) eW2 eb2))) eW3 eb3

/-- The edge head with both normalisations folded into the layers before them. -/
def edgeFolded (s1 s2 : Fin 512 → EReal) (x : Mat 512 256) (eW1 : Mat 512 512) (eb1 ebeta1 emean1 : Vec1 512)
    (eW2 : Mat 512 512) (eb2 ebeta2 emean2 : Vec1 512) (eW3 : Mat 33 512) (eb3 : Vec1 33) (i j : Fin 512) : Fin 33 → EReal :=
  lin (reluRow (linFolded s2 (reluRow (pairRowFolded s1 x eW1 eb1 emean1 ebeta1 i j)) eW2 eb2 emean2 ebeta2)) eW3 eb3

/-- The edge logits as an array: entry 0 of each pair's vector. -/
def logitsArr (E : Fin 512 → Fin 512 → Fin 33 → EReal) : Mat 512 512 :=
  fun i => E (i 0) (i 1) (0 : Fin 33)

/-- The edge features as an array: entries 1 to 32 of each pair's vector. -/
def featArr (E : Fin 512 → Fin 512 → Fin 33 → EReal) : Ten 512 512 32 :=
  fun i => E (i 0) (i 1) (Fin.succ (i 2 : Fin 32))

/-! ## One tile of the edge head, from prepared operands

  The tiled computation receives a block of 64 rows `a` of scaled left projections, a block of 128 rows `c` of scaled right
  projections, a bias and the two later layers' weights stored input-major `[K, N]`; for the pair (row `p` of the first
  block, row `q` of the second) it forms `relu (a_p + c_q + b1)`, a linear layer, a rectifier and a linear layer. -/

/-- A linear layer on one row with the weight stored input-major `[K, N]`. -/
def linT {K N : ℕ} (x : Fin K → EReal) (w : Mat K N) (b : Vec1 N) : Fin N → EReal :=
  fun q => (∑ k : Fin K, x k * w (ix2 k q)) + b (ix1 q)

/-- One tile of the edge head at `(p, q)`. -/
def tileAt {A C : ℕ} (a : Mat A 512) (c : Mat C 512) (b1 : Vec1 512) (w2 : Mat 512 512) (b2 : Vec1 512) (w3 : Mat 512 33)
    (b3 : Vec1 33) (p : Fin A) (q : Fin C) : Fin 33 → EReal :=
  linT (reluRow (linT (reluRow fun h => a (ix2 p h) + c (ix2 q h) + b1 (ix1 h)) w2 b2)) w3 b3

/-! ## Real entries -/

/-- Every entry is a real number. -/
def IsReal {ι : Type*} (v : ι → EReal) : Prop := ∀ i, ∃ r : ℝ, v i = (r : EReal)

end Cert.PairDecoder

end
-- ==== Proof.KerRun.lean ====
/-
  The two-kernel program's run with its results named.

  The program is a stretch of host operations followed by two kernel regions. The buffer contents at each boundary form
  a fold from the launch memory: after the host stretch, after the first region (its three output arrays at what its
  write-backs leave), after the second region (likewise its two). Every weakly fair execution terminates without a
  fault; in the final state each result buffer holds the last boundary's contents at that buffer, and every argument
  array holds what it held at the launch. This is the launch theorem for a list of segments applied to the program's
  segments, with a final post that reads the three result buffers as well as the arguments.
-/
import proofs.«181811_j32916629356848_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; each result buffer ends at the last boundary's contents
    and each argument array as launched. -/
theorem run_results : θ_run defs (onTc (τ := τ) (main (F := F))) ⟨m, fun _ => 0, ρ⟩ (fun r => ∀ c : Dev nD,
      r.2.mem ((c.tc : Thread nD τ).loc main_v27_0) = W3 m ρ c (Proc.devRef .tc main_v27_0)
      ∧ r.2.mem ((c.tc : Thread nD τ).loc main_v28_0) = W3 m ρ c (Proc.devRef .tc main_v28_0)
      ∧ r.2.mem ((c.tc : Thread nD τ).loc main_v28_1) = W3 m ρ c (Proc.devRef .tc main_v28_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v27_0 (by decide)),
       h c _ (mem_uc main_v28_0 (by decide)),
       h c _ (mem_uc main_v28_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c),
       (h c _ (mem_uc main_arg15 (by decide))).trans (W3_main_arg15 m ρ c),
       (h c _ (mem_uc main_arg16 (by decide))).trans (W3_main_arg16 m ρ c),
       (h c _ (mem_uc main_arg17 (by decide))).trans (W3_main_arg17 m ρ c),
       (h c _ (mem_uc main_arg18 (by decide))).trans (W3_main_arg18 m ρ c),
       (h c _ (mem_uc main_arg19 (by decide))).trans (W3_main_arg19 m ρ c),
       (h c _ (mem_uc main_arg20 (by decide))).trans (W3_main_arg20 m ρ c),
       (h c _ (mem_uc main_arg21 (by decide))).trans (W3_main_arg21 m ρ c),
       (h c _ (mem_uc main_arg22 (by decide))).trans (W3_main_arg22 m ρ c)⟩)

end Cert.KernelIdeal.Results

end
-- ==== Proof.KerBlocks0.lean ====
/-
  The first kernel region, read as values.

  The region's grid has one point, and at that point every window's block is the window's whole array (block index
  zero on every axis, block extents the array's extents). So each input block is the array the region found, and the one
  write-back of each output window writes the whole array: after the region an output array holds what the body stored,
  the body's stored value being a pure function of the arrays found at entry.
-/
import proofs.«181811_j32916629356848_2_alg».proof.Proof.Gen.KernelIdeal.Frame
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable {F : FTy → Type} [FloatOps F]
variable (V : (c : Dev nD) → (b : Ref sig .tc) → Buf (Elt F) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## Each input block is the whole array -/

theorem iblk0_0 (c : Dev nD) (t : Fin cfg0.N) : iblk0 V c 0 t = V c main_arg0 := by
  obtain rfl := fin_N0 t
  have hz' : (fun a => win0_0.index t0_0 a * main_arg0.ty.shape.size a) = fun _ => 0 := funext fun a => by fin_cases a <;> decide +kernel
  exact Memref.read_access_unit_zero (Elt F) main_arg0 hz' (fun a => by rw [congrFun hz' a]; simp) (V c main_arg0)

theorem iblk0_1 (c : Dev nD) (t : Fin cfg0.N) : iblk0 V c 1 t = V c main_v0 := by
  obtain rfl := fin_N0 t
  have hz' : (fun a => win0_1.index t0_0 a * main_v0.ty.shape.size a) = fun _ => 0 := funext fun a => by fin_cases a <;> decide +kernel
  exact Memref.read_access_unit_zero (Elt F) main_v0 hz' (fun a => by rw [congrFun hz' a]; simp) (V c main_v0)

theorem iblk0_2 (c : Dev nD) (t : Fin cfg0.N) : iblk0 V c 2 t = V c main_arg2 := by
  obtain rfl := fin_N0 t
  have hz' : (fun a => win0_2.index t0_0 a * main_arg2.ty.shape.size a) = fun _ => 0 := funext fun a => by fin_cases a <;> decide +kernel
  exact Memref.read_access_unit_zero (Elt F) main_arg2 hz' (fun a => by rw [congrFun hz' a]; simp) (V c main_arg2)

theorem iblk0_3 (c : Dev nD) (t : Fin cfg0.N) : iblk0 V c 3 t = V c main_arg3 := by
  obtain rfl := fin_N0 t
  have hz' : (fun a => win0_3.index t0_0 a * main_arg3.ty.shape.size a) = fun _ => 0 := funext fun a => by fin_cases a <;> decide +kernel
  exact Memref.read_access_unit_zero (Elt F) main_arg3 hz' (fun a => by rw [congrFun hz' a]; simp) (V c main_arg3)

theorem iblk0_4 (c : Dev nD) (t : Fin cfg0.N) : iblk0 V c 4 t = V c main_arg4 := by
  obtain rfl := fin_N0 t
  have hz' : (fun a => win0_4.index t0_0 a * main_arg4.ty.shape.size a) = fun _ => 0 := funext fun a => by fin_cases a <;> decide +kernel
  exact Memref.read_access_unit_zero (Elt F) main_arg4 hz' (fun a => by rw [congrFun hz' a]; simp) (V c main_arg4)

theorem iblk0_5 (c : Dev nD) (t : Fin cfg0.N) : iblk0 V c 5 t = V c main_arg5 := by
  obtain rfl := fin_N0 t
  have hz' : (fun a => win0_5.index t0_0 a * main_arg5.ty.shape.size a) = fun _ => 0 := funext fun a => by fin_cases a <;> decide +kernel
  exact Memref.read_access_unit_zero (Elt F) main_arg5 hz' (fun a => by rw [congrFun hz' a]; simp) (V c main_arg5)

theorem iblk0_6 (c : Dev nD) (t : Fin cfg0.N) : iblk0 V c 6 t = V c main_arg6 := by
  obtain rfl := fin_N0 t
  have hz' : (fun a => win0_6.index t0_0 a * main_arg6.ty.shape.size a) = fun _ => 0 := funext fun a => by fin_cases a <;> decide +kernel
  exact Memref.read_access_unit_zero (Elt F) main_arg6 hz' (fun a => by rw [congrFun hz' a]; simp) (V c main_arg6)

theorem iblk0_7 (c : Dev nD) (t : Fin cfg0.N) : iblk0 V c 7 t = V c main_v1 := by
  obtain rfl := fin_N0 t
  have hz' : (fun a => win0_7.index t0_0 a * main_v1.ty.shape.size a) = fun _ => 0 := funext fun a => by fin_cases a <;> decide +kernel
  exact Memref.read_access_unit_zero (Elt F) main_v1 hz' (fun a => by rw [congrFun hz' a]; simp) (V c main_v1)

theorem iblk0_8 (c : Dev nD) (t : Fin cfg0.N) : iblk0 V c 8 t = V c main_arg8 := by
  obtain rfl := fin_N0 t
  have hz' : (fun a => win0_8.index t0_0 a * main_arg8.ty.shape.size a) = fun _ => 0 := funext fun a => by fin_cases a <;> decide +kernel
  exact Memref.read_access_unit_zero (Elt F) main_arg8 hz' (fun a => by rw [congrFun hz' a]; simp) (V c main_arg8)

theorem iblk0_9 (c : Dev nD) (t : Fin cfg0.N) : iblk0 V c 9 t = V c main_v4 := by
  obtain rfl := fin_N0 t
  have hz' : (fun a => win0_9.index t0_0 a * main_v4.ty.shape.size a) = fun _ => 0 := funext fun a => by fin_cases a <;> decide +kernel
  exact Memref.read_access_unit_zero (Elt F) main_v4 hz' (fun a => by rw [congrFun hz' a]; simp) (V c main_v4)

theorem iblk0_10 (c : Dev nD) (t : Fin cfg0.N) : iblk0 V c 10 t = V c main_v5 := by
  obtain rfl := fin_N0 t
  have hz' : (fun a => win0_10.index t0_0 a * main_v5.ty.shape.size a) = fun _ => 0 := funext fun a => by fin_cases a <;> decide +kernel
  exact Memref.read_access_unit_zero (Elt F) main_v5 hz' (fun a => by rw [congrFun hz' a]; simp) (V c main_v5)

theorem iblk0_11 (c : Dev nD) (t : Fin cfg0.N) : iblk0 V c 11 t = V c main_v9 := by
  obtain rfl := fin_N0 t
  have hz' : (fun a => win0_11.index t0_0 a * main_v9.ty.shape.size a) = fun _ => 0 := funext fun a => by fin_cases a <;> decide +kernel
  exact Memref.read_access_unit_zero (Elt F) main_v9 hz' (fun a => by rw [congrFun hz' a]; simp) (V c main_v9)

/-! ## Each output array after the region is what the body stored -/

/-- The one write-back of window 12 writes the whole array. -/
theorem flushed0_12 (c : Dev nD) (t : Fin cfg0.N) (G : Vec F S512x128 .f32)
    (hG : out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) = G) :
    (dat0 V c).flushed 12 t = ((cfg0.win 12).blk t).view.read (Elt F) G := by
  obtain rfl := fin_N0 t
  show (cfg0.win 12).cut (grid0.coords t0_0) ((dat0 V c).after 12 t0_0) = _
  rw [after0_12, hG]
  have hz' : (fun a => win0_12.index t0_0 a * main_v27_0.ty.shape.size a) = fun _ => 0 := funext fun a => by fin_cases a <;> decide +kernel
  exact (Memref.read_access_unit_zero (Elt F) main_v27_0 hz' (fun a => by rw [congrFun hz' a]; simp) G).symm

/-- So the array ends holding what the body stored. -/
theorem arr0_12 (c : Dev nD) (G : Vec F S512x128 .f32)
    (hG : ∀ t : Fin cfg0.N, out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) = G) :
    (dat0 V c).arrAt 12 cfg0.N = G :=
  (dat0 V c).arrAt_eq_of_cover 12 G (fun t _ => flushed0_12 V c t G (hG t)) fun i =>
    ⟨t0_0, flush0_12 t0_0, by
      show i ∈ ((View.whole main_v27_0).slice (win0_12.rect t0_0)).set
      rw [View.set_slice_whole, Rect.mem_set_unit]
      intro a
      have h0 : (i 0 : Nat) < 512 := (i 0).isLt
      have h1 : (i 1 : Nat) < 128 := (i 1).isLt
      match a with
      | ⟨0, _⟩ => show win0_12.index t0_0 0 * win0_12.size 0 ≤ (i 0 : Nat) ∧ (i 0 : Nat) < win0_12.index t0_0 0 * win0_12.size 0 + win0_12.xsize (grid0.coords t0_0) 0
                  rw [show win0_12.index t0_0 0 * win0_12.size 0 = 0 from by decide +kernel, show win0_12.xsize (grid0.coords t0_0) 0 = 512 from by decide +kernel]; omega
      | ⟨1, _⟩ => show win0_12.index t0_0 1 * win0_12.size 1 ≤ (i 1 : Nat) ∧ (i 1 : Nat) < win0_12.index t0_0 1 * win0_12.size 1 + win0_12.xsize (grid0.coords t0_0) 1
                  rw [show win0_12.index t0_0 1 * win0_12.size 1 = 0 from by decide +kernel, show win0_12.xsize (grid0.coords t0_0) 1 = 128 from by decide +kernel]; omega⟩

/-- The one write-back of window 13 writes the whole array. -/
theorem flushed0_13 (c : Dev nD) (t : Fin cfg0.N) (G : Vec F S512x512 .f32)
    (hG : out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) = G) :
    (dat0 V c).flushed 13 t = ((cfg0.win 13).blk t).view.read (Elt F) G := by
  obtain rfl := fin_N0 t
  show (cfg0.win 13).cut (grid0.coords t0_0) ((dat0 V c).after 13 t0_0) = _
  rw [after0_13, hG]
  have hz' : (fun a => win0_13.index t0_0 a * main_v27_1.ty.shape.size a) = fun _ => 0 := funext fun a => by fin_cases a <;> decide +kernel
  exact (Memref.read_access_unit_zero (Elt F) main_v27_1 hz' (fun a => by rw [congrFun hz' a]; simp) G).symm

/-- So the array ends holding what the body stored. -/
theorem arr0_13 (c : Dev nD) (G : Vec F S512x512 .f32)
    (hG : ∀ t : Fin cfg0.N, out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) = G) :
    (dat0 V c).arrAt 13 cfg0.N = G :=
  (dat0 V c).arrAt_eq_of_cover 13 G (fun t _ => flushed0_13 V c t G (hG t)) fun i =>
    ⟨t0_0, flush0_13 t0_0, by
      show i ∈ ((View.whole main_v27_1).slice (win0_13.rect t0_0)).set
      rw [View.set_slice_whole, Rect.mem_set_unit]
      intro a
      have h0 : (i 0 : Nat) < 512 := (i 0).isLt
      have h1 : (i 1 : Nat) < 512 := (i 1).isLt
      match a with
      | ⟨0, _⟩ => show win0_13.index t0_0 0 * win0_13.size 0 ≤ (i 0 : Nat) ∧ (i 0 : Nat) < win0_13.index t0_0 0 * win0_13.size 0 + win0_13.xsize (grid0.coords t0_0) 0
                  rw [show win0_13.index t0_0 0 * win0_13.size 0 = 0 from by decide +kernel, show win0_13.xsize (grid0.coords t0_0) 0 = 512 from by decide +kernel]; omega
      | ⟨1, _⟩ => show win0_13.index t0_0 1 * win0_13.size 1 ≤ (i 1 : Nat) ∧ (i 1 : Nat) < win0_13.index t0_0 1 * win0_13.size 1 + win0_13.xsize (grid0.coords t0_0) 1
                  rw [show win0_13.index t0_0 1 * win0_13.size 1 = 0 from by decide +kernel, show win0_13.xsize (grid0.coords t0_0) 1 = 512 from by decide +kernel]; omega⟩

/-- The one write-back of window 14 writes the whole array. -/
theorem flushed0_14 (c : Dev nD) (t : Fin cfg0.N) (G : Vec F S512x512 .f32)
    (hG : out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) = G) :
    (dat0 V c).flushed 14 t = ((cfg0.win 14).blk t).view.read (Elt F) G := by
  obtain rfl := fin_N0 t
  show (cfg0.win 14).cut (grid0.coords t0_0) ((dat0 V c).after 14 t0_0) = _
  rw [after0_14, hG]
  have hz' : (fun a => win0_14.index t0_0 a * main_v27_2.ty.shape.size a) = fun _ => 0 := funext fun a => by fin_cases a <;> decide +kernel
  exact (Memref.read_access_unit_zero (Elt F) main_v27_2 hz' (fun a => by rw [congrFun hz' a]; simp) G).symm

/-- So the array ends holding what the body stored. -/
theorem arr0_14 (c : Dev nD) (G : Vec F S512x512 .f32)
    (hG : ∀ t : Fin cfg0.N, out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) = G) :
    (dat0 V c).arrAt 14 cfg0.N = G :=
  (dat0 V c).arrAt_eq_of_cover 14 G (fun t _ => flushed0_14 V c t G (hG t)) fun i =>
    ⟨t0_0, flush0_14 t0_0, by
      show i ∈ ((View.whole main_v27_2).slice (win0_14.rect t0_0)).set
      rw [View.set_slice_whole, Rect.mem_set_unit]
      intro a
      have h0 : (i 0 : Nat) < 512 := (i 0).isLt
      have h1 : (i 1 : Nat) < 512 := (i 1).isLt
      match a with
      | ⟨0, _⟩ => show win0_14.index t0_0 0 * win0_14.size 0 ≤ (i 0 : Nat) ∧ (i 0 : Nat) < win0_14.index t0_0 0 * win0_14.size 0 + win0_14.xsize (grid0.coords t0_0) 0
                  rw [show win0_14.index t0_0 0 * win0_14.size 0 = 0 from by decide +kernel, show win0_14.xsize (grid0.coords t0_0) 0 = 512 from by decide +kernel]; omega
      | ⟨1, _⟩ => show win0_14.index t0_0 1 * win0_14.size 1 ≤ (i 1 : Nat) ∧ (i 1 : Nat) < win0_14.index t0_0 1 * win0_14.size 1 + win0_14.xsize (grid0.coords t0_0) 1
                  rw [show win0_14.index t0_0 1 * win0_14.size 1 = 0 from by decide +kernel, show win0_14.xsize (grid0.coords t0_0) 1 = 512 from by decide +kernel]; omega⟩

/-- The node-feature array after the region: the body's first stored value of the arrays at entry. -/
theorem final0_12 (c : Dev nD) : (dat0 V c).arrAt 12 cfg0.N
    = k0_pay4 (V c main_arg0) (V c main_v0) (V c main_arg2) (V c main_arg3) (V c main_arg6) (V c main_arg5) (V c main_arg4) (V c main_v1) (V c main_arg8) :=
  arr0_12 V c _ fun t => by
    unfold out0_12
    rw [View.canon_unit_zero hz2]
    simp only [View.ld_unit_zero (S := S512x256) hz2, View.ld_unit_zero (S := S256x512) hz2, View.ld_unit_zero (S := S512) hz1, View.ld_unit_zero (S := S512x128) hz2, View.ld_unit_zero (S := S128) hz1, iblk0_0 V c t, iblk0_1 V c t, iblk0_2 V c t, iblk0_3 V c t, iblk0_4 V c t, iblk0_5 V c t, iblk0_6 V c t, iblk0_7 V c t, iblk0_8 V c t, iblk0_9 V c t, iblk0_10 V c t, iblk0_11 V c t]

/-- The scaled left projections after the region. -/
theorem final0_13 (c : Dev nD) : (dat0 V c).arrAt 13 cfg0.N = k0_pay2 (V c main_arg0) (k0_pay5 (V c main_v4)) (V c main_v9) :=
  arr0_13 V c _ fun t => by
    unfold out0_13
    rw [View.canon_unit_zero hz2]
    simp only [View.ld_unit_zero (S := S512x256) hz2, View.ld_unit_zero (S := S256x512) hz2, View.ld_unit_zero (S := S512) hz1, View.ld_unit_zero (S := S512x128) hz2, View.ld_unit_zero (S := S128) hz1, iblk0_0 V c t, iblk0_1 V c t, iblk0_2 V c t, iblk0_3 V c t, iblk0_4 V c t, iblk0_5 V c t, iblk0_6 V c t, iblk0_7 V c t, iblk0_8 V c t, iblk0_9 V c t, iblk0_10 V c t, iblk0_11 V c t]

/-- The scaled right projections after the region. -/
theorem final0_14 (c : Dev nD) : (dat0 V c).arrAt 14 cfg0.N = k0_pay3 (V c main_arg0) (V c main_v5) (V c main_v9) :=
  arr0_14 V c _ fun t => by
    unfold out0_14
    rw [View.canon_unit_zero hz2]
    simp only [View.ld_unit_zero (S := S512x256) hz2, View.ld_unit_zero (S := S256x512) hz2, View.ld_unit_zero (S := S512) hz1, View.ld_unit_zero (S := S512x128) hz2, View.ld_unit_zero (S := S128) hz1, iblk0_0 V c t, iblk0_1 V c t, iblk0_2 V c t, iblk0_3 V c t, iblk0_4 V c t, iblk0_5 V c t, iblk0_6 V c t, iblk0_7 V c t, iblk0_8 V c t, iblk0_9 V c t, iblk0_10 V c t, iblk0_11 V c t]

end Cert.KernelIdeal.Blocks

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibMidAxisLayout.lean ====
/-
  Layout operations of small ranks read at an index given by its coordinates, beyond the leading-unit-axis cases:
  a unit axis inserted in the MIDDLE of a matrix and broadcast over, two axes MERGED into one and split again, a vector
  lifted to two leading unit axes and broadcast over both, and the unit axes of a rank-4 block dropped.

  Each statement reads one `vector.shape_cast` or `vector.broadcast` at `ixN …` as its operand at `ixM …`; the sizes are
  arbitrary naturals. A shape cast preserves the row-major position, so each cast lemma is one equation between two
  row-major positions; a broadcast reads coordinate `0` on the operand's unit axes and the result's own coordinate on the others.
-/
import Idealize.ShloMosaic.Lib.Pipeline.Value
import Idealize.ShloMosaic.Lib.ValueIdx
import Idealize.ShloMosaic.Lib.ValueLayout

namespace Cert.LibMidAxisLayout

open Idealize.ShloMosaic Idealize.ShloMosaic.ValueIdx

variable {α : Type}

/-! ## A unit axis in the middle -/

/-- An `[a, c]` matrix cast to `[a, 1, c]` reads, at `(p, u, q)`, the operand at `(p, q)`: the position
    `(p · 1 + u) · c + q` with `u = 0` is `p · c + q`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_three, Shape.rowMajor_val_two]
    show p.val * c + q.val = (p.val * 1 + u.val) * c + q.val
    rw [hu, Nat.mul_one, Nat.add_zero])

/-- An `[a, 1, c]` array broadcast to `[a, b, c]` reads, at `(p, u, q)`, the operand at `(p, 0, q)`: the same
    row for every `u`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (u : Fin b) (q : Fin c) :
    broadcastTo ⟨3, ![a, b, c]⟩ x h (ix3 p u q) = x (ix3 p (0 : Fin 1) q) := by
  refine broadcastTo_apply x h (ix3 p u q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A `[1, b, c]` array broadcast to `[a, b, c]` reads, at `(p, u, q)`, the operand at `(0, u, q)`: the same
    matrix for every `p`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (u : Fin b) (q : Fin c) :
    broadcastTo ⟨3, ![a, b, c]⟩ x h (ix3 p u q) = x (ix3 (0 : Fin 1) u q) := by
  refine broadcastTo_apply x h (ix3 p u q) (ix3 (0 : Fin 1) u q) fun ax => ?_
  match ax with
  | ⟨0, _⟩ => rfl
  | ⟨1, _⟩ =>
    show u.val = if b = 1 then 0 else u.val
    split
    · have := u.isLt; omega
    · rfl
  | ⟨2, _⟩ =>
    show q.val = if c = 1 then 0 else q.val
    split
    · have := q.isLt; omega
    · rfl

/-! ## Two axes merged into one, and split again -/

/-- An `[a, b, c]` array cast to `[m, c]` (so `m = a · b`) reads, at row `r = p · b + u` and column `q`, the
    operand at `(p, u, q)`. -/
theorem shapeCast_abc_mc_apply {a b c m : ℕ} (x : (⟨3, ![a, b, c]⟩ : Shape).Idx → α)
    (h : (⟨3, ![a, b, c]⟩ : Shape).ShapeCasts ⟨2, ![m, c]⟩) (p : Fin a) (u : Fin b) (q : Fin c) (r : Fin m)
    (hr : r.val = p.val * b + u.val) :
    shapeCast ⟨2, ![m, c]⟩ x h (ix2 r q) = x (ix3 p u q) :=
  shapeCast_apply x h _ _ (by
    rw [Shape.rowMajor_val_three, Shape.rowMajor_val_two]
    show (p.val * b + u.val) * c + q.val = r.val * c + q.val
    rw [hr])

/-- An `[m, c]` matrix cast to `[a, b, c]` (so `m = a · b`) reads, at `(p, u, q)`, the operand at row
    `r = p · b + u` and column `q`. -/
theorem shapeCast_mc_abc_apply {a b c m : ℕ} (x : (⟨2, ![m, c]⟩ : Shape).Idx → α)
    (h : (⟨2, ![m, c]⟩ : Shape).ShapeCasts ⟨3, ![a, b, c]⟩) (p : Fin a) (u : Fin b) (q : Fin c) (r : Fin m)
    (hr : r.val = p.val * b + u.val) :
    shapeCast ⟨3, ![a, b, c]⟩ x h (ix3 p u q) = x (ix2 r q) :=
  shapeCast_apply x h _ _ (by
    rw [Shape.rowMajor_val_three, Shape.rowMajor_val_two]
    show r.val * c + q.val = (p.val * b + u.val) * c + q.val
    rw [hr])

/-! ## A vector under two leading unit axes -/

/-- An `[n]` vector cast to `[1, 1, n]` reads, at `(u, w, q)`, the operand at `q`. -/
theorem shapeCast_n_11n_apply {n : ℕ} (x : (⟨1, ![n]⟩ : Shape).Idx → α)
    (h : (⟨1, ![n]⟩ : Shape).ShapeCasts ⟨3, ![1, 1, n]⟩) (u w : Fin 1) (q : Fin n) :
    shapeCast ⟨3, ![1, 1, n]⟩ x h (ix3 u w q) = x (ix1 q) :=
  shapeCast_apply x h _ _ (by
    have hu : u.val = 0 := by omega
    have hw : w.val = 0 := by omega
    rw [Shape.rowMajor_val_three, Shape.rowMajor_val_one]
    show q.val = (u.val * 1 + w.val) * n + q.val
    rw [hu, hw]
    simp only [Nat.zero_mul, Nat.zero_add, Nat.mul_one, Nat.add_zero])

/-- A `[1, 1, n]` array broadcast to `[a, b, n]` reads, at `(p, u, q)`, the operand at `(0, 0, q)`. -/
theorem broadcastTo_11n_abn_apply {a b n : ℕ} (x : (⟨3, ![1, 1, n]⟩ : Shape).Idx → α)
    (h : (⟨3, ![1, 1, n]⟩ : Shape).Broadcasts ⟨3, ![a, b, n]⟩) (p : Fin a) (u : Fin b) (q : Fin n) :
    broadcastTo ⟨3, ![a, b, n]⟩ x h (ix3 p u q) = x (ix3 (0 : Fin 1) (0 : Fin 1) q) := by
  refine broadcastTo_apply x h (ix3 p u q) (ix3 (0 : Fin 1) (0 : Fin 1) q) fun ax => ?_
  match ax with
  | ⟨0, _⟩ => rfl
  | ⟨1, _⟩ => rfl
  | ⟨2, _⟩ =>
    show q.val = if n = 1 then 0 else q.val
    split
    · have := q.isLt; omega
    · rfl

/-! ## The unit axes of a rank-4 block dropped -/

/-- A `[1, a, 1, c]` block cast to `[a, c]` reads, at `(p, q)`, the operand at `(0, p, 0, q)`. -/
theorem shapeCast_1a1c_ac_apply {a c : ℕ} (x : (⟨4, ![1, a, 1, c]⟩ : Shape).Idx → α)
    (h : (⟨4, ![1, a, 1, c]⟩ : Shape).ShapeCasts ⟨2, ![a, c]⟩) (p : Fin a) (q : Fin c) :
    shapeCast ⟨2, ![a, c]⟩ x h (ix2 p q) = x (ix4 (0 : Fin 1) p (0 : Fin 1) q) :=
  shapeCast_apply x h _ _ (by
    rw [Shape.rowMajor_val_four, Shape.rowMajor_val_two]
    show ((0 * a + p.val) * 1 + 0) * c + q.val = p.val * c + q.val
    rw [Nat.zero_mul, Nat.zero_add, Nat.mul_one, Nat.add_zero])

/-- A `[1, 1, b, c]` block cast to `[b, c]` reads, at `(u, q)`, the operand at `(0, 0, u, q)`. -/
theorem shapeCast_11bc_bc_apply {b c : ℕ} (x : (⟨4, ![1, 1, b, c]⟩ : Shape).Idx → α)
    (h : (⟨4, ![1, 1, b, c]⟩ : Shape).ShapeCasts ⟨2, ![b, c]⟩) (u : Fin b) (q : Fin c) :
    shapeCast ⟨2, ![b, c]⟩ x h (ix2 u q) = x (ix4 (0 : Fin 1) (0 : Fin 1) u q) :=
  shapeCast_apply x h _ _ (by
    rw [Shape.rowMajor_val_four, Shape.rowMajor_val_two]
    show ((0 * 1 + 0) * b + u.val) * c + q.val = u.val * c + q.val
    simp only [Nat.zero_mul, Nat.zero_add, Nat.mul_one, Nat.add_zero])

end Cert.LibMidAxisLayout
-- ==== Proof.LibRank3Layout.lean ====
/-
  Layout operations on rank-3 shapes, read at an index given by its coordinates.

  * A matrix `[a, b]` cast to `[a, b, 1]` (a trailing unit axis added): the element at `(i, j, u)` is the
    matrix's at `(i, j)`; both indices sit at the same row-major position, since the unit coordinate is `0`.
  * An `[a, b, 1]` array broadcast to `[a, b, c]`: the element at `(i, j, k)` is the operand's at `(i, j, 0)`;
    the broadcast copies along the unit axis and keeps the other two coordinates.
  * A `[1, b, c]` array broadcast to `[a, b, c]`: the element at `(i, j, k)` is the operand's one matrix at
    `(j, k)`, whatever the leading coordinate.
-/
import Idealize.ShloMosaic.Lib.ValueLayout

namespace Cert.LibRank3Layout

open Idealize.ShloMosaic Idealize.ShloMosaic.ValueIdx

variable {α : Type}

/-- An `[a, b]` array cast to `[a, b, 1]` reads, at `(i, j, u)`, the operand at `(i, j)`, whatever the unit
    coordinate `u`: the row-major positions are `i * b + j` and `(i * b + j) * 1 + u` with `u = 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand's one matrix at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibRank3Layout
-- ==== Proof.LibRowSpread.lean ====
/-
  Layout operations that spread a matrix or one row of a table over a further axis, and a transposed merge, read at an
  index given by its coordinates; the sizes are arbitrary naturals.

  * A rank-3 array cut along its LAST axis from `o`: the element at `(a, b, j)` is the source's at `(a, b, o + j)`.
  * An `[a, b, 1]` array cast to `[a, b]`: the element at `(i, j)` is the operand's at `(i, j, 0)`.
  * A weight per (point, channel), spread over the features: an `[a, b]` matrix given a trailing unit axis and
    broadcast to `[a, b, c]` reads, at `(i, j, k)`, the matrix at `(i, j)`.
  * One row `r` of a table `[a, b, d]` (its last axis the rows), spread over the points: the slice `[:, :, r]`
    cast to `[a, b]`, then to `[1, a, b]`, and broadcast to `[p, a, b]` reads, at `(n, i, j)`, the table at `(i, j, r)`.
  * A `[p, a, b]` array with its last two axes exchanged and then merged: the element at `(n, a·c + g)` is the
    array's at `(n, g, c)`.
-/
import proofs.«181811_j32916629356848_2_alg».proof.Proof.LibRank3Layout
import Idealize.ShloMosaic.Lib.Pipeline.Value
import Idealize.ShloMosaic.Lib.ValueIdx
import Idealize.ShloMosaic.Lib.ValueLayout

namespace Cert.LibRowSpread

open Idealize.ShloMosaic Idealize.ShloMosaic.ValueIdx

variable {α : Type}

/-- A rank-3 array cut along axis 2 from `o` reads, at `(a, b, j)`, the source at `(a, b, k)` with `k = o + j`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[a, b, 1]` array cast to `[a, b]` reads, at `(i, j)`, the operand at `(i, j, 0)`: the row-major positions
    are `(i · b + j) · 1 + 0` and `i · b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- A matrix given a trailing unit axis and broadcast along it reads, at `(i, j, k)`, the matrix at `(i, j)`. -/
theorem spread_weight {a b c : ℕ} (X : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ X h1) h2 (ix3 i j k) = X (ix2 i j) := by
  rw [Cert.LibRank3Layout.broadcastTo_ab1_abc_apply, Cert.LibRank3Layout.shapeCast_ab_ab1_apply]

/-- Row `r` of a table whose last axis are the rows, spread over a leading axis of points, reads, at `(n, i, j)`,
    the table at `(i, j, r)`. -/
theorem spread_row {p a b d : ℕ} (T : (⟨3, ![a, b, d]⟩ : Shape).Idx → α) (r : ℕ) (hr : r < d)
    (h0 : (⟨3, ![a, b, d]⟩ : Shape).Slices ![0, 0, r] ⟨3, ![a, b, 1]⟩)
    (h1 : (⟨3, ![a, b, 1]⟩ : Shape).ShapeCasts ⟨2, ![a, b]⟩)
    (h2 : (⟨2, ![a, b]⟩ : Shape).ShapeCasts ⟨3, ![1, a, b]⟩)
    (h3 : (⟨3, ![1, a, b]⟩ : Shape).Broadcasts ⟨3, ![p, a, b]⟩) (n : Fin p) (i : Fin a) (j : Fin b) :
    broadcastTo ⟨3, ![p, a, b]⟩
        (shapeCast ⟨3, ![1, a, b]⟩ (shapeCast ⟨2, ![a, b]⟩ (extractStridedSlice ⟨3, ![a, b, 1]⟩ ![0, 0, r] T h0) h1) h2) h3
        (ix3 n i j) = T (ix3 i j ⟨r, hr⟩) := by
  rw [Cert.LibRank3Layout.broadcastTo_1bc_abc_apply, shapeCast_ab_1ab_apply, shapeCast_ab1_ab_apply,
    slice3_axis2_apply r T h0 i j (0 : Fin 1) ⟨r, hr⟩ rfl]

/-- A `[p, a, b]` array with its last two axes exchanged, then merged into one of length `m = b · a`, reads, at
    `(n, J)` with `J = c · a + g`, the array at `(n, g, c)`. -/
theorem merge_exchanged {p a b m : ℕ} (X : (⟨3, ![p, a, b]⟩ : Shape).Idx → α)
    (ht : (⟨3, ![p, a, b]⟩ : Shape).Transposes [0, 2, 1] ⟨3, ![p, b, a]⟩)
    (hc : (⟨3, ![p, b, a]⟩ : Shape).ShapeCasts ⟨2, ![p, m]⟩) (hm : m = b * a)
    (n : Fin p) (g : Fin a) (c : Fin b) (J : Fin m) (hJ : J.val = c.val * a + g.val) :
    shapeCast ⟨2, ![p, m]⟩ (transpose ⟨3, ![p, b, a]⟩ [0, 2, 1] X ht) hc (ix2 n J) = X (ix3 n g c) := by
  rw [shapeCast_apply _ hc (ix2 n J) (ix3 n c g) (by
    rw [Shape.rowMajor_val_three, Shape.rowMajor_val_two]
    show (n.val * b + c.val) * a + g.val = n.val * m + J.val
    rw [hJ, hm]; ring), transpose_ix3_021_apply]

end Cert.LibRowSpread
-- ==== Proof.KerBody.lean ====
/-
  The arithmetic of the two kernel bodies of the graph decoder, read at an index on the extended reals.

  The first body prepares the operands: from the embeddings `x : [512, 256]` it forms the node features
  `relu (((x · W1 + b1) - μ) · (γ · (var + ε)^(-1/2)) + β) · W2 + b2` and the two scaled projections `(x · L) · s` and
  `(x · R) · s`, the scale `s` multiplied into every row. Entry `(p, f)` of the node features depends on row `p` of `x`
  only and is the specification's `linT (reluRow (…)) W2 b2 f` on that row (`node_payload`); entry `(p, h)` of a
  projection is `(∑ k, x (p, k) · L (k, h)) · s h` (`projL_payload`, `projR_payload`).

  The second body receives a block of 64 rows `A` and a block of 128 rows `C` of the scaled projections. It forms the
  rank-3 array `relu (A[:, None, :] + C[None, :, :] + b1)`, merges its two leading axes into one of 8192 rows, applies a
  linear layer, a rectifier and a last linear layer to 33 columns, and splits the 8192 rows into `[64, 128]` again. The
  merged row `a · 128 + b` is the pair `(a, b)`, and every step acts row by row, so entry `(a, b, o)` of the result is
  the specification's tile `tileAt A C b1 W2 b2 W3 b3 a b o` (`pay2_at`). On the extended reals a rounding to a narrower
  format is the identity. The logits are the slice at column 0 (`logits_payload`), the features the slice of columns
  1 to 32 (`feat_payload`).

  Each statement unfolds a payload of the generated skeleton module and pushes the index through it: a pointwise operation
  reads its operands at the same index, a matrix product into the zero accumulator at `(p, q)` is `∑ k, l (p, k) · r (k, q)`,
  a cast preserves the row-major position, a broadcast reads coordinate 0 on the unit axes.
-/
import proofs.«181811_j32916629356848_2_alg».proof.Proof.Gen.KernelIdeal.Skeleton
import proofs.«181811_j32916629356848_2_alg».proof.Proof.Spec
import proofs.«181811_j32916629356848_2_alg».proof.Proof.LibPlainMatmul
import proofs.«181811_j32916629356848_2_alg».proof.Proof.LibMidAxisLayout
import proofs.«181811_j32916629356848_2_alg».proof.Proof.LibRowSpread
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.PairDecoder.KerBody

open Cert.KernelIdeal Cert.KernelIdeal.Gen Cert.PairDecoder Idealize.ShloMosaic Idealize.ShloMosaic.ValueIdx
open Cert.LibPlainMatmul Cert.LibMidAxisLayout Cert.LibRowSpread

/-! ## The first body: node features and scaled projections -/

/-- The node payload at `(p, f)`: the first layer on row `p`, the normalisation with the reciprocal-root scale, the
    rectifier, and the second layer at column `f`. -/
theorem node_payload (v0 : Vec Ideal S512x256 .f32) (v1 : Vec Ideal S256x512 .f32) (v4 v8 v9 v14 v21 : Vec Ideal S512 .f32) (v27 : Vec Ideal S512x128 .f32) (v30 : Vec Ideal S128 .f32) (p : Fin 512) (f : Fin 128) :
    k0_pay4 (F := Ideal) v0 v1 v4 v8 v9 v14 v21 v27 v30 (ix2 p f)
      = linT (reluRow fun h => (linT (rowOf v0 p) v1 v4 h - v14 (ix1 h)) * (v8 (ix1 h) * Ideal.rsqrt (v9 (ix1 h) + eps)) + v21 (ix1 h)) v27 v30 f := by
  unfold k0_pay4
  simp only [matmul]
  rw [addf_apply, matmul_plain_zero_apply dot_S512x512_S512x128_S512x128_1_0_0_1_n_n rfl, broadcastTo_1b_ab_apply, shapeCast_a_1a_apply]
  refine congrArg (· + v30 (ix1 f)) (Finset.sum_congr rfl fun k _ => ?_)
  rw [shapeCast_self, maximumf_apply, addf_apply, mulf_apply, subf_apply, addf_apply,
    matmul_plain_zero_apply dot_S512x256_S256x512_S512x512_1_0_0_1_n_n rfl, shapeCast_self]
  rw [broadcastTo_1b_ab_apply, shapeCast_a_1a_apply, broadcastTo_1b_ab_apply, shapeCast_a_1a_apply,
    broadcastTo_1b_ab_apply, shapeCast_a_1a_apply, broadcastTo_1b_ab_apply, shapeCast_a_1a_apply, broadcast_apply]
  show max (((∑ j : Fin 256, v0 (ix2 p j) * v1 (ix2 j k)) + v4 (ix1 k) - v14 (ix1 k))
        * (v8 (ix1 k) * Ideal.rsqrt (v9 (ix1 k) + eps)) + v21 (ix1 k)) (Ideal.ofBits .f32 0x00000000#32) * v27 (ix2 k f) = _
  rw [Ideal.ofBits_zero_f32]
  rfl

/-- The first projection payload at `(p, h)`: row `p` of the embeddings against column `h` of the weight, times the
    column scale. -/
theorem projL_payload (v0 : Vec Ideal S512x256 .f32) (v36 : FVec Ideal S256x512 .f32) (v41 : Vec Ideal S512 .f32) (p h : Fin 512) :
    k0_pay2 (F := Ideal) v0 v36 v41 (ix2 p h) = (∑ k : Fin 256, v0 (ix2 p k) * v36 (ix2 k h)) * v41 (ix1 h) := by
  unfold k0_pay2 k0_pay1
  simp only [matmul]
  rw [mulf_apply, matmul_plain_zero_apply dot_S512x256_S256x512_S512x512_1_0_0_1_n_n rfl, broadcastTo_1b_ab_apply, shapeCast_a_1a_apply, shapeCast_self]

/-- The second projection payload at `(p, h)`. -/
theorem projR_payload (v0 : Vec Ideal S512x256 .f32) (v37 : Vec Ideal S256x512 .f32) (v41 : Vec Ideal S512 .f32) (p h : Fin 512) :
    k0_pay3 (F := Ideal) v0 v37 v41 (ix2 p h) = (∑ k : Fin 256, v0 (ix2 p k) * v37 (ix2 k h)) * v41 (ix1 h) := by
  unfold k0_pay3 k0_pay1
  simp only [matmul]
  rw [mulf_apply, matmul_plain_zero_apply dot_S512x256_S256x512_S512x512_1_0_0_1_n_n rfl, broadcastTo_1b_ab_apply, shapeCast_a_1a_apply, shapeCast_self, shapeCast_self]

/-- A cast of a matrix to its own shape is the matrix. -/
theorem pay5_eq (v35 : Vec Ideal S256x512 .f32) : k0_pay5 (F := Ideal) v35 = v35 := by
  unfold k0_pay5
  exact shapeCast_self _ _

/-! ## The second body: one tile of the edge head -/

/-- The edge payload before its slices, at `(a, b, o)`: the tile of the edge head for the pair (row `a` of the first
    block, row `b` of the second), entry `o`. The merged row `a · 128 + b` of the two matrix products is the pair
    `(a, b)`; rounding to the narrower format is the identity on the extended reals. -/
theorem pay2_at (v0 : Vec Ideal S64x512 .f32) (v2 : Vec Ideal S128x512 .f32) (v9 : Vec Ideal S512 .f32)
    (v18 : Vec Ideal S512x512 .bf16) (v22 : Vec Ideal S512 .f32) (v31 : Vec Ideal S512x33 .bf16) (v34 : Vec Ideal S33 .f32)
    (a : Fin 64) (b : Fin 128) (o : Fin 33) :
    k1_pay2 (F := Ideal) v0 v2 v9 v18 v22 v31 v34 (ix3 a b o) = tileAt v0 v2 v9 v18 v22 v31 v34 a b o := by
  have hr : a.val * 128 + b.val < 8192 := by have := a.isLt; have := b.isLt; omega
  unfold k1_pay2
  simp only [matmul, shapeCast_self]
  -- the last layer at the merged row, plus its bias
  rw [shapeCast_mc_abc_apply _ _ a b o ⟨a.val * 128 + b.val, hr⟩ rfl, addf_apply,
    matmul_plain_zero_apply dot_S8192x512_S512x33_S8192x33_1_0_0_1_n_n rfl, broadcastTo_1b_ab_apply, shapeCast_a_1a_apply]
  refine congrArg (· + v34 (ix1 o)) (Finset.sum_congr rfl fun k _ => ?_)
  refine congrArg (· * v31 (ix2 k o)) ?_
  -- the second rectifier at `(a, b, k)`
  rw [shapeCast_abc_mc_apply _ _ a b k ⟨a.val * 128 + b.val, hr⟩ rfl, truncf_apply, maximumf_apply, broadcast_apply]
  show max _ (Ideal.ofBits .f32 0x00000000#32) = _
  rw [Ideal.ofBits_zero_f32]
  refine congrArg (fun x : EReal => max x 0) ?_
  -- the middle layer at the merged row, plus its bias
  rw [addf_apply, broadcastTo_11n_abn_apply, shapeCast_n_11n_apply,
    shapeCast_mc_abc_apply _ _ a b k ⟨a.val * 128 + b.val, hr⟩ rfl,
    matmul_plain_zero_apply dot_S8192x512_S512x512_S8192x512_1_0_0_1_n_n rfl]
  refine congrArg (· + v22 (ix1 k)) (Finset.sum_congr rfl fun j _ => ?_)
  refine congrArg (· * v18 (ix2 j k)) ?_
  -- the first rectifier at `(a, b, j)`: the two blocks' rows spread over the pairs, plus the bias
  rw [shapeCast_abc_mc_apply _ _ a b j ⟨a.val * 128 + b.val, hr⟩ rfl, truncf_apply, maximumf_apply, broadcast_apply,
    addf_apply, addf_apply, broadcastTo_a1c_abc_apply, shapeCast_ac_a1c_apply, broadcastTo_1bc_abc_apply,
    shapeCast_ab_1ab_apply, broadcastTo_11n_abn_apply, shapeCast_n_11n_apply]
  show max _ (Ideal.ofBits .f32 0x00000000#32) = _
  rw [Ideal.ofBits_zero_f32]
  rfl

/-- The logits payload at `(a, b)`: entry 0 of the tile. -/
theorem logits_payload (v0 : Vec Ideal S64x512 .f32) (v2 : Vec Ideal S128x512 .f32) (v9 : Vec Ideal S512 .f32)
    (v18 : Vec Ideal S512x512 .bf16) (v22 : Vec Ideal S512 .f32) (v31 : Vec Ideal S512x33 .bf16) (v34 : Vec Ideal S33 .f32)
    (a : Fin 64) (b : Fin 128) :
    k1_pay3 (F := Ideal) v0 v2 v9 v18 v22 v31 v34 (ix2 a b) = tileAt v0 v2 v9 v18 v22 v31 v34 a b (0 : Fin 33) := by
  unfold k1_pay3
  rw [shapeCast_ab1_ab_apply, slice3_axis2_apply 0 _ _ a b (0 : Fin 1) (0 : Fin 33) rfl, pay2_at]

/-- The features payload at `(a, b, d)`: entry `d + 1` of the tile. -/
theorem feat_payload (v0 : Vec Ideal S64x512 .f32) (v2 : Vec Ideal S128x512 .f32) (v9 : Vec Ideal S512 .f32)
    (v18 : Vec Ideal S512x512 .bf16) (v22 : Vec Ideal S512 .f32) (v31 : Vec Ideal S512x33 .bf16) (v34 : Vec Ideal S33 .f32)
    (a : Fin 64) (b : Fin 128) (d : Fin 32) :
    k1_pay1 (F := Ideal) (k1_pay2 (F := Ideal) v0 v2 v9 v18 v22 v31 v34) (ix3 a b d)
      = tileAt v0 v2 v9 v18 v22 v31 v34 a b d.succ := by
  unfold k1_pay1
  rw [slice3_axis2_apply 1 _ _ a b d d.succ (by rw [Fin.val_succ, Nat.add_comm]), pay2_at]

end Cert.PairDecoder.KerBody

end
-- ==== Proof.Bridge.lean ====
/-
  The tiled computation of the edge head and the input-major node head, read as the specification's functions.

  * A linear layer whose weight is stored input-major `[K, N]` is the linear layer of the transposed, output-major weight
    `[N, K]`: the two sums have the same terms. If moreover the input-major weight's column `q` is the output-major
    weight's row `q` scaled by `s q` and the bias is `s q · (b q - μ q) + β q`, it is the folded linear layer.
  * A tile depends on its two blocks of rows only through the two rows it reads, so a tile of blocks cut from larger arrays
    is the tile of those arrays at the rows the blocks were cut from.
  * With the scaled projections, the folded bias and the scaled, transposed weights as operands, the tile at `(i, j)` is
    term by term the folded edge head at `(i, j)`.
  * The node head computed with input-major weights, its normalisation written out, is the node head.

  Everything here is an unfolding followed by a congruence of sums; nothing needs the entries to be real.
-/
import proofs.«181811_j32916629356848_2_alg».proof.Proof.Spec
import Idealize.ShloMosaic.Lib.ValueIdx

noncomputable section

open scoped BigOperators

namespace Cert.PairDecoder

open Idealize.ShloMosaic Idealize.ShloMosaic.ValueIdx

/-! ## Input-major linear layers -/

/-- A linear layer with the weight stored input-major is the linear layer of the transposed weight. -/
theorem linT_eq_lin {K N : ℕ} (x : Fin K → EReal) (wT : Mat K N) (w : Mat N K) (b : Vec1 N)
    (hw : ∀ (k : Fin K) (q : Fin N), wT (ix2 k q) = w (ix2 q k)) : linT x wT b = lin x w b := by
  funext q
  show (∑ k : Fin K, x k * wT (ix2 k q)) + b (ix1 q) = (∑ k : Fin K, x k * w (ix2 q k)) + b (ix1 q)
  congr 1
  exact Finset.sum_congr rfl fun k _ => by rw [hw k q]

/-- A linear layer with an input-major weight whose column `q` is row `q` of `w` scaled by `s q`, and with the bias
    `s q · (b q - μ q) + β q`, is the folded linear layer. -/
theorem linT_eq_linFolded {K N : ℕ} (s : Fin N → EReal) (x : Fin K → EReal) (wT : Mat K N) (bT : Vec1 N) (w : Mat N K)
    (b mu be : Vec1 N) (hw : ∀ (k : Fin K) (q : Fin N), wT (ix2 k q) = w (ix2 q k) * s q)
    (hb : ∀ q : Fin N, bT (ix1 q) = s q * (b (ix1 q) - mu (ix1 q)) + be (ix1 q)) :
    linT x wT bT = linFolded s x w b mu be := by
  funext q
  show (∑ k : Fin K, x k * wT (ix2 k q)) + bT (ix1 q)
    = (∑ k : Fin K, x k * (w (ix2 q k) * s q)) + (s q * (b (ix1 q) - mu (ix1 q)) + be (ix1 q))
  rw [hb q]
  congr 1
  exact Finset.sum_congr rfl fun k _ => by rw [hw k q]

/-! ## Tiles -/

/-- A tile computed from blocks of rows is the tile of the whole arrays at the rows the blocks were cut from. -/
theorem tileAt_rows {A C A' C' : ℕ} (a : Mat A 512) (c : Mat C 512) (a' : Mat A' 512) (c' : Mat C' 512) (b1 : Vec1 512)
    (w2 : Mat 512 512) (b2 : Vec1 512) (w3 : Mat 512 33) (b3 : Vec1 33) (p : Fin A) (q : Fin C) (p' : Fin A')
    (q' : Fin C') (ha : ∀ h : Fin 512, a (ix2 p h) = a' (ix2 p' h)) (hc : ∀ h : Fin 512, c (ix2 q h) = c' (ix2 q' h)) :
    tileAt a c b1 w2 b2 w3 b3 p q = tileAt a' c' b1 w2 b2 w3 b3 p' q' := by
  have hrow : (fun h : Fin 512 => a (ix2 p h) + c (ix2 q h) + b1 (ix1 h))
      = fun h : Fin 512 => a' (ix2 p' h) + c' (ix2 q' h) + b1 (ix1 h) := by
    funext h
    rw [ha h, hc h]
  show linT (reluRow (linT (reluRow fun h : Fin 512 => a (ix2 p h) + c (ix2 q h) + b1 (ix1 h)) w2 b2)) w3 b3
    = linT (reluRow (linT (reluRow fun h : Fin 512 => a' (ix2 p' h) + c' (ix2 q' h) + b1 (ix1 h)) w2 b2)) w3 b3
  rw [hrow]

/-- The tile of the prepared operands is the folded edge head. -/
theorem tileAt_eq_edgeFolded (s1 s2 : Fin 512 → EReal) (x : Mat 512 256) (eW1 : Mat 512 512)
    (eb1 ebeta1 emean1 : Vec1 512) (eW2 : Mat 512 512) (eb2 ebeta2 emean2 : Vec1 512) (eW3 : Mat 33 512) (eb3 : Vec1 33)
    (hi hj : Mat 512 512) (b1 : Vec1 512) (w2 : Mat 512 512) (b2 : Vec1 512) (w3 : Mat 512 33)
    (hhi : ∀ p h : Fin 512, hi (ix2 p h) = projL x eW1 p h * s1 h)
    (hhj : ∀ p h : Fin 512, hj (ix2 p h) = projR x eW1 p h * s1 h)
    (hb1 : ∀ h : Fin 512, b1 (ix1 h) = s1 h * (eb1 (ix1 h) - emean1 (ix1 h)) + ebeta1 (ix1 h))
    (hw2 : ∀ k q : Fin 512, w2 (ix2 k q) = eW2 (ix2 q k) * s2 q)
    (hb2 : ∀ q : Fin 512, b2 (ix1 q) = s2 q * (eb2 (ix1 q) - emean2 (ix1 q)) + ebeta2 (ix1 q))
    (hw3 : ∀ (k : Fin 512) (o : Fin 33), w3 (ix2 k o) = eW3 (ix2 o k)) (i j : Fin 512) :
    tileAt hi hj b1 w2 b2 w3 eb3 i j
      = edgeFolded s1 s2 x eW1 eb1 ebeta1 emean1 eW2 eb2 ebeta2 emean2 eW3 eb3 i j := by
  have hrow : (fun h : Fin 512 => hi (ix2 i h) + hj (ix2 j h) + b1 (ix1 h))
      = pairRowFolded s1 x eW1 eb1 emean1 ebeta1 i j := by
    funext h
    rw [hhi i h, hhj j h, hb1 h]
    rfl
  show linT (reluRow (linT (reluRow fun h : Fin 512 => hi (ix2 i h) + hj (ix2 j h) + b1 (ix1 h)) w2 b2)) w3 eb3
    = lin (reluRow (linFolded s2 (reluRow (pairRowFolded s1 x eW1 eb1 emean1 ebeta1 i j)) eW2 eb2 emean2 ebeta2)) eW3 eb3
  rw [hrow, linT_eq_lin _ w3 eW3 eb3 hw3, linT_eq_linFolded s2 _ w2 b2 eW2 eb2 emean2 ebeta2 hw2 hb2]

/-! ## The node head -/

/-- The node head from input-major weights is the node head. -/
theorem nodeTile_eq_nodeAt (s : Fin 512 → EReal) (x : Mat 512 256) (nW1 : Mat 512 256) (nb1 nbeta nmean : Vec1 512)
    (nW2 : Mat 128 512) (nb2 : Vec1 128) (w1 : Mat 256 512) (w2 : Mat 512 128)
    (hw1 : ∀ (k : Fin 256) (h : Fin 512), w1 (ix2 k h) = nW1 (ix2 h k))
    (hw2 : ∀ (h : Fin 512) (f : Fin 128), w2 (ix2 h f) = nW2 (ix2 f h)) (p : Fin 512) :
    linT (reluRow fun h => (linT (rowOf x p) w1 nb1 h - nmean (ix1 h)) * s h + nbeta (ix1 h)) w2 nb2
      = nodeAt s x nW1 nb1 nbeta nmean nW2 nb2 p := by
  rw [linT_eq_lin _ w2 nW2 nb2 hw2, linT_eq_lin (rowOf x p) w1 nW1 nb1 hw1]
  rfl

end Cert.PairDecoder

end
-- ==== Proof.KerBlocks1.lean ====
/-
  The second kernel region, read as values.

  The region's grid is 8 × 4. At the point with block coordinates `(I, J)` the first input's block is rows
  `64·I … 64·I + 63` of the scaled left projections, the second input's block is rows `128·J … 128·J + 127` of the scaled
  right projections, and the other five inputs are whole arrays. The body stores, for every pair (row `a` of the first
  block, row `b` of the second), entry 0 of the edge head's tile into the logits block and entries 1 to 32 into the
  features block; a tile computed from blocks of rows is the tile of the whole arrays at the rows `64·I + a`, `128·J + b`.
  The 32 output blocks tile the output arrays, so after the region the logits array holds entry 0, and the features
  array entries 1 to 32, of the tile of the arrays found at entry, at every pair.
-/
import proofs.«181811_j32916629356848_2_alg».proof.Proof.Gen.KernelIdeal.Frame
import proofs.«181811_j32916629356848_2_alg».proof.Proof.Spec
import proofs.«181811_j32916629356848_2_alg».proof.Proof.KerBlocks0
import proofs.«181811_j32916629356848_2_alg».proof.Proof.KerBody
import proofs.«181811_j32916629356848_2_alg».proof.Proof.Bridge
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.KernelIdeal.Tiles

open Cert.KernelIdeal Cert.KernelIdeal.Gen Cert.KernelIdeal.Blocks Cert.PairDecoder Idealize.ShloMosaic.ValueIdx

variable (V : (c : Dev nD) → (b : Ref sig .tc) → Buf (Elt Ideal) ((c : Thread nD τ).loc b))

/-- The edge head's tile of the arrays the region finds, at every pair of rows. -/
def pairs (c : Dev nD) : Fin 512 → Fin 512 → Fin 33 → EReal :=
  tileAt (A := 512) (C := 512) (V c main_v27_1) (V c main_v27_2) (V c main_v12) (V c main_v24) (V c main_v22) (V c main_v26) (V c main_arg22)

/-- The printed index maps over the grid: the two row-block inputs move with the output's two block coordinates, every
    other input stays at block zero, and the output's block coordinates range over 8 × 4. -/
theorem idx_facts1 : ∀ t : Fin cfg1.N,
    win1_0.index t (0 : Fin 2) = win1_7.index t (0 : Fin 2) ∧ win1_0.index t (1 : Fin 2) = 0
    ∧ win1_1.index t (0 : Fin 2) = win1_7.index t (1 : Fin 2) ∧ win1_1.index t (1 : Fin 2) = 0
    ∧ win1_8.index t (0 : Fin 3) = win1_7.index t (0 : Fin 2) ∧ win1_8.index t (1 : Fin 3) = win1_7.index t (1 : Fin 2)
    ∧ win1_8.index t (2 : Fin 3) = 0
    ∧ win1_7.index t (0 : Fin 2) ≤ 7 ∧ win1_7.index t (1 : Fin 2) ≤ 3 :=
  (by decide +kernel : ∀ t : Fin grid1.N, _)

/-- Every pair of block coordinates is some point's. -/
theorem idx_onto1 : ∀ (q0 : Fin 8) (q1 : Fin 4), ∃ t : Fin cfg1.N, win1_7.index t (0 : Fin 2) = q0.val ∧ win1_7.index t (1 : Fin 2) = q1.val :=
  (by decide +kernel : ∀ (q0 : Fin 8) (q1 : Fin 4), ∃ t : Fin grid1.N, win1_7.index t (0 : Fin 2) = q0.val ∧ win1_7.index t (1 : Fin 2) = q1.val)

/-! ## The input blocks -/

/-- Row `a` of the first input's block at point `t` is row `64 · (block row) + a` of the array. -/
theorem iblk1_0_apply (c : Dev nD) (t : Fin cfg1.N) (a : Fin 64) (k : Fin 512) (P : Fin 512)
    (hP : P.val = win1_7.index t (0 : Fin 2) * 64 + a.val) :
    (iblk1 V c 0 t : Vec Ideal S64x512 .f32) (ix2 a k) = (V c main_v27_1 : S512x512.Idx → EReal) (ix2 P k) := by
  obtain ⟨e00, e01, -⟩ := idx_facts1 t
  unfold iblk1
  rw [View.read_apply]
  show V c main_v27_1 _ = V c main_v27_1 _
  congr 1
  funext d
  apply Fin.ext
  match d with
  | ⟨0, _⟩ => show win1_0.index t 0 * 64 + 1 * a.val = P.val; rw [e00, hP]; omega
  | ⟨1, _⟩ => show win1_0.index t 1 * 512 + 1 * k.val = k.val; rw [e01]; omega

/-- Row `b` of the second input's block at point `t` is row `128 · (block column) + b` of the array. -/
theorem iblk1_1_apply (c : Dev nD) (t : Fin cfg1.N) (b : Fin 128) (k : Fin 512) (Q : Fin 512)
    (hQ : Q.val = win1_7.index t (1 : Fin 2) * 128 + b.val) :
    (iblk1 V c 1 t : Vec Ideal S128x512 .f32) (ix2 b k) = (V c main_v27_2 : S512x512.Idx → EReal) (ix2 Q k) := by
  obtain ⟨-, -, e10, e11, -⟩ := idx_facts1 t
  unfold iblk1
  rw [View.read_apply]
  show V c main_v27_2 _ = V c main_v27_2 _
  congr 1
  funext d
  apply Fin.ext
  match d with
  | ⟨0, _⟩ => show win1_1.index t 0 * 128 + 1 * b.val = Q.val; rw [e10, hQ]; omega
  | ⟨1, _⟩ => show win1_1.index t 1 * 512 + 1 * k.val = k.val; rw [e11]; omega

/-- The other inputs are fetched whole: their block at every point is the array. -/
theorem iblk1_2 (c : Dev nD) (t : Fin cfg1.N) : iblk1 V c 2 t = V c main_v12 := by
  have hz' : (fun a => win1_2.index t a * main_v12.ty.shape.size a) = fun _ => 0 :=
    funext fun a => (by decide +kernel : ∀ (t : Fin grid1.N) (a : Fin main_v12.ty.shape.rank), win1_2.index t a * main_v12.ty.shape.size a = 0) t a
  exact Memref.read_access_unit_zero (Elt Ideal) main_v12 hz' (fun a => by rw [congrFun hz' a]; simp) (V c main_v12)

theorem iblk1_3 (c : Dev nD) (t : Fin cfg1.N) : iblk1 V c 3 t = V c main_v24 := by
  have hz' : (fun a => win1_3.index t a * main_v24.ty.shape.size a) = fun _ => 0 :=
    funext fun a => (by decide +kernel : ∀ (t : Fin grid1.N) (a : Fin main_v24.ty.shape.rank), win1_3.index t a * main_v24.ty.shape.size a = 0) t a
  exact Memref.read_access_unit_zero (Elt Ideal) main_v24 hz' (fun a => by rw [congrFun hz' a]; simp) (V c main_v24)

theorem iblk1_4 (c : Dev nD) (t : Fin cfg1.N) : iblk1 V c 4 t = V c main_v22 := by
  have hz' : (fun a => win1_4.index t a * main_v22.ty.shape.size a) = fun _ => 0 :=
    funext fun a => (by decide +kernel : ∀ (t : Fin grid1.N) (a : Fin main_v22.ty.shape.rank), win1_4.index t a * main_v22.ty.shape.size a = 0) t a
  exact Memref.read_access_unit_zero (Elt Ideal) main_v22 hz' (fun a => by rw [congrFun hz' a]; simp) (V c main_v22)

theorem iblk1_5 (c : Dev nD) (t : Fin cfg1.N) : iblk1 V c 5 t = V c main_v26 := by
  have hz' : (fun a => win1_5.index t a * main_v26.ty.shape.size a) = fun _ => 0 :=
    funext fun a => (by decide +kernel : ∀ (t : Fin grid1.N) (a : Fin main_v26.ty.shape.rank), win1_5.index t a * main_v26.ty.shape.size a = 0) t a
  exact Memref.read_access_unit_zero (Elt Ideal) main_v26 hz' (fun a => by rw [congrFun hz' a]; simp) (V c main_v26)

theorem iblk1_6 (c : Dev nD) (t : Fin cfg1.N) : iblk1 V c 6 t = V c main_arg22 := by
  have hz' : (fun a => win1_6.index t a * main_arg22.ty.shape.size a) = fun _ => 0 :=
    funext fun a => (by decide +kernel : ∀ (t : Fin grid1.N) (a : Fin main_arg22.ty.shape.rank), win1_6.index t a * main_arg22.ty.shape.size a = 0) t a
  exact Memref.read_access_unit_zero (Elt Ideal) main_arg22 hz' (fun a => by rw [congrFun hz' a]; simp) (V c main_arg22)

/-! ## What a point writes back -/

/-- The logits block at point `t`, entry `(a, b)`: entry 0 of the tile at rows `64·I + a`, `128·J + b`. -/
theorem out1_7_apply (c : Dev nD) (t : Fin cfg1.N) (a : Fin 64) (b : Fin 128) (P Q : Fin 512)
    (hP : P.val = win1_7.index t (0 : Fin 2) * 64 + a.val) (hQ : Q.val = win1_7.index t (1 : Fin 2) * 128 + b.val) :
    out1_7 (iblk1 V c 0 t) (iblk1 V c 1 t) (iblk1 V c 2 t) (iblk1 V c 3 t) (iblk1 V c 4 t) (iblk1 V c 5 t) (iblk1 V c 6 t) (ix2 a b)
      = pairs V c P Q (0 : Fin 33) := by
  unfold out1_7
  rw [View.canon_unit_zero hz2]
  simp only [View.ld_unit_zero (S := S64x512) hz2, View.ld_unit_zero (S := S128x512) hz2, View.ld_unit_zero (S := S512) hz1, View.ld_unit_zero (S := S512x512) hz2, View.ld_unit_zero (S := S512x33) hz2, View.ld_unit_zero (S := S33) hz1, iblk1_2 V c t, iblk1_3 V c t, iblk1_4 V c t, iblk1_5 V c t, iblk1_6 V c t]
  rw [Cert.PairDecoder.KerBody.logits_payload (iblk1 V c 0 t) (iblk1 V c 1 t) (V c main_v12) (V c main_v24) (V c main_v22) (V c main_v26) (V c main_arg22) a b]
  unfold pairs
  exact congrFun (tileAt_rows (iblk1 V c 0 t) (iblk1 V c 1 t) (V c main_v27_1) (V c main_v27_2) (V c main_v12) (V c main_v24)
    (V c main_v22) (V c main_v26) (V c main_arg22) a b P Q (fun h => iblk1_0_apply V c t a h P hP) (fun h => iblk1_1_apply V c t b h Q hQ)) 0

/-- The features block at point `t`, entry `(a, b, d)`: entry `d + 1` of the same tile. -/
theorem out1_8_apply (c : Dev nD) (t : Fin cfg1.N) (a : Fin 64) (b : Fin 128) (d : Fin 32) (P Q : Fin 512)
    (hP : P.val = win1_7.index t (0 : Fin 2) * 64 + a.val) (hQ : Q.val = win1_7.index t (1 : Fin 2) * 128 + b.val) :
    out1_8 (iblk1 V c 0 t) (iblk1 V c 1 t) (iblk1 V c 2 t) (iblk1 V c 3 t) (iblk1 V c 4 t) (iblk1 V c 5 t) (iblk1 V c 6 t) (ix3 a b d)
      = pairs V c P Q d.succ := by
  unfold out1_8
  rw [View.canon_unit_zero hz3]
  simp only [View.ld_unit_zero (S := S64x512) hz2, View.ld_unit_zero (S := S128x512) hz2, View.ld_unit_zero (S := S512) hz1, View.ld_unit_zero (S := S512x512) hz2, View.ld_unit_zero (S := S512x33) hz2, View.ld_unit_zero (S := S33) hz1, iblk1_2 V c t, iblk1_3 V c t, iblk1_4 V c t, iblk1_5 V c t, iblk1_6 V c t]
  rw [Cert.PairDecoder.KerBody.feat_payload (iblk1 V c 0 t) (iblk1 V c 1 t) (V c main_v12) (V c main_v24) (V c main_v22) (V c main_v26) (V c main_arg22) a b d]
  unfold pairs
  exact congrFun (tileAt_rows (iblk1 V c 0 t) (iblk1 V c 1 t) (V c main_v27_1) (V c main_v27_2) (V c main_v12) (V c main_v24)
    (V c main_v22) (V c main_v26) (V c main_arg22) a b P Q (fun h => iblk1_0_apply V c t a h P hP) (fun h => iblk1_1_apply V c t b h Q hQ)) d.succ

/-- Point `t` writes back block `t` of the logits array of the tile. -/
theorem flushed1_7 (c : Dev nD) (t : Fin cfg1.N) :
    (dat1 V c).flushed 7 t = ((cfg1.win 7).blk t).view.read (Elt Ideal) (logitsArr (pairs V c)) := by
  show (cfg1.win 7).cut (grid1.coords t) ((dat1 V c).after 7 t) = _
  rw [after1_7]
  funext y
  obtain ⟨a, b, rfl⟩ : ∃ (a : Fin 64) (b : Fin 128), y = ix2 a b := ⟨y 0, y 1, eq_ix2 y⟩
  rw [View.read_apply]
  exact out1_7_apply V c t a b _ _ (by show win1_7.index t 0 * 64 + 1 * a.val = _; omega) (by show win1_7.index t 1 * 128 + 1 * b.val = _; omega)

/-- The same, against an entry `I` of the features array whose coordinates are `64·I + a`, `128·J + b`, `d`. -/
theorem out1_8_at (c : Dev nD) (t : Fin cfg1.N) (a : Fin 64) (b : Fin 128) (d : Fin 32) (I : S512x512x32.Idx)
    (h0 : (I 0).val = win1_7.index t (0 : Fin 2) * 64 + a.val) (h1 : (I 1).val = win1_7.index t (1 : Fin 2) * 128 + b.val)
    (h2 : (I 2).val = d.val) :
    out1_8 (iblk1 V c 0 t) (iblk1 V c 1 t) (iblk1 V c 2 t) (iblk1 V c 3 t) (iblk1 V c 4 t) (iblk1 V c 5 t) (iblk1 V c 6 t) (ix3 a b d)
      = featArr (pairs V c) I := by
  rw [out1_8_apply V c t a b d (I 0) (I 1) h0 h1]
  show pairs V c (I 0) (I 1) d.succ = pairs V c (I 0) (I 1) (Fin.succ (I 2))
  congr 1
  apply Fin.ext
  show d.val + 1 = (I 2).val + 1
  omega

/-- Point `t` writes back block `t` of the features array of the tile. -/
theorem flushed1_8 (c : Dev nD) (t : Fin cfg1.N) :
    (dat1 V c).flushed 8 t = ((cfg1.win 8).blk t).view.read (Elt Ideal) (featArr (pairs V c)) := by
  obtain ⟨-, -, -, -, e80, e81, e82, -⟩ := idx_facts1 t
  show (cfg1.win 8).cut (grid1.coords t) ((dat1 V c).after 8 t) = _
  rw [after1_8]
  funext y
  obtain ⟨a, b, d, rfl⟩ : ∃ (a : Fin 64) (b : Fin 128) (d : Fin 32), y = ix3 a b d := ⟨y 0, y 1, y 2, eq_ix3 y⟩
  rw [View.read_apply]
  exact out1_8_at V c t a b d _ (by show win1_8.index t 0 * 64 + 1 * a.val = _; rw [e80]; omega)
    (by show win1_8.index t 1 * 128 + 1 * b.val = _; rw [e81]; omega) (by show win1_8.index t 2 * 32 + 1 * d.val = _; rw [e82]; omega)

/-! ## The blocks tile the arrays -/

theorem mem_blk7 (t : Fin cfg1.N) (i : S512x512.Idx) :
    i ∈ ((cfg1.win 7).blk t).view.set ↔ ∀ a : Fin 2, win1_7.index t a * S64x128.size a ≤ (i a).val ∧ (i a).val < win1_7.index t a * S64x128.size a + S64x128.size a := by
  show i ∈ ((View.whole main_v28_0).slice (win1_7.rect t)).set ↔ _
  rw [View.set_slice_whole, Rect.mem_set_unit]
  exact Iff.rfl

theorem mem_blk8 (t : Fin cfg1.N) (i : S512x512x32.Idx) :
    i ∈ ((cfg1.win 8).blk t).view.set ↔ ∀ a : Fin 3, win1_8.index t a * S64x128x32.size a ≤ (i a).val ∧ (i a).val < win1_8.index t a * S64x128x32.size a + S64x128x32.size a := by
  show i ∈ ((View.whole main_v28_1).slice (win1_8.rect t)).set ↔ _
  rw [View.set_slice_whole, Rect.mem_set_unit]
  exact Iff.rfl

/-- Every entry of the logits array is in the block of the point with block coordinates `(row / 64, column / 128)`. -/
theorem cover7 (i : S512x512.Idx) : ∃ t : Fin cfg1.N, (cfg1.win 7).flush t = true ∧ i ∈ ((cfg1.win 7).blk t).view.set := by
  have hi0 : (i 0).val < 512 := (i 0).isLt
  have hi1 : (i 1).val < 512 := (i 1).isLt
  obtain ⟨t, q0, q1⟩ := idx_onto1 ⟨(i 0).val / 64, by omega⟩ ⟨(i 1).val / 128, by omega⟩
  refine ⟨t, flush1_7 t, ?_⟩
  rw [mem_blk7]
  intro a
  match a with
  | ⟨0, _⟩ => show win1_7.index t 0 * 64 ≤ (i 0).val ∧ (i 0).val < win1_7.index t 0 * 64 + 64; rw [q0]; show (i 0).val / 64 * 64 ≤ _ ∧ _ < (i 0).val / 64 * 64 + 64; omega
  | ⟨1, _⟩ => show win1_7.index t 1 * 128 ≤ (i 1).val ∧ (i 1).val < win1_7.index t 1 * 128 + 128; rw [q1]; show (i 1).val / 128 * 128 ≤ _ ∧ _ < (i 1).val / 128 * 128 + 128; omega

/-- Likewise every entry of the features array. -/
theorem cover8 (i : S512x512x32.Idx) : ∃ t : Fin cfg1.N, (cfg1.win 8).flush t = true ∧ i ∈ ((cfg1.win 8).blk t).view.set := by
  have hi0 : (i 0).val < 512 := (i 0).isLt
  have hi1 : (i 1).val < 512 := (i 1).isLt
  have hi2 : (i 2).val < 32 := (i 2).isLt
  obtain ⟨t, q0, q1⟩ := idx_onto1 ⟨(i 0).val / 64, by omega⟩ ⟨(i 1).val / 128, by omega⟩
  obtain ⟨-, -, -, -, e80, e81, e82, -⟩ := idx_facts1 t
  refine ⟨t, flush1_8 t, ?_⟩
  rw [mem_blk8]
  intro a
  match a with
  | ⟨0, _⟩ => show win1_8.index t 0 * 64 ≤ (i 0).val ∧ (i 0).val < win1_8.index t 0 * 64 + 64; rw [e80, q0]; show (i 0).val / 64 * 64 ≤ _ ∧ _ < (i 0).val / 64 * 64 + 64; omega
  | ⟨1, _⟩ => show win1_8.index t 1 * 128 ≤ (i 1).val ∧ (i 1).val < win1_8.index t 1 * 128 + 128; rw [e81, q1]; show (i 1).val / 128 * 128 ≤ _ ∧ _ < (i 1).val / 128 * 128 + 128; omega
  | ⟨2, _⟩ => show win1_8.index t 2 * 32 ≤ (i 2).val ∧ (i 2).val < win1_8.index t 2 * 32 + 32; rw [e82]; omega

/-! ## The arrays after the region -/

/-- The logits array after the region: entry 0 of the tile at every pair. -/
theorem final1_7 (c : Dev nD) : (dat1 V c).arrAt 7 cfg1.N = logitsArr (pairs V c) :=
  (dat1 V c).arrAt_eq_of_cover 7 (logitsArr (pairs V c)) (fun t _ => flushed1_7 V c t) cover7

/-- The features array after the region: entries 1 to 32 of the tile at every pair. -/
theorem final1_8 (c : Dev nD) : (dat1 V c).arrAt 8 cfg1.N = featArr (pairs V c) :=
  (dat1 V c).arrAt_eq_of_cover 8 (featArr (pairs V c)) (fun t _ => flushed1_8 V c t) cover8

end Cert.KernelIdeal.Tiles

end
-- ==== Proof.KerGlue.lean ====
/-
  The operands the host prepares before the first kernel region, read at an index.

  Before its first kernel region the program rewrites its arguments by 29 host operations; the buffers they write hold,
  when the region is entered:
  * the transposes of the output-major weights — `%0 (k, h) = nW1 (h, k)`, `%1 (h, f) = nW2 (f, h)`,
    `%26 (k, o) = eW3 (o, k)` — and of the two halves of the first edge weight's columns,
    `%4 (k, h) = eW1 (h, k)` and `%5 (k, h) = eW1 (h, 256 + k)`;
  * the two edge normalisations' column scales in their reciprocal-root spelling, `%9 h = γ₁ h · (var₁ h + ε)^(-1/2)` and
    `%16 q = γ₂ q · (var₂ q + ε)^(-1/2)`;
  * the biases of the first two edge layers with the normalisations folded in, `%12 h = s₁ h · (b₁ h - μ₁ h) + β₁ h` and
    `%22 q = s₂ q · (b₂ q - μ₂ q) + β₂ q`;
  * the second edge weight with row `q` scaled by `s₂ q`, transposed: `%24 (k, q) = eW2 (q, k) · s₂ q`.
  The conversions of `%24` and `%26` to the narrower format are the identity on the extended reals, and an argument that no
  host operation writes still holds its launch contents.

  Each buffer is first stated as a term over the launch contents and then read at an index: a transpose at `(a, b)` reads
  its operand at `(b, a)`; a column slice at offset `d` reads column `d + k`; a vector spread down the columns
  `[512] → [512, 1] → [512, 512]` is read at the row; the variance offset stays the single-precision word it is given by.
-/
import proofs.«181811_j32916629356848_2_alg».proof.Proof.Gen.KernelIdeal.Frame
import proofs.«181811_j32916629356848_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Glue

open Idealize.ShloMosaic Idealize.ShloMosaic.TcCoe Idealize.SL.Sem Idealize.ShloMosaic.StableHlo
open Cert.KernelIdeal Cert.KernelIdeal.Gen
open Cert.PairDecoder Idealize.ShloMosaic.ValueIdx

variable (m : (ℓ : Loc nD τ sig) → Buf (Elt Ideal) ℓ) (ρ : Dev nD → PrngReg)

/-! ## Two entries of the folded layers, over typed vectors and matrices -/

/-- A layer's bias with the normalisation after it folded in, at column `h`: `s h · (b h - μ h) + β h`. -/
def foldBias {n : ℕ} (s : Fin n → EReal) (b mu be : Vec1 n) (h : Fin n) : EReal :=
  s h * (b (ix1 h) - mu (ix1 h)) + be (ix1 h)

theorem foldBias_apply {n : ℕ} (s : Fin n → EReal) (b mu be : Vec1 n) (h : Fin n) :
    foldBias s b mu be h = s h * (b (ix1 h) - mu (ix1 h)) + be (ix1 h) := rfl

/-- An output-major weight's entry `(q, k)` with row `q` scaled by `s q`: `w (q, k) · s q`. -/
def rowScaled {N K : ℕ} (s : Fin N → EReal) (w : Mat N K) (q : Fin N) (k : Fin K) : EReal :=
  w (ix2 q k) * s q

theorem rowScaled_apply {N K : ℕ} (s : Fin N → EReal) (w : Mat N K) (q : Fin N) (k : Fin K) :
    rowScaled s w q k = w (ix2 q k) * s q := rfl

/-! ## The arguments no host operation writes -/

theorem V1_arg0 (c : Dev nD) : V1 m ρ c main_arg0 = m ((c : Thread nD τ).loc main_arg0) := by
  dsimp only [V1, W1]
  after_results_simp

theorem V1_arg2 (c : Dev nD) : V1 m ρ c main_arg2 = m ((c : Thread nD τ).loc main_arg2) := by
  dsimp only [V1, W1]
  after_results_simp

theorem V1_arg3 (c : Dev nD) : V1 m ρ c main_arg3 = m ((c : Thread nD τ).loc main_arg3) := by
  dsimp only [V1, W1]
  after_results_simp

theorem V1_arg4 (c : Dev nD) : V1 m ρ c main_arg4 = m ((c : Thread nD τ).loc main_arg4) := by
  dsimp only [V1, W1]
  after_results_simp

theorem V1_arg5 (c : Dev nD) : V1 m ρ c main_arg5 = m ((c : Thread nD τ).loc main_arg5) := by
  dsimp only [V1, W1]
  after_results_simp

theorem V1_arg6 (c : Dev nD) : V1 m ρ c main_arg6 = m ((c : Thread nD τ).loc main_arg6) := by
  dsimp only [V1, W1]
  after_results_simp

theorem V1_arg8 (c : Dev nD) : V1 m ρ c main_arg8 = m ((c : Thread nD τ).loc main_arg8) := by
  dsimp only [V1, W1]
  after_results_simp

theorem V1_arg22 (c : Dev nD) : V1 m ρ c main_arg22 = m ((c : Thread nD τ).loc main_arg22) := by
  dsimp only [V1, W1]
  after_results_simp

/-! ## Each buffer the host operations write, as a term over the launch contents -/

theorem V1_v0 (c : Dev nD) :
    (V1 m ρ c main_v0 : S256x512.Idx → Elt Ideal .f32)
      = transpose S256x512 [1, 0] (m ((c : Thread nD τ).loc main_arg1)) transposes_S512x256_S256x512_1_0 := by
  dsimp only [V1, W1]
  after_results_simp

theorem V1_v1 (c : Dev nD) :
    (V1 m ρ c main_v1 : S512x128.Idx → Elt Ideal .f32)
      = transpose S512x128 [1, 0] (m ((c : Thread nD τ).loc main_arg7)) transposes_S128x512_S512x128_1_0 := by
  dsimp only [V1, W1]
  after_results_simp

theorem V1_v4 (c : Dev nD) :
    (V1 m ρ c main_v4 : S256x512.Idx → Elt Ideal .f32)
      = transpose S256x512 [1, 0]
          (extractStridedSlice S512x256 ![0, 0] (m ((c : Thread nD τ).loc main_arg9)) slices_S512x512_S512x256_0_0)
          transposes_S512x256_S256x512_1_0 := by
  dsimp only [V1, W1]
  after_results_simp

theorem V1_v5 (c : Dev nD) :
    (V1 m ρ c main_v5 : S256x512.Idx → Elt Ideal .f32)
      = transpose S256x512 [1, 0]
          (extractStridedSlice S512x256 ![0, 256] (m ((c : Thread nD τ).loc main_arg9)) slices_S512x512_S512x256_0_256)
          transposes_S512x256_S256x512_1_0 := by
  dsimp only [V1, W1]
  after_results_simp

theorem V1_v9 (c : Dev nD) :
    (V1 m ρ c main_v9 : S512.Idx → Elt Ideal .f32)
      = mulf (F := Ideal) (m ((c : Thread nD τ).loc main_arg11))
          (Host.rsqrt (F := Ideal) (addf (F := Ideal) (m ((c : Thread nD τ).loc main_arg14))
            (broadcastInDim S512 ![] bcast_S_S512 (constant (F := Ideal) S_ .f32 0x3727C5AC#32)))) := by
  dsimp only [V1, W1]
  after_results_simp

theorem V1_v12 (c : Dev nD) :
    (V1 m ρ c main_v12 : S512.Idx → Elt Ideal .f32)
      = addf (F := Ideal) (s := S512) (φ := .f32)
          (mulf (F := Ideal) (s := S512) (φ := .f32) (V1 m ρ c main_v9)
            (subf (F := Ideal) (s := S512) (φ := .f32) (m ((c : Thread nD τ).loc main_arg10)) (m ((c : Thread nD τ).loc main_arg13))))
          (m ((c : Thread nD τ).loc main_arg12)) := by
  dsimp only [V1, W1]
  after_results_simp
  all_goals rfl

theorem V1_v16 (c : Dev nD) :
    (V1 m ρ c main_v16 : S512.Idx → Elt Ideal .f32)
      = mulf (F := Ideal) (m ((c : Thread nD τ).loc main_arg17))
          (Host.rsqrt (F := Ideal) (addf (F := Ideal) (m ((c : Thread nD τ).loc main_arg20))
            (broadcastInDim S512 ![] bcast_S_S512 (constant (F := Ideal) S_ .f32 0x3727C5AC#32)))) := by
  dsimp only [V1, W1]
  after_results_simp

theorem V1_v22 (c : Dev nD) :
    (V1 m ρ c main_v22 : S512.Idx → Elt Ideal .f32)
      = addf (F := Ideal) (s := S512) (φ := .f32)
          (mulf (F := Ideal) (s := S512) (φ := .f32) (V1 m ρ c main_v16)
            (subf (F := Ideal) (s := S512) (φ := .f32) (m ((c : Thread nD τ).loc main_arg16)) (m ((c : Thread nD τ).loc main_arg19))))
          (m ((c : Thread nD τ).loc main_arg18)) := by
  dsimp only [V1, W1]
  after_results_simp
  all_goals rfl

theorem V1_v24 (c : Dev nD) :
    (V1 m ρ c main_v24 : S512x512.Idx → Elt Ideal .bf16)
      = truncf (F := Ideal) .bf16 (transpose S512x512 [1, 0]
          (mulf (F := Ideal) (m ((c : Thread nD τ).loc main_arg15))
            (broadcastInDim S512x512 ![0, 1] bcast_S512x1_S512x512_0_1
              (broadcastInDim S512x1 ![0] bcast_S512_S512x1_0 (V1 m ρ c main_v16 : S512.Idx → Elt Ideal .f32))))
          transposes_S512x512_S512x512_1_0) bitsLt_bf16_f32 := by
  dsimp only [V1, W1]
  after_results_simp

theorem V1_v26 (c : Dev nD) :
    (V1 m ρ c main_v26 : S512x33.Idx → Elt Ideal .bf16)
      = truncf (F := Ideal) .bf16 (transpose S512x33 [1, 0] (m ((c : Thread nD τ).loc main_arg21)) transposes_S33x512_S512x33_1_0)
          bitsLt_bf16_f32 := by
  dsimp only [V1, W1]
  after_results_simp

/-! ## The same buffers read at an index -/

/-- A vector spread down the columns, `[512] → [512, 1] → [512, 512]`, read at `(q, k)` is the vector at `q`. -/
theorem colSpread_apply (y : S512.Idx → Elt Ideal .f32) (q k : Fin 512) :
    broadcastInDim S512x512 ![0, 1] bcast_S512x1_S512x512_0_1 (broadcastInDim S512x1 ![0] bcast_S512_S512x1_0 y) (ix2 q k)
      = y (ix1 q) := by
  rw [broadcastInDim_apply _ bcast_S512x1_S512x512_0_1 _ (ix2 q k) (ix2 q (0 : Fin 1)) (fun a => match a with
    | ⟨0, _⟩ => by show q.val = if (512 : Nat) = 1 then 0 else q.val; rw [if_neg (by decide)]
    | ⟨1, _⟩ => by show 0 = if (1 : Nat) = 1 then 0 else k.val; rw [if_pos rfl])]
  exact broadcastInDim_apply _ bcast_S512_S512x1_0 y (ix2 q (0 : Fin 1)) (ix1 q) (fun a => match a with
    | ⟨0, _⟩ => by show q.val = if (512 : Nat) = 1 then 0 else q.val; rw [if_neg (by decide)])

/-- `%0`: the node head's first weight, transposed. -/
theorem V1_v0_at (c : Dev nD) (k : Fin 256) (h : Fin 512) :
    (V1 m ρ c main_v0 : Mat 256 512) (ix2 k h) = (m ((c : Thread nD τ).loc main_arg1) : Mat 512 256) (ix2 h k) := by
  rw [V1_v0]
  exact transpose_apply [1, 0] _ transposes_S512x256_S256x512_1_0 (ix2 k h) (ix2 h k) (fun b => match b with
    | ⟨0, _⟩ => rfl
    | ⟨1, _⟩ => rfl)

/-- `%1`: the node head's second weight, transposed. -/
theorem V1_v1_at (c : Dev nD) (h : Fin 512) (f : Fin 128) :
    (V1 m ρ c main_v1 : Mat 512 128) (ix2 h f) = (m ((c : Thread nD τ).loc main_arg7) : Mat 128 512) (ix2 f h) := by
  rw [V1_v1]
  exact transpose_apply [1, 0] _ transposes_S128x512_S512x128_1_0 (ix2 h f) (ix2 f h) (fun b => match b with
    | ⟨0, _⟩ => rfl
    | ⟨1, _⟩ => rfl)

/-- `%4`: the left half of the first edge weight's columns, transposed. -/
theorem V1_v4_at (c : Dev nD) (k : Fin 256) (h : Fin 512) :
    (V1 m ρ c main_v4 : Mat 256 512) (ix2 k h) = (m ((c : Thread nD τ).loc main_arg9) : Mat 512 512) (ix2 h (leftCol k)) := by
  rw [V1_v4, transpose_apply [1, 0] _ transposes_S512x256_S256x512_1_0 (ix2 k h) (ix2 h k) (fun b => match b with
    | ⟨0, _⟩ => rfl
    | ⟨1, _⟩ => rfl)]
  exact extractStridedSlice_apply ![0, 0] _ slices_S512x512_S512x256_0_0 (ix2 h k) (ix2 h (leftCol k)) (fun a => match a with
    | ⟨0, _⟩ => by show h.val = 0 + h.val; omega
    | ⟨1, _⟩ => by show k.val = 0 + k.val; omega)

/-- `%5`: the right half of the first edge weight's columns, transposed. -/
theorem V1_v5_at (c : Dev nD) (k : Fin 256) (h : Fin 512) :
    (V1 m ρ c main_v5 : Mat 256 512) (ix2 k h) = (m ((c : Thread nD τ).loc main_arg9) : Mat 512 512) (ix2 h (rightCol k)) := by
  rw [V1_v5, transpose_apply [1, 0] _ transposes_S512x256_S256x512_1_0 (ix2 k h) (ix2 h k) (fun b => match b with
    | ⟨0, _⟩ => rfl
    | ⟨1, _⟩ => rfl)]
  exact extractStridedSlice_apply ![0, 256] _ slices_S512x512_S512x256_0_256 (ix2 h k) (ix2 h (rightCol k)) (fun a => match a with
    | ⟨0, _⟩ => by show h.val = 0 + h.val; omega
    | ⟨1, _⟩ => by show 256 + k.val = 256 + k.val; rfl)

/-- `%9`: the first edge normalisation's column scale, as a product with the reciprocal root. -/
theorem V1_v9_at (c : Dev nD) (h : Fin 512) :
    (V1 m ρ c main_v9 : Vec1 512) (ix1 h)
      = scaleRoot (m ((c : Thread nD τ).loc main_arg11)) (m ((c : Thread nD τ).loc main_arg14)) h := by
  rw [V1_v9]
  rfl

/-- `%12`: the first edge layer's bias with its normalisation folded in. -/
theorem V1_v12_at (c : Dev nD) (h : Fin 512) :
    (V1 m ρ c main_v12 : Vec1 512) (ix1 h)
      = foldBias (scaleRoot (m ((c : Thread nD τ).loc main_arg11)) (m ((c : Thread nD τ).loc main_arg14)))
          (m ((c : Thread nD τ).loc main_arg10)) (m ((c : Thread nD τ).loc main_arg13)) (m ((c : Thread nD τ).loc main_arg12)) h := by
  rw [V1_v12, foldBias_apply, ← V1_v9_at m ρ c h]
  rfl

/-- `%16`: the second edge normalisation's column scale, as a product with the reciprocal root. -/
theorem V1_v16_at (c : Dev nD) (h : Fin 512) :
    (V1 m ρ c main_v16 : Vec1 512) (ix1 h)
      = scaleRoot (m ((c : Thread nD τ).loc main_arg17)) (m ((c : Thread nD τ).loc main_arg20)) h := by
  rw [V1_v16]
  rfl

/-- `%22`: the second edge layer's bias with its normalisation folded in. -/
theorem V1_v22_at (c : Dev nD) (q : Fin 512) :
    (V1 m ρ c main_v22 : Vec1 512) (ix1 q)
      = foldBias (scaleRoot (m ((c : Thread nD τ).loc main_arg17)) (m ((c : Thread nD τ).loc main_arg20)))
          (m ((c : Thread nD τ).loc main_arg16)) (m ((c : Thread nD τ).loc main_arg19)) (m ((c : Thread nD τ).loc main_arg18)) q := by
  rw [V1_v22, foldBias_apply, ← V1_v16_at m ρ c q]
  rfl

/-- `%24`: the second edge weight with its rows scaled, transposed; the conversion to the narrower format is the
    identity on the extended reals. -/
theorem V1_v24_at (c : Dev nD) (k q : Fin 512) :
    (V1 m ρ c main_v24 : Mat 512 512) (ix2 k q)
      = rowScaled (scaleRoot (m ((c : Thread nD τ).loc main_arg17)) (m ((c : Thread nD τ).loc main_arg20)))
          (m ((c : Thread nD τ).loc main_arg15)) q k := by
  rw [V1_v24, truncf_apply, transpose_apply [1, 0] _ transposes_S512x512_S512x512_1_0 (ix2 k q) (ix2 q k) (fun b => match b with
    | ⟨0, _⟩ => rfl
    | ⟨1, _⟩ => rfl), mulf_apply, colSpread_apply, rowScaled_apply, ← V1_v16_at m ρ c q]

/-- `%26`: the last edge weight, transposed; the conversion to the narrower format is the identity on the extended reals. -/
theorem V1_v26_at (c : Dev nD) (k : Fin 512) (o : Fin 33) :
    (V1 m ρ c main_v26 : Mat 512 33) (ix2 k o) = (m ((c : Thread nD τ).loc main_arg21) : Mat 33 512) (ix2 o k) := by
  rw [V1_v26, truncf_apply]
  exact transpose_apply [1, 0] _ transposes_S33x512_S512x33_1_0 (ix2 k o) (ix2 o k) (fun b => match b with
    | ⟨0, _⟩ => rfl
    | ⟨1, _⟩ => rfl)

end Cert.KernelIdeal.Glue

end
-- ==== Proof.KerValue.lean ====
/-
  The kernel program's three results as the specification's arrays.

  After the host stretch the prepared operands are: the transposed node weights, the transposed left and right halves
  of the first edge weight, the column scale `γ₁ · (var₁ + ε)^(-1/2)` and the folded bias of the first edge layer, the second
  edge weight with its rows scaled by `γ₂ · (var₂ + ε)^(-1/2)` and transposed, its folded bias, and the transposed third edge
  weight. The first region leaves the node features, which are the node head with the reciprocal-root spelling of the
  scale, and the two scaled projections. The second region leaves entry 0 and entries 1 to 32 of the edge head's tile of
  those operands at every pair, which is the folded edge head. So the run ends with the three result buffers at
  `nodeArr`, `logitsArr` and `featArr` of the launch contents of the arguments.
-/
import proofs.«181811_j32916629356848_2_alg».proof.Proof.Gen.KernelIdeal.Frame
import proofs.«181811_j32916629356848_2_alg».proof.Proof.Spec
import proofs.«181811_j32916629356848_2_alg».proof.Proof.KerRun
import proofs.«181811_j32916629356848_2_alg».proof.Proof.KerBlocks0
import proofs.«181811_j32916629356848_2_alg».proof.Proof.KerBlocks1
import proofs.«181811_j32916629356848_2_alg».proof.Proof.KerBody
import proofs.«181811_j32916629356848_2_alg».proof.Proof.KerGlue
import proofs.«181811_j32916629356848_2_alg».proof.Proof.Bridge

set_option maxRecDepth 16384

noncomputable section

open scoped BigOperators
open Idealize.ShloMosaic Idealize.ShloMosaic.TcCoe Idealize.SL.Sem

namespace Cert.KernelIdeal.Values

open Cert.KernelIdeal Cert.KernelIdeal.Gen Cert.KernelIdeal.Blocks Cert.KernelIdeal.Tiles Cert.KernelIdeal.Glue
open Cert.PairDecoder Cert.PairDecoder.KerBody Idealize.ShloMosaic.ValueIdx

variable (m : (ℓ : Loc nD τ sig) → Buf (Elt Ideal) ℓ) (ρ : Dev nD → PrngReg)

/-! ## The node features -/

/-- The node-feature buffer ends at the node head of the arguments, the scale in its reciprocal-root spelling. -/
theorem node_result (c : Dev nD) :
    W3 m ρ c (Proc.devRef .tc main_v27_0) = nodeArr (scaleRoot (m ((c : Thread nD τ).loc main_arg3)) (m ((c : Thread nD τ).loc main_arg6))) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg8)) := by
  have e1 : W3 m ρ c (Proc.devRef .tc main_v27_0) = W2 m ρ c (Proc.devRef .tc main_v27_0) := W3_of_ne m ρ c main_v27_0 (by decide)
  have e2 : W2 m ρ c (Proc.devRef .tc main_v27_0) = (dat0 (V1 m ρ) c).arrAt 12 cfg0.N := W2_arr m ρ c 12
  rw [e1, e2, final0_12 (V1 m ρ) c]
  funext i
  obtain ⟨p, f, rfl⟩ : ∃ (p : Fin 512) (f : Fin 128), i = ix2 p f := ⟨i 0, i 1, eq_ix2 i⟩
  rw [node_payload, V1_arg0, V1_arg2, V1_arg3, V1_arg4, V1_arg5, V1_arg6, V1_arg8]
  exact congrFun (nodeTile_eq_nodeAt (scaleRoot (m ((c : Thread nD τ).loc main_arg3)) (m ((c : Thread nD τ).loc main_arg6))) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg8)) (V1 m ρ c main_v0) (V1 m ρ c main_v1)
    (V1_v0_at m ρ c) (V1_v1_at m ρ c) p) f

/-! ## The second region's operands -/

/-- The scaled left projections the first region leaves. -/
theorem hi_at (c : Dev nD) (p h : Fin 512) :
    (V2 m ρ c main_v27_1 : S512x512.Idx → EReal) (ix2 p h) = projL (m ((c : Thread nD τ).loc main_arg0)) (m ((c : Thread nD τ).loc main_arg9)) p h * (scaleRoot (m ((c : Thread nD τ).loc main_arg11)) (m ((c : Thread nD τ).loc main_arg14))) h := by
  have e : V2 m ρ c main_v27_1 = (dat0 (V1 m ρ) c).arrAt 13 cfg0.N := W2_arr m ρ c 13
  rw [e, final0_13 (V1 m ρ) c, projL_payload, pay5_eq, V1_arg0, V1_v9_at]
  unfold projL
  congr 1
  exact Finset.sum_congr rfl fun k _ => by rw [V1_v4_at]

/-- The scaled right projections the first region leaves. -/
theorem hj_at (c : Dev nD) (p h : Fin 512) :
    (V2 m ρ c main_v27_2 : S512x512.Idx → EReal) (ix2 p h) = projR (m ((c : Thread nD τ).loc main_arg0)) (m ((c : Thread nD τ).loc main_arg9)) p h * (scaleRoot (m ((c : Thread nD τ).loc main_arg11)) (m ((c : Thread nD τ).loc main_arg14))) h := by
  have e : V2 m ρ c main_v27_2 = (dat0 (V1 m ρ) c).arrAt 14 cfg0.N := W2_arr m ρ c 14
  rw [e, final0_14 (V1 m ρ) c, projR_payload, V1_arg0, V1_v9_at]
  unfold projR
  congr 1
  exact Finset.sum_congr rfl fun k _ => by rw [V1_v5_at]

/-- The first region writes none of the other operands: they are as the host stretch left them. -/
theorem V2_v12 (c : Dev nD) : V2 m ρ c main_v12 = V1 m ρ c main_v12 := W2_of_ne m ρ c main_v12 (by decide)
theorem V2_v24 (c : Dev nD) : V2 m ρ c main_v24 = V1 m ρ c main_v24 := W2_of_ne m ρ c main_v24 (by decide)
theorem V2_v22 (c : Dev nD) : V2 m ρ c main_v22 = V1 m ρ c main_v22 := W2_of_ne m ρ c main_v22 (by decide)
theorem V2_v26 (c : Dev nD) : V2 m ρ c main_v26 = V1 m ρ c main_v26 := W2_of_ne m ρ c main_v26 (by decide)
theorem V2_arg22 (c : Dev nD) : V2 m ρ c main_arg22 = m ((c : Thread nD τ).loc main_arg22) :=
  (W2_of_ne m ρ c main_arg22 (by decide)).trans (V1_arg22 m ρ c)

/-- The tile of the second region's operands is the folded edge head of the arguments. -/
theorem pairs_eq (c : Dev nD) : pairs (V2 m ρ) c = edgeFolded (scaleRoot (m ((c : Thread nD τ).loc main_arg11)) (m ((c : Thread nD τ).loc main_arg14))) (scaleRoot (m ((c : Thread nD τ).loc main_arg17)) (m ((c : Thread nD τ).loc main_arg20))) (m ((c : Thread nD τ).loc main_arg0)) (m ((c : Thread nD τ).loc main_arg9)) (m ((c : Thread nD τ).loc main_arg10)) (m ((c : Thread nD τ).loc main_arg12)) (m ((c : Thread nD τ).loc main_arg13)) (m ((c : Thread nD τ).loc main_arg15)) (m ((c : Thread nD τ).loc main_arg16)) (m ((c : Thread nD τ).loc main_arg18)) (m ((c : Thread nD τ).loc main_arg19)) (m ((c : Thread nD τ).loc main_arg21)) (m ((c : Thread nD τ).loc main_arg22)) := by
  funext i j
  unfold pairs
  rw [V2_arg22, V2_v12, V2_v24, V2_v22, V2_v26]
  exact tileAt_eq_edgeFolded (scaleRoot (m ((c : Thread nD τ).loc main_arg11)) (m ((c : Thread nD τ).loc main_arg14))) (scaleRoot (m ((c : Thread nD τ).loc main_arg17)) (m ((c : Thread nD τ).loc main_arg20))) (m ((c : Thread nD τ).loc main_arg0)) (m ((c : Thread nD τ).loc main_arg9)) (m ((c : Thread nD τ).loc main_arg10)) (m ((c : Thread nD τ).loc main_arg12)) (m ((c : Thread nD τ).loc main_arg13)) (m ((c : Thread nD τ).loc main_arg15)) (m ((c : Thread nD τ).loc main_arg16)) (m ((c : Thread nD τ).loc main_arg18)) (m ((c : Thread nD τ).loc main_arg19)) (m ((c : Thread nD τ).loc main_arg21)) (m ((c : Thread nD τ).loc main_arg22))
    (V2 m ρ c main_v27_1) (V2 m ρ c main_v27_2) (V1 m ρ c main_v12) (V1 m ρ c main_v24) (V1 m ρ c main_v22) (V1 m ρ c main_v26)
    (hi_at m ρ c) (hj_at m ρ c) (V1_v12_at m ρ c) (V1_v24_at m ρ c) (V1_v22_at m ρ c) (V1_v26_at m ρ c) i j

/-! ## The edge logits and features -/

theorem logits_result (c : Dev nD) :
    W3 m ρ c (Proc.devRef .tc main_v28_0) = logitsArr (edgeFolded (scaleRoot (m ((c : Thread nD τ).loc main_arg11)) (m ((c : Thread nD τ).loc main_arg14))) (scaleRoot (m ((c : Thread nD τ).loc main_arg17)) (m ((c : Thread nD τ).loc main_arg20))) (m ((c : Thread nD τ).loc main_arg0)) (m ((c : Thread nD τ).loc main_arg9)) (m ((c : Thread nD τ).loc main_arg10)) (m ((c : Thread nD τ).loc main_arg12)) (m ((c : Thread nD τ).loc main_arg13)) (m ((c : Thread nD τ).loc main_arg15)) (m ((c : Thread nD τ).loc main_arg16)) (m ((c : Thread nD τ).loc main_arg18)) (m ((c : Thread nD τ).loc main_arg19)) (m ((c : Thread nD τ).loc main_arg21)) (m ((c : Thread nD τ).loc main_arg22))) := by
  have e : W3 m ρ c (Proc.devRef .tc main_v28_0) = (dat1 (V2 m ρ) c).arrAt 7 cfg1.N := W3_arr m ρ c 7
  rw [e, final1_7 (V2 m ρ) c, pairs_eq]

theorem feat_result (c : Dev nD) :
    W3 m ρ c (Proc.devRef .tc main_v28_1) = featArr (edgeFolded (scaleRoot (m ((c : Thread nD τ).loc main_arg11)) (m ((c : Thread nD τ).loc main_arg14))) (scaleRoot (m ((c : Thread nD τ).loc main_arg17)) (m ((c : Thread nD τ).loc main_arg20))) (m ((c : Thread nD τ).loc main_arg0)) (m ((c : Thread nD τ).loc main_arg9)) (m ((c : Thread nD τ).loc main_arg10)) (m ((c : Thread nD τ).loc main_arg12)) (m ((c : Thread nD τ).loc main_arg13)) (m ((c : Thread nD τ).loc main_arg15)) (m ((c : Thread nD τ).loc main_arg16)) (m ((c : Thread nD τ).loc main_arg18)) (m ((c : Thread nD τ).loc main_arg19)) (m ((c : Thread nD τ).loc main_arg21)) (m ((c : Thread nD τ).loc main_arg22))) := by
  have e : W3 m ρ c (Proc.devRef .tc main_v28_1) = (dat1 (V2 m ρ) c).arrAt 8 cfg1.N := W3_arr m ρ c 8
  rw [e, final1_8 (V2 m ρ) c, pairs_eq]

/-! ## The run -/

/-- Every weakly fair execution of the kernel program terminates without a fault, its three results at the node head,
    the edge logits and the edge features of the folded edge head, its arguments unchanged. -/
theorem run : θ_run defs (onTc (τ := τ) (main (F := Ideal))) ⟨m, fun _ => 0, ρ⟩ (fun r => ∀ c : Dev nD,
      r.2.mem ((c.tc : Thread nD τ).loc main_v27_0) = nodeArr (scaleRoot (m ((c : Thread nD τ).loc main_arg3)) (m ((c : Thread nD τ).loc main_arg6))) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg8))
      ∧ r.2.mem ((c.tc : Thread nD τ).loc main_v28_0) = logitsArr (edgeFolded (scaleRoot (m ((c : Thread nD τ).loc main_arg11)) (m ((c : Thread nD τ).loc main_arg14))) (scaleRoot (m ((c : Thread nD τ).loc main_arg17)) (m ((c : Thread nD τ).loc main_arg20))) (m ((c : Thread nD τ).loc main_arg0)) (m ((c : Thread nD τ).loc main_arg9)) (m ((c : Thread nD τ).loc main_arg10)) (m ((c : Thread nD τ).loc main_arg12)) (m ((c : Thread nD τ).loc main_arg13)) (m ((c : Thread nD τ).loc main_arg15)) (m ((c : Thread nD τ).loc main_arg16)) (m ((c : Thread nD τ).loc main_arg18)) (m ((c : Thread nD τ).loc main_arg19)) (m ((c : Thread nD τ).loc main_arg21)) (m ((c : Thread nD τ).loc main_arg22)))
      ∧ r.2.mem ((c.tc : Thread nD τ).loc main_v28_1) = featArr (edgeFolded (scaleRoot (m ((c : Thread nD τ).loc main_arg11)) (m ((c : Thread nD τ).loc main_arg14))) (scaleRoot (m ((c : Thread nD τ).loc main_arg17)) (m ((c : Thread nD τ).loc main_arg20))) (m ((c : Thread nD τ).loc main_arg0)) (m ((c : Thread nD τ).loc main_arg9)) (m ((c : Thread nD τ).loc main_arg10)) (m ((c : Thread nD τ).loc main_arg12)) (m ((c : Thread nD τ).loc main_arg13)) (m ((c : Thread nD τ).loc main_arg15)) (m ((c : Thread nD τ).loc main_arg16)) (m ((c : Thread nD τ).loc main_arg18)) (m ((c : Thread nD τ).loc main_arg19)) (m ((c : Thread nD τ).loc main_arg21)) (m ((c : Thread nD τ).loc main_arg22)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨(h c).1.trans (node_result m ρ c), (h c).2.1.trans (logits_result m ρ c),
      (h c).2.2.1.trans (feat_result m ρ c), (h c).2.2.2⟩)
    (Cert.KernelIdeal.Results.run_results m ρ)

end Cert.KernelIdeal.Values

end
-- ==== Proof.RefSide.lean ====
/-
  The reference program's three results are the specification's arrays.

  The reference computes the node head on the whole `[512, 256]` embedding matrix: a product with the transposed first
  weight plus the bias, the evaluation-mode normalisation `v ↦ (v - μ) · s + β` with the column scale `s = γ / √(var + ε)`
  formed as a quotient by the root, a rectifier, and a product with the transposed second weight plus the bias. Read at
  `(p, q)` this is `nodeAt s x … p q` with `s` the quotient scale: each product with a transposed output-major weight,
  `∑ k, v k · Wᵀ (k, q)`, is the sum `∑ k, v k · W (q, k)` of `lin`, and each bias, mean, scale and offset vector is spread
  over the rows, so at `(p, h)` it is read at `h`.

  For the edge head the reference multiplies the embeddings by the transposes of the left and of the right half of the
  first edge weight's columns (`projL`, `projR`), adds row `i` of the first product to row `j` of the second for every pair
  `(i, j)` in a rank-3 array `[512, 512, 512]`, adds the bias, and flattens the pair `(i, j)` to row `i · 512 + j` of a
  `[262144, 512]` matrix. Since `((i · 512 + j) · 512 + h) / 262144 = i`, `((i · 512 + j) · 512 + h) / 512 % 512 = j` and
  `((i · 512 + j) · 512 + h) % 512 = h`, row `i · 512 + j` of that matrix is `pairRow x W b i j`. The two normalised,
  rectified layers and the last linear layer act row by row, so row `i · 512 + j` of the `[262144, 33]` result is
  `edgeStated s₁ s₂ … i j` with both scales in their quotient spelling. Column 0 of that result, un-flattened to
  `[512, 512]`, is the array of edge logits, and columns 1 to 32, un-flattened to `[512, 512, 32]`, the array of edge
  features: `((i · 512 + j) · 32 + o) / 32 = i · 512 + j` and `1 + ((i · 512 + j) · 32 + o) % 32 = o + 1`.

  The variance offset is kept as the single-precision word it is given by; the rectifier's zero is the zero word.
-/
import proofs.«181811_j32916629356848_2_alg».proof.Proof.Spec
import proofs.«181811_j32916629356848_2_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.PairDecoder.RefSide

open Cert.ReferenceIdeal Cert.ReferenceIdeal.Read Cert.PairDecoder
open Idealize.ShloMosaic Idealize.ShloMosaic.ValueIdx

/-- Two indices of a rank-1, rank-2 or rank-3 shape are equal when their coordinates are, coordinate by coordinate. -/
local macro "idx_eq1" : tactic =>
  `(tactic| exact funext fun a => Fin.ext (by match a with | ⟨0, _⟩ => rfl))
local macro "idx_eq2" : tactic =>
  `(tactic| exact funext fun a => Fin.ext (by match a with | ⟨0, _⟩ => rfl | ⟨1, _⟩ => rfl))
local macro "idx_eq3" : tactic =>
  `(tactic| exact funext fun a => Fin.ext (by match a with | ⟨0, _⟩ => rfl | ⟨1, _⟩ => rfl | ⟨2, _⟩ => rfl))

/-! ## The node head -/

/-- The node head's column scale, spread over the rows, is the quotient scale. -/
theorem node_scale (x3 x6 : (⟨S512, .f32⟩ : BufTy).Contents (Elt Ideal)) (p h : Fin 512) :
    val_main_v13 (F := Ideal) x3 x6 (ix2 p h) = scaleQuot x3 x6 h := by
  have e : idx_main_v12 (idx_main_v13 (ix2 p h)) = ix1 h := by idx_eq1
  rw [val_main_v13_apply, val_main_v12_apply, e, val_main_v11_apply, val_main_v10_apply, val_main_v9_apply,
    val_main_v8_apply, val_main_cst_apply]
  simp only [Ideal.hostDivf_def, Ideal.hostUnary_sqrt_def, Ideal.addf_def, Ideal.ofBits_def]
  rfl

/-- The node head's first linear layer at `(p, h)`: the product with the transposed weight is the sum over the
    weight's row `h`. -/
theorem node_lin1 (x0 x1 : (⟨S512x256, .f32⟩ : BufTy).Contents (Elt Ideal)) (x2 : (⟨S512, .f32⟩ : BufTy).Contents (Elt Ideal))
    (p h : Fin 512) :
    val_main_v4 (F := Ideal) x0 x1 x2 (ix2 p h) = lin (rowOf x0 p) x1 x2 h := by
  have el : ∀ k : Fin 256, lidx_main_v1 (ix2 p h) k = ix2 p k := fun k => by idx_eq2
  have er : ∀ k : Fin 256, idx_main_v0 (ridx_main_v1 (ix2 p h) k) = ix2 h k := fun k => by idx_eq2
  have eb : idx_main_v2 (idx_main_v3 (ix2 p h)) = ix1 h := by idx_eq1
  rw [val_main_v4_apply, val_main_v1_apply, val_main_v3_apply, val_main_v2_apply, eb]
  simp only [val_main_v0_apply, el, er, Ideal.addf_def]
  rfl

/-- The node head's normalised hidden layer at `(p, h)`. -/
theorem node_norm (x0 x1 : (⟨S512x256, .f32⟩ : BufTy).Contents (Elt Ideal)) (x2 x3 x4 x5 x6 : (⟨S512, .f32⟩ : BufTy).Contents (Elt Ideal))
    (p h : Fin 512) :
    val_main_v17 (F := Ideal) x0 x1 x2 x3 x4 x5 x6 (ix2 p h)
      = normRow (scaleQuot x3 x6) x5 x4 (lin (rowOf x0 p) x1 x2) h := by
  have em : idx_main_v5 (idx_main_v6 (ix2 p h)) = ix1 h := by idx_eq1
  have eb : idx_main_v15 (idx_main_v16 (ix2 p h)) = ix1 h := by idx_eq1
  rw [val_main_v17_apply, val_main_v14_apply, val_main_v7_apply, node_lin1, node_scale, val_main_v6_apply,
    val_main_v5_apply, em, val_main_v16_apply, val_main_v15_apply, eb]
  simp only [Ideal.addf_def, Ideal.subf_def, Ideal.mulf_def]
  rfl

/-- The node head's rectified hidden layer at `(p, h)`. -/
theorem node_relu (x0 x1 : (⟨S512x256, .f32⟩ : BufTy).Contents (Elt Ideal)) (x2 x3 x4 x5 x6 : (⟨S512, .f32⟩ : BufTy).Contents (Elt Ideal))
    (p h : Fin 512) :
    val_main_v18 (F := Ideal) x0 x1 x2 x3 x4 x5 x6 (ix2 p h)
      = reluRow (normRow (scaleQuot x3 x6) x5 x4 (lin (rowOf x0 p) x1 x2)) h := by
  rw [val_main_v18_apply, node_norm, val_main_call0_v0_apply, val_main_call0_cst_apply]
  simp only [Ideal.maximumf_def, Ideal.ofBits_def, Ideal.ofBits_zero_f32]
  rfl

/-- The node features are the specification's node array, with the scale in its quotient spelling. -/
theorem ref_node (x0 x1 : (⟨S512x256, .f32⟩ : BufTy).Contents (Elt Ideal)) (x2 x3 x4 x5 x6 : (⟨S512, .f32⟩ : BufTy).Contents (Elt Ideal))
    (x7 : (⟨S128x512, .f32⟩ : BufTy).Contents (Elt Ideal)) (x8 : (⟨S128, .f32⟩ : BufTy).Contents (Elt Ideal)) :
    val_main_v23 (F := Ideal) x0 x1 x2 x3 x4 x5 x6 x7 x8 = nodeArr (scaleQuot x3 x6) x0 x1 x2 x4 x5 x7 x8 := by
  funext i
  obtain ⟨p, q, rfl⟩ : ∃ (p : Fin 512) (q : Fin 128), i = ix2 p q := ⟨i 0, i 1, eq_ix2 i⟩
  have el : ∀ k : Fin 512, lidx_main_v20 (ix2 p q) k = ix2 p k := fun k => by idx_eq2
  have er : ∀ k : Fin 512, idx_main_v19 (ridx_main_v20 (ix2 p q) k) = ix2 q k := fun k => by idx_eq2
  have eb : idx_main_v21 (idx_main_v22 (ix2 p q)) = ix1 q := by idx_eq1
  rw [val_main_v23_apply, val_main_v20_apply, val_main_v22_apply, val_main_v21_apply, eb]
  simp only [val_main_v19_apply, el, er, node_relu, Ideal.addf_def]
  rfl

/-! ## The edge head -/

/-- The row of the flattened `[262144, 512]` arrays that holds the pair `(i, j)`: `i · 512 + j`. -/
def pairIdx (i j : Fin 512) : Fin 262144 := ⟨i.val * 512 + j.val, by have := i.isLt; have := j.isLt; omega⟩

/-- The product of the embeddings with the transposed left half of the first edge weight is the left projection. -/
theorem edge_projL (x0 : (⟨S512x256, .f32⟩ : BufTy).Contents (Elt Ideal)) (x9 : (⟨S512x512, .f32⟩ : BufTy).Contents (Elt Ideal))
    (p h : Fin 512) :
    val_main_v27 (F := Ideal) x0 x9 (ix2 p h) = projL x0 x9 p h := by
  have el : ∀ k : Fin 256, lidx_main_v27 (ix2 p h) k = ix2 p k := fun k => by idx_eq2
  have er : ∀ k : Fin 256, idx_main_v24 (idx_main_v26 (ridx_main_v27 (ix2 p h) k)) = ix2 h (leftCol k) := fun k => by idx_eq2
  rw [val_main_v27_apply]
  simp only [val_main_v26_apply, val_main_v24_apply, el, er]
  rfl

/-- The product of the embeddings with the transposed right half of the first edge weight is the right projection. -/
theorem edge_projR (x0 : (⟨S512x256, .f32⟩ : BufTy).Contents (Elt Ideal)) (x9 : (⟨S512x512, .f32⟩ : BufTy).Contents (Elt Ideal))
    (p h : Fin 512) :
    val_main_v29 (F := Ideal) x0 x9 (ix2 p h) = projR x0 x9 p h := by
  have el : ∀ k : Fin 256, lidx_main_v29 (ix2 p h) k = ix2 p k := fun k => by idx_eq2
  have er : ∀ k : Fin 256, idx_main_v25 (idx_main_v28 (ridx_main_v29 (ix2 p h) k)) = ix2 h (rightCol k) := fun k => by idx_eq2
  rw [val_main_v29_apply]
  simp only [val_main_v28_apply, val_main_v25_apply, el, er]
  rfl

/-- The first edge layer before its normalisation, as a rank-3 array, at `(i, j, h)`. -/
theorem edge_pair (x0 : (⟨S512x256, .f32⟩ : BufTy).Contents (Elt Ideal)) (x9 : (⟨S512x512, .f32⟩ : BufTy).Contents (Elt Ideal))
    (x10 : (⟨S512, .f32⟩ : BufTy).Contents (Elt Ideal)) (i j h : Fin 512) :
    val_main_v37 (F := Ideal) x0 x9 x10 (ix3 i j h) = pairRow x0 x9 x10 i j h := by
  have eL : idx_main_v30 (idx_main_v32 (ix3 i j h)) = ix2 i h := by idx_eq2
  have eR : idx_main_v31 (idx_main_v33 (ix3 i j h)) = ix2 j h := by idx_eq2
  have eb : idx_main_v35 (idx_main_v36 (ix3 i j h)) = ix1 h := by idx_eq1
  rw [val_main_v37_apply, val_main_v34_apply, val_main_v32_apply, val_main_v30_apply, eL, edge_projL,
    val_main_v33_apply, val_main_v31_apply, eR, edge_projR, val_main_v36_apply, val_main_v35_apply, eb]
  simp only [Ideal.addf_def]
  rfl

/-- The flattened first edge layer: row `i · 512 + j` of the `[262144, 512]` matrix is the pair `(i, j)`'s row. -/
theorem edge_flat (x0 : (⟨S512x256, .f32⟩ : BufTy).Contents (Elt Ideal)) (x9 : (⟨S512x512, .f32⟩ : BufTy).Contents (Elt Ideal))
    (x10 : (⟨S512, .f32⟩ : BufTy).Contents (Elt Ideal)) (i j h : Fin 512) :
    val_main_v38 (F := Ideal) x0 x9 x10 (ix2 (pairIdx i j) h) = pairRow x0 x9 x10 i j h := by
  have e : idx_main_v38 (ix2 (pairIdx i j) h) = ix3 i j h :=
    funext fun a => Fin.ext (by
      have hi := i.isLt; have hj := j.isLt; have hh := h.isLt
      match a with
      | ⟨0, _⟩ => show ((i.val * 512 + j.val) * 512 + h.val) / 262144 = i.val; omega
      | ⟨1, _⟩ => show ((i.val * 512 + j.val) * 512 + h.val) / 512 % 512 = j.val; omega
      | ⟨2, _⟩ => show ((i.val * 512 + j.val) * 512 + h.val) % 512 = h.val; omega)
  rw [val_main_v38_apply, e, edge_pair]

/-- The first edge normalisation's column scale, spread over the rows. -/
theorem edge_scale1 (x11 x14 : (⟨S512, .f32⟩ : BufTy).Contents (Elt Ideal)) (r : Fin 262144) (h : Fin 512) :
    val_main_v47 (F := Ideal) x11 x14 (ix2 r h) = scaleQuot x11 x14 h := by
  have e : idx_main_v46 (idx_main_v47 (ix2 r h)) = ix1 h := by idx_eq1
  rw [val_main_v47_apply, val_main_v46_apply, e, val_main_v45_apply, val_main_v44_apply, val_main_v43_apply,
    val_main_v42_apply, val_main_cst_0_apply]
  simp only [Ideal.hostDivf_def, Ideal.hostUnary_sqrt_def, Ideal.addf_def, Ideal.ofBits_def]
  rfl

/-- The second edge normalisation's column scale, spread over the rows. -/
theorem edge_scale2 (x17 x20 : (⟨S512, .f32⟩ : BufTy).Contents (Elt Ideal)) (r : Fin 262144) (h : Fin 512) :
    val_main_v66 (F := Ideal) x17 x20 (ix2 r h) = scaleQuot x17 x20 h := by
  have e : idx_main_v65 (idx_main_v66 (ix2 r h)) = ix1 h := by idx_eq1
  rw [val_main_v66_apply, val_main_v65_apply, e, val_main_v64_apply, val_main_v63_apply, val_main_v62_apply,
    val_main_v61_apply, val_main_cst_1_apply]
  simp only [Ideal.hostDivf_def, Ideal.hostUnary_sqrt_def, Ideal.addf_def, Ideal.ofBits_def]
  rfl

/-- The first hidden edge layer, normalised and rectified, at the pair `(i, j)`'s row. -/
theorem edge_hidden1 (x0 : (⟨S512x256, .f32⟩ : BufTy).Contents (Elt Ideal)) (x9 : (⟨S512x512, .f32⟩ : BufTy).Contents (Elt Ideal))
    (x10 x11 x12 x13 x14 : (⟨S512, .f32⟩ : BufTy).Contents (Elt Ideal)) (i j h : Fin 512) :
    val_main_v52 (F := Ideal) x0 x9 x10 x11 x12 x13 x14 (ix2 (pairIdx i j) h)
      = reluRow (normRow (scaleQuot x11 x14) x13 x12 (pairRow x0 x9 x10 i j)) h := by
  have em : idx_main_v39 (idx_main_v40 (ix2 (pairIdx i j) h)) = ix1 h := by idx_eq1
  have eb : idx_main_v49 (idx_main_v50 (ix2 (pairIdx i j) h)) = ix1 h := by idx_eq1
  rw [val_main_v52_apply, val_main_v51_apply, val_main_v48_apply, val_main_v41_apply, edge_flat, edge_scale1,
    val_main_v40_apply, val_main_v39_apply, em, val_main_v50_apply, val_main_v49_apply, eb,
    val_main_call1_v0_apply, val_main_call1_cst_apply]
  simp only [Ideal.addf_def, Ideal.subf_def, Ideal.mulf_def, Ideal.maximumf_def, Ideal.ofBits_def, Ideal.ofBits_zero_f32]
  rfl

/-- The second edge layer before its normalisation, on any row `r` of the flattened matrix. -/
theorem edge_lin2 (x0 : (⟨S512x256, .f32⟩ : BufTy).Contents (Elt Ideal)) (x9 : (⟨S512x512, .f32⟩ : BufTy).Contents (Elt Ideal))
    (x10 x11 x12 x13 x14 : (⟨S512, .f32⟩ : BufTy).Contents (Elt Ideal)) (x15 : (⟨S512x512, .f32⟩ : BufTy).Contents (Elt Ideal))
    (x16 : (⟨S512, .f32⟩ : BufTy).Contents (Elt Ideal)) (r : Fin 262144) (q : Fin 512) :
    val_main_v57 (F := Ideal) x0 x9 x10 x11 x12 x13 x14 x15 x16 (ix2 r q)
      = lin (fun k : Fin 512 => val_main_v52 (F := Ideal) x0 x9 x10 x11 x12 x13 x14 (ix2 r k)) x15 x16 q := by
  have el : ∀ k : Fin 512, lidx_main_v54 (ix2 r q) k = ix2 r k := fun k => by idx_eq2
  have er : ∀ k : Fin 512, idx_main_v53 (ridx_main_v54 (ix2 r q) k) = ix2 q k := fun k => by idx_eq2
  have eb : idx_main_v55 (idx_main_v56 (ix2 r q)) = ix1 q := by idx_eq1
  rw [val_main_v57_apply, val_main_v54_apply, val_main_v56_apply, val_main_v55_apply, eb]
  simp only [val_main_v53_apply, el, er, Ideal.addf_def]
  rfl

/-- The second hidden edge layer, normalised and rectified, on any row `r` of the flattened matrix. -/
theorem edge_hidden2 (x0 : (⟨S512x256, .f32⟩ : BufTy).Contents (Elt Ideal)) (x9 : (⟨S512x512, .f32⟩ : BufTy).Contents (Elt Ideal))
    (x10 x11 x12 x13 x14 : (⟨S512, .f32⟩ : BufTy).Contents (Elt Ideal)) (x15 : (⟨S512x512, .f32⟩ : BufTy).Contents (Elt Ideal))
    (x16 x17 x18 x19 x20 : (⟨S512, .f32⟩ : BufTy).Contents (Elt Ideal)) (r : Fin 262144) (h : Fin 512) :
    val_main_v71 (F := Ideal) x0 x9 x10 x11 x12 x13 x14 x15 x16 x17 x18 x19 x20 (ix2 r h)
      = reluRow (normRow (scaleQuot x17 x20) x19 x18
          (lin (fun k : Fin 512 => val_main_v52 (F := Ideal) x0 x9 x10 x11 x12 x13 x14 (ix2 r k)) x15 x16)) h := by
  have em : idx_main_v58 (idx_main_v59 (ix2 r h)) = ix1 h := by idx_eq1
  have eb : idx_main_v68 (idx_main_v69 (ix2 r h)) = ix1 h := by idx_eq1
  rw [val_main_v71_apply, val_main_v70_apply, val_main_v67_apply, val_main_v60_apply, edge_lin2, edge_scale2,
    val_main_v59_apply, val_main_v58_apply, em, val_main_v69_apply, val_main_v68_apply, eb,
    val_main_call2_v0_apply, val_main_call2_cst_apply]
  simp only [Ideal.addf_def, Ideal.subf_def, Ideal.mulf_def, Ideal.maximumf_def, Ideal.ofBits_def, Ideal.ofBits_zero_f32]
  rfl

/-- The last edge layer on any row `r` of the flattened matrix. -/
theorem edge_lin3 (x0 : (⟨S512x256, .f32⟩ : BufTy).Contents (Elt Ideal)) (x9 : (⟨S512x512, .f32⟩ : BufTy).Contents (Elt Ideal))
    (x10 x11 x12 x13 x14 : (⟨S512, .f32⟩ : BufTy).Contents (Elt Ideal)) (x15 : (⟨S512x512, .f32⟩ : BufTy).Contents (Elt Ideal))
    (x16 x17 x18 x19 x20 : (⟨S512, .f32⟩ : BufTy).Contents (Elt Ideal)) (x21 : (⟨S33x512, .f32⟩ : BufTy).Contents (Elt Ideal))
    (x22 : (⟨S33, .f32⟩ : BufTy).Contents (Elt Ideal)) (r : Fin 262144) (o : Fin 33) :
    val_main_v76 (F := Ideal) x0 x9 x10 x11 x12 x13 x14 x15 x16 x17 x18 x19 x20 x21 x22 (ix2 r o)
      = lin (fun k : Fin 512 => val_main_v71 (F := Ideal) x0 x9 x10 x11 x12 x13 x14 x15 x16 x17 x18 x19 x20 (ix2 r k)) x21 x22 o := by
  have el : ∀ k : Fin 512, lidx_main_v73 (ix2 r o) k = ix2 r k := fun k => by idx_eq2
  have er : ∀ k : Fin 512, idx_main_v72 (ridx_main_v73 (ix2 r o) k) = ix2 o k := fun k => by idx_eq2
  have eb : idx_main_v74 (idx_main_v75 (ix2 r o)) = ix1 o := by idx_eq1
  rw [val_main_v76_apply, val_main_v73_apply, val_main_v75_apply, val_main_v74_apply, eb]
  simp only [val_main_v72_apply, el, er, Ideal.addf_def]
  rfl

/-- Row `i · 512 + j` of the last edge layer is the edge head of the pair `(i, j)`, with both scales in their quotient
    spelling. -/
theorem edge_out (x0 : (⟨S512x256, .f32⟩ : BufTy).Contents (Elt Ideal)) (x9 : (⟨S512x512, .f32⟩ : BufTy).Contents (Elt Ideal))
    (x10 x11 x12 x13 x14 : (⟨S512, .f32⟩ : BufTy).Contents (Elt Ideal)) (x15 : (⟨S512x512, .f32⟩ : BufTy).Contents (Elt Ideal))
    (x16 x17 x18 x19 x20 : (⟨S512, .f32⟩ : BufTy).Contents (Elt Ideal)) (x21 : (⟨S33x512, .f32⟩ : BufTy).Contents (Elt Ideal))
    (x22 : (⟨S33, .f32⟩ : BufTy).Contents (Elt Ideal)) (i j : Fin 512) (o : Fin 33) :
    val_main_v76 (F := Ideal) x0 x9 x10 x11 x12 x13 x14 x15 x16 x17 x18 x19 x20 x21 x22 (ix2 (pairIdx i j) o)
      = edgeStated (scaleQuot x11 x14) (scaleQuot x17 x20) x0 x9 x10 x12 x13 x15 x16 x18 x19 x21 x22 i j o := by
  have h1 : (fun k : Fin 512 => val_main_v52 (F := Ideal) x0 x9 x10 x11 x12 x13 x14 (ix2 (pairIdx i j) k))
      = reluRow (normRow (scaleQuot x11 x14) x13 x12 (pairRow x0 x9 x10 i j)) :=
    funext fun k => edge_hidden1 x0 x9 x10 x11 x12 x13 x14 i j k
  have h2 : (fun k : Fin 512 => val_main_v71 (F := Ideal) x0 x9 x10 x11 x12 x13 x14 x15 x16 x17 x18 x19 x20 (ix2 (pairIdx i j) k))
      = reluRow (normRow (scaleQuot x17 x20) x19 x18
          (lin (reluRow (normRow (scaleQuot x11 x14) x13 x12 (pairRow x0 x9 x10 i j))) x15 x16)) :=
    funext fun k => by rw [edge_hidden2, h1]
  rw [edge_lin3, h2]
  rfl

/-- The edge logits are entry 0 of each pair's vector. -/
theorem ref_logits (x0 : (⟨S512x256, .f32⟩ : BufTy).Contents (Elt Ideal)) (x9 : (⟨S512x512, .f32⟩ : BufTy).Contents (Elt Ideal))
    (x10 x11 x12 x13 x14 : (⟨S512, .f32⟩ : BufTy).Contents (Elt Ideal)) (x15 : (⟨S512x512, .f32⟩ : BufTy).Contents (Elt Ideal))
    (x16 x17 x18 x19 x20 : (⟨S512, .f32⟩ : BufTy).Contents (Elt Ideal)) (x21 : (⟨S33x512, .f32⟩ : BufTy).Contents (Elt Ideal))
    (x22 : (⟨S33, .f32⟩ : BufTy).Contents (Elt Ideal)) :
    val_main_v79 (F := Ideal) x0 x9 x10 x11 x12 x13 x14 x15 x16 x17 x18 x19 x20 x21 x22
      = logitsArr (edgeStated (scaleQuot x11 x14) (scaleQuot x17 x20) x0 x9 x10 x12 x13 x15 x16 x18 x19 x21 x22) := by
  funext idx
  obtain ⟨i, j, rfl⟩ : ∃ (i j : Fin 512), idx = ix2 i j := ⟨idx 0, idx 1, eq_ix2 idx⟩
  have e : idx_main_v77 (idx_main_v78 (idx_main_v79 (ix2 i j))) = ix2 (pairIdx i j) (0 : Fin 33) :=
    funext fun a => Fin.ext (by
      match a with
      | ⟨0, _⟩ => exact Nat.div_one _
      | ⟨1, _⟩ => rfl)
  rw [val_main_v79_apply, val_main_v78_apply, val_main_v77_apply, e, edge_out]
  rfl

/-- The edge features are entries 1 to 32 of each pair's vector. -/
theorem ref_feat (x0 : (⟨S512x256, .f32⟩ : BufTy).Contents (Elt Ideal)) (x9 : (⟨S512x512, .f32⟩ : BufTy).Contents (Elt Ideal))
    (x10 x11 x12 x13 x14 : (⟨S512, .f32⟩ : BufTy).Contents (Elt Ideal)) (x15 : (⟨S512x512, .f32⟩ : BufTy).Contents (Elt Ideal))
    (x16 x17 x18 x19 x20 : (⟨S512, .f32⟩ : BufTy).Contents (Elt Ideal)) (x21 : (⟨S33x512, .f32⟩ : BufTy).Contents (Elt Ideal))
    (x22 : (⟨S33, .f32⟩ : BufTy).Contents (Elt Ideal)) :
    val_main_v81 (F := Ideal) x0 x9 x10 x11 x12 x13 x14 x15 x16 x17 x18 x19 x20 x21 x22
      = featArr (edgeStated (scaleQuot x11 x14) (scaleQuot x17 x20) x0 x9 x10 x12 x13 x15 x16 x18 x19 x21 x22) := by
  funext idx
  obtain ⟨i, j, o, rfl⟩ : ∃ (i j : Fin 512) (o : Fin 32), idx = ix3 i j o := ⟨idx 0, idx 1, idx 2, eq_ix3 idx⟩
  have e : idx_main_v80 (idx_main_v81 (ix3 i j o)) = ix2 (pairIdx i j) (Fin.succ o) :=
    funext fun a => Fin.ext (by
      have hi := i.isLt; have hj := j.isLt; have ho := o.isLt
      match a with
      | ⟨0, _⟩ => show ((i.val * 512 + j.val) * 32 + o.val) / 32 = i.val * 512 + j.val; omega
      | ⟨1, _⟩ => show 1 + ((i.val * 512 + j.val) * 32 + o.val) % 32 = o.val + 1; omega)
  rw [val_main_v81_apply, val_main_v80_apply, e, edge_out]
  rfl

end Cert.PairDecoder.RefSide

end
-- ==== Proof.PreFacts.lean ====
/-
  The precondition read back: every argument array has real entries, and the three variance vectors are nonnegative.

  The precondition is a single bit, the conjunction of twenty-six bits. For each of the twenty-three arrays `x` there is
  the bit "every entry of `|x|` is below `+∞`", and for each of the three variance vectors `v` the bit "every entry of `v`
  is at least `0`". Each of these bits is a conjunction over all entries of the array, started from 1, so it is 1 only when
  the comparison holds at every entry.

  On the extended reals `|x| = max x (-x)`, and the pattern `0x7F800000` denotes `⊤`. If `x = ⊤` then `max x (-x) = ⊤`, and
  if `x = ⊥` then `-x = ⊤` and again `max x (-x) = ⊤`; so `max x (-x) < ⊤` leaves only the case that `x` is a real number.
  The pattern `0x00000000` denotes `0`, and the comparison "at least" is the order of the extended reals, so the second kind
  of bit says `0 ≤ v h` at every `h`.
-/
import proofs.«181811_j32916629356848_2_alg».proof.Pre_finite_inputs
import proofs.«181811_j32916629356848_2_alg».proof.Proof.Spec
import Idealize.ShloMosaic.Lib.ReduceAll
import Idealize.ShloMosaic.Lib.ValueIdx
import Idealize.ShloMosaic.PureOps.Ideal

noncomputable section

namespace Cert.PairDecoder

open Idealize.ShloMosaic Idealize.ShloMosaic.ValueIdx

/-- The shape of a scalar: rank 0, one index. -/
abbrev S0 : Shape := ⟨0, ![]⟩

/-- A scalar has exactly one index. -/
instance : Subsingleton S0.Idx := ⟨fun a b => funext fun d => d.elim0⟩

/-- The single-precision pattern `0x7F800000` denotes `+∞`. -/
theorem ofBits_inf_f32 : Ideal.ofBits .f32 0x7F800000#32 = (⊤ : EReal) := by
  simp [Ideal.ofBits, Ideal.ieee]

/-- The single-precision pattern `0x00000000` denotes `0`. -/
theorem ofBits_zero_f32' : Ideal.ofBits .f32 0x00000000#32 = (0 : EReal) := by
  simp [Ideal.ofBits, Ideal.ieee]

/-- The bit of a truth value is 1 exactly when the truth value is true. -/
theorem ofBool_eq_one (b : Bool) : BitVec.ofBool b = 1#1 ↔ b = true := by cases b <;> decide

/-- If `max x (-x) < ⊤` then `x` is a real number: at `x = ⊤` and at `x = ⊥` the maximum is `⊤`. -/
theorem real_of_abs_lt_top (x : EReal) (h : Ideal.cmp .olt (max x (-x)) ⊤ = 1#1) : ∃ r : ℝ, x = (r : EReal) := by
  unfold Ideal.cmp at h
  rw [ofBool_eq_one] at h
  simp only [decide_eq_true_eq] at h
  induction x using EReal.rec with
  | bot => simp at h
  | top => simp at h
  | coe r => exact ⟨r, rfl⟩

/-- The comparison "at least" against `0` is `0 ≤ x`. -/
theorem nonneg_of_oge_zero (x : EReal) (h : Ideal.cmp .oge x 0 = 1#1) : 0 ≤ x := by
  unfold Ideal.cmp at h
  rw [ofBool_eq_one] at h
  simpa only [decide_eq_true_eq] using h

/-- If the conjunction over all entries of "`|x i| < +∞`" is 1, every entry of `x` is a real number. -/
theorem isReal_of_all {S : Shape} {axes : List (Fin S.rank)} (hb : S0.BroadcastsInDim S (![] : Fin 0 → Fin S.rank))
    (hr : S.ReducesTo axes S0) (hu : 0 < S0.numel) (x : FVec Ideal S .f32) (init : IVec S0 1)
    (e : Host.reduce IntOp.andi (cmpf .olt (Host.absf x) (broadcastInDim S ![] hb (constant (F := Ideal) S0 .f32 0x7F800000#32)))
        init hr hu ix0 = 1#1) : IsReal x := by
  intro i
  have h := Host.reduce_andi_all _ init hr hu ix0 e i
  refine real_of_abs_lt_top (x i) ?_
  rw [← ofBits_inf_f32]
  exact h

/-- If the conjunction over all entries of "`x i ≥ 0`" is 1, every entry of `x` is nonnegative. -/
theorem nonneg_of_all {S : Shape} {axes : List (Fin S.rank)} (hb : S0.BroadcastsInDim S (![] : Fin 0 → Fin S.rank))
    (hr : S.ReducesTo axes S0) (hu : 0 < S0.numel) (x : FVec Ideal S .f32) (init : IVec S0 1)
    (e : Host.reduce IntOp.andi (cmpf .oge x (broadcastInDim S ![] hb (constant (F := Ideal) S0 .f32 0x00000000#32)))
        init hr hu ix0 = 1#1) (i : S.Idx) : 0 ≤ x i := by
  have h := Host.reduce_andi_all _ init hr hu ix0 e i
  refine nonneg_of_oge_zero (x i) ?_
  rw [← ofBits_zero_f32']
  exact h

/-- Every argument array has real entries and the three variance vectors are nonnegative. -/
structure InputsOk (a0 : Mat 512 256) (a1 : Mat 512 256) (a2 : Vec1 512) (a3 : Vec1 512) (a4 : Vec1 512) (a5 : Vec1 512) (a6 : Vec1 512) (a7 : Mat 128 512) (a8 : Vec1 128) (a9 : Mat 512 512) (a10 : Vec1 512) (a11 : Vec1 512) (a12 : Vec1 512) (a13 : Vec1 512) (a14 : Vec1 512) (a15 : Mat 512 512) (a16 : Vec1 512) (a17 : Vec1 512) (a18 : Vec1 512) (a19 : Vec1 512) (a20 : Vec1 512) (a21 : Mat 33 512) (a22 : Vec1 33) : Prop where
  r0 : IsReal a0
  r1 : IsReal a1
  r2 : IsReal a2
  r3 : IsReal a3
  r4 : IsReal a4
  r5 : IsReal a5
  r6 : IsReal a6
  r7 : IsReal a7
  r8 : IsReal a8
  r9 : IsReal a9
  r10 : IsReal a10
  r11 : IsReal a11
  r12 : IsReal a12
  r13 : IsReal a13
  r14 : IsReal a14
  r15 : IsReal a15
  r16 : IsReal a16
  r17 : IsReal a17
  r18 : IsReal a18
  r19 : IsReal a19
  r20 : IsReal a20
  r21 : IsReal a21
  r22 : IsReal a22
  v6 : ∀ h : Fin 512, 0 ≤ a6 (ix1 h)
  v14 : ∀ h : Fin 512, 0 ≤ a14 (ix1 h)
  v20 : ∀ h : Fin 512, 0 ≤ a20 (ix1 h)

/-- The precondition's bit is 1 only if each of its twenty-six conjuncts is 1; each conjunct is read back by one of the two
    lemmas above. -/
theorem inputsOk_of_pre [Cert.Pre_finite_inputs.Facts] (a0 : FVec Ideal Cert.Pre_finite_inputs.S512x256 .f32) (a1 : FVec Ideal Cert.Pre_finite_inputs.S512x256 .f32) (a2 : FVec Ideal Cert.Pre_finite_inputs.S512 .f32) (a3 : FVec Ideal Cert.Pre_finite_inputs.S512 .f32) (a4 : FVec Ideal Cert.Pre_finite_inputs.S512 .f32) (a5 : FVec Ideal Cert.Pre_finite_inputs.S512 .f32) (a6 : FVec Ideal Cert.Pre_finite_inputs.S512 .f32) (a7 : FVec Ideal Cert.Pre_finite_inputs.S128x512 .f32) (a8 : FVec Ideal Cert.Pre_finite_inputs.S128 .f32) (a9 : FVec Ideal Cert.Pre_finite_inputs.S512x512 .f32) (a10 : FVec Ideal Cert.Pre_finite_inputs.S512 .f32) (a11 : FVec Ideal Cert.Pre_finite_inputs.S512 .f32) (a12 : FVec Ideal Cert.Pre_finite_inputs.S512 .f32) (a13 : FVec Ideal Cert.Pre_finite_inputs.S512 .f32) (a14 : FVec Ideal Cert.Pre_finite_inputs.S512 .f32) (a15 : FVec Ideal Cert.Pre_finite_inputs.S512x512 .f32) (a16 : FVec Ideal Cert.Pre_finite_inputs.S512 .f32) (a17 : FVec Ideal Cert.Pre_finite_inputs.S512 .f32) (a18 : FVec Ideal Cert.Pre_finite_inputs.S512 .f32) (a19 : FVec Ideal Cert.Pre_finite_inputs.S512 .f32) (a20 : FVec Ideal Cert.Pre_finite_inputs.S512 .f32) (a21 : FVec Ideal Cert.Pre_finite_inputs.S33x512 .f32) (a22 : FVec Ideal Cert.Pre_finite_inputs.S33 .f32)
    (h : Cert.Pre_finite_inputs.fn (F := Ideal) a0 a1 a2 a3 a4 a5 a6 a7 a8 a9 a10 a11 a12 a13 a14 a15 a16 a17 a18 a19 a20 a21 a22 = fun _ => 1#1) : InputsOk a0 a1 a2 a3 a4 a5 a6 a7 a8 a9 a10 a11 a12 a13 a14 a15 a16 a17 a18 a19 a20 a21 a22 := by
  have e := congrFun h ix0
  simp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, andi, IntOp.andi_eq_one] at e
  obtain ⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩ := e
  exact {
    r0 := isReal_of_all _ _ _ a0 _ h0
    r1 := isReal_of_all _ _ _ a1 _ h1
    r2 := isReal_of_all _ _ _ a2 _ h2
    r3 := isReal_of_all _ _ _ a3 _ h3
    r4 := isReal_of_all _ _ _ a4 _ h4
    r5 := isReal_of_all _ _ _ a5 _ h5
    r6 := isReal_of_all _ _ _ a6 _ h6
    r7 := isReal_of_all _ _ _ a7 _ h7
    r8 := isReal_of_all _ _ _ a8 _ h8
    r9 := isReal_of_all _ _ _ a9 _ h9
    r10 := isReal_of_all _ _ _ a10 _ h10
    r11 := isReal_of_all _ _ _ a11 _ h11
    r12 := isReal_of_all _ _ _ a12 _ h12
    r13 := isReal_of_all _ _ _ a13 _ h13
    r14 := isReal_of_all _ _ _ a14 _ h14
    r15 := isReal_of_all _ _ _ a15 _ h15
    r16 := isReal_of_all _ _ _ a16 _ h16
    r17 := isReal_of_all _ _ _ a17 _ h17
    r18 := isReal_of_all _ _ _ a18 _ h18
    r19 := isReal_of_all _ _ _ a19 _ h19
    r20 := isReal_of_all _ _ _ a20 _ h20
    r21 := isReal_of_all _ _ _ a21 _ h21
    r22 := isReal_of_all _ _ _ a22 _ h22
    v6 := fun k => nonneg_of_all _ _ _ a6 _ h23 (ix1 k)
    v14 := fun k => nonneg_of_all _ _ _ a14 _ h24 (ix1 k)
    v20 := fun k => nonneg_of_all _ _ _ a20 _ h25 (ix1 k) }

end Cert.PairDecoder

end
-- ==== Proof.LibSumSwap.lean ====
/-
  Two sums of products of REAL numbers, read on the extended reals, regrouped.

  For finite index types `ι`, `κ` and real families `a : ι → ℝ`, `x : ι → κ → ℝ`, `w : κ → ℝ`,

    ∑ d, (∑ k, a k · x k d) · w d  =  ∑ k, a k · (∑ d, x k d · w d)

  as extended reals: every term is the image of a real, the image of a finite real sum is the sum of the images, and on
  the reals the identity is distributivity and an exchange of the two sums. (On the extended reals themselves the
  identity fails at infinities: the hypothesis that every factor is real is what makes it true.)
-/
import Mathlib.Data.EReal.Basic
import Mathlib.Data.EReal.Operations
import Mathlib.Algebra.BigOperators.Ring.Finset
import Mathlib.Algebra.BigOperators.Group.Finset.Sigma

open scoped BigOperators

namespace SumSwap

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A product of two matrix-like sums of reals regrouped, on the extended reals. -/
theorem sum_mul_sum_swap {ι κ : Type*} [Fintype ι] [Fintype κ] (a : ι → ℝ) (x : ι → κ → ℝ) (w : κ → ℝ) :
    (∑ d, (∑ k, (a k : EReal) * (x k d : EReal)) * (w d : EReal))
      = ∑ k, (a k : EReal) * ∑ d, (x k d : EReal) * (w d : EReal) := by
  have hl : ∀ d, (∑ k, (a k : EReal) * (x k d : EReal)) * (w d : EReal) = (((∑ k, a k * x k d) * w d : ℝ) : EReal) := fun d => by
    rw [EReal.coe_mul, coe_sum]; simp only [EReal.coe_mul]
  have hr : ∀ k, (a k : EReal) * ∑ d, (x k d : EReal) * (w d : EReal) = ((a k * ∑ d, x k d * w d : ℝ) : EReal) := fun k => by
    rw [EReal.coe_mul, coe_sum]; simp only [EReal.coe_mul]
  simp only [hl, hr]
  rw [← coe_sum, ← coe_sum]
  congr 1
  simp only [Finset.sum_mul, Finset.mul_sum]
  rw [Finset.sum_comm]
  exact Finset.sum_congr rfl fun k _ => Finset.sum_congr rfl fun d _ => mul_assoc _ _ _

end SumSwap
-- ==== Proof.Law.lean ====
/-
  The laws of real arithmetic behind the two readings of the edge head, on the extended reals.

  * `ε`, the single-precision number nearest to `1e-5`, is the positive real `10995116 · 2⁻⁴⁰`.
  * For a real `γ` and a real `var ≥ 0` the number `var + ε` is a positive real, so its root is a nonzero real and
    its reciprocal root is the inverse of that root: the quotient `γ / √(var + ε)` and the product
    `γ · (var + ε)^(-1/2)` are the same real number `γ · (√(var + ε))⁻¹`.
  * On real numbers `(a + c + b - μ) · s + β = a · s + c · s + (s · (b - μ) + β)` and
    `((∑ x · w) + b - μ) · s + β = (∑ x · (w · s)) + (s · (b - μ) + β)`: a normalisation after a linear layer is a
    linear layer with scaled weights and a new bias. Both are distributivity, which holds on the reals and fails at the
    infinities of the extended reals; so every entry is assumed real, the identity is proved on the reals, and it is
    carried to the extended reals along the inclusion, which preserves sums, differences, products, maxima and finite
    sums.
  * Sums, differences, products, rectifiers and finite sums of reals are real, so the first hidden layer of the edge
    head is real, and the second law applies to the second layer.
-/
import proofs.«181811_j32916629356848_2_alg».proof.Proof.Spec
import proofs.«181811_j32916629356848_2_alg».proof.Proof.LibSumSwap
import Idealize.ShloMosaic.PureOps.Ideal

noncomputable section

open scoped BigOperators

namespace Cert.PairDecoder

open Idealize.ShloMosaic Idealize.ShloMosaic.ValueIdx

/-- `ε` is a positive real: its pattern has sign 0, exponent field 110 and fraction field 2606508, so it denotes
    `(2²³ + 2606508) · 2^(110 - 127 - 23) = 10995116 · 2⁻⁴⁰`. -/
theorem eps_pos : ∃ r : ℝ, 0 < r ∧ eps = (r : EReal) := by
  refine ⟨10995116 * (2 ^ 40)⁻¹, by positivity, ?_⟩
  simp [eps, Ideal.ofBits, Ideal.ieee, -EReal.coe_mul]

/-! ## The reals inside the extended reals are closed under the operations used here -/

/-- A sum of two reals is real. -/
theorem real_add {a b : EReal} (ha : ∃ r : ℝ, a = r) (hb : ∃ r : ℝ, b = r) : ∃ r : ℝ, a + b = r := by
  obtain ⟨x, rfl⟩ := ha; obtain ⟨y, rfl⟩ := hb; exact ⟨x + y, (EReal.coe_add x y).symm⟩

/-- A difference of two reals is real. -/
theorem real_sub {a b : EReal} (ha : ∃ r : ℝ, a = r) (hb : ∃ r : ℝ, b = r) : ∃ r : ℝ, a - b = r := by
  obtain ⟨x, rfl⟩ := ha; obtain ⟨y, rfl⟩ := hb; exact ⟨x - y, (EReal.coe_sub x y).symm⟩

/-- A product of two reals is real. -/
theorem real_mul {a b : EReal} (ha : ∃ r : ℝ, a = r) (hb : ∃ r : ℝ, b = r) : ∃ r : ℝ, a * b = r := by
  obtain ⟨x, rfl⟩ := ha; obtain ⟨y, rfl⟩ := hb; exact ⟨x * y, (EReal.coe_mul x y).symm⟩

/-- The rectifier of a real is real: the inclusion of the reals is monotone, so it preserves maxima. -/
theorem real_relu {a : EReal} (ha : ∃ r : ℝ, a = r) : ∃ r : ℝ, max a 0 = r := by
  obtain ⟨x, rfl⟩ := ha
  exact ⟨max x 0, by rw [EReal.coe_strictMono.monotone.map_max, EReal.coe_zero]⟩

/-- A finite sum of reals is real. -/
theorem real_sum {ι : Type*} (s : Finset ι) (f : ι → EReal) (hf : ∀ i, ∃ r : ℝ, f i = r) :
    ∃ r : ℝ, ∑ i ∈ s, f i = r := by
  choose g hg using hf
  exact ⟨∑ i ∈ s, g i, by rw [SumSwap.coe_sum]; exact Finset.sum_congr rfl fun i _ => hg i⟩

/-! ## The column scale -/

/-- For real `v ≥ 0` and `e > 0` the root of `v + e` is the real root. -/
theorem sqrt_real (v e : ℝ) (hv : 0 ≤ v) (he : 0 < e) :
    Ideal.sqrt ((v : EReal) + (e : EReal)) = ((Real.sqrt (v + e) : ℝ) : EReal) := by
  have hp : 0 < v + e := by linarith
  rw [← EReal.coe_add, Ideal.sqrt_coe, if_neg (not_lt.mpr hp.le)]

/-- For real `v ≥ 0` and `e > 0` the reciprocal root of `v + e` is the inverse of the real root (`v + e` is neither
    negative nor zero). -/
theorem rsqrt_real (v e : ℝ) (hv : 0 ≤ v) (he : 0 < e) :
    Ideal.rsqrt ((v : EReal) + (e : EReal)) = (((Real.sqrt (v + e))⁻¹ : ℝ) : EReal) := by
  have hp : 0 < v + e := by linarith
  rw [← EReal.coe_add, Ideal.rsqrt_coe, if_neg (not_lt.mpr hp.le), if_neg hp.ne']

/-- Both spellings of the column scale at a column are the real number `γ · (√(var + ε))⁻¹`: division by the nonzero
    real `√(var + ε)` is the product with its reciprocal. -/
theorem scaleQuot_real {n : ℕ} (g var : Vec1 n) (hg : IsReal g) (hv : IsReal var) (h0 : ∀ h : Fin n, 0 ≤ var (ix1 h))
    (h : Fin n) : ∃ gr v e : ℝ, 0 ≤ v ∧ 0 < e ∧ scaleQuot g var h = ((gr * (Real.sqrt (v + e))⁻¹ : ℝ) : EReal)
      ∧ scaleRoot g var h = ((gr * (Real.sqrt (v + e))⁻¹ : ℝ) : EReal) := by
  obtain ⟨gr, hgr⟩ := hg (ix1 h)
  obtain ⟨v, hvr⟩ := hv (ix1 h)
  obtain ⟨e, he, hee⟩ := eps_pos
  have hv0 : 0 ≤ v := by
    have := h0 h
    rw [hvr] at this
    exact_mod_cast this
  have hp : 0 < v + e := by linarith
  have hs : Real.sqrt (v + e) ≠ 0 := (Real.sqrt_pos.mpr hp).ne'
  refine ⟨gr, v, e, hv0, he, ?_, ?_⟩
  · show Ideal.div (g (ix1 h)) (Ideal.sqrt (var (ix1 h) + eps)) = _
    rw [hgr, hvr, hee, sqrt_real v e hv0 he, Ideal.div_coe hs, one_div, ← EReal.coe_mul]
  · show g (ix1 h) * Ideal.rsqrt (var (ix1 h) + eps) = _
    rw [hgr, hvr, hee, rsqrt_real v e hv0 he, ← EReal.coe_mul]

/-- With real `γ` and real `var ≥ 0` the two spellings of the column scale agree. -/
theorem scaleRoot_eq_scaleQuot {n : ℕ} (g var : Vec1 n) (hg : IsReal g) (hv : IsReal var)
    (h0 : ∀ h : Fin n, 0 ≤ var (ix1 h)) : scaleRoot g var = scaleQuot g var := by
  funext h
  obtain ⟨gr, v, e, _, _, hq, hr⟩ := scaleQuot_real g var hg hv h0 h
  rw [hq, hr]

/-- With real `γ` and real `var ≥ 0` the column scale is real. -/
theorem isReal_scaleQuot {n : ℕ} (g var : Vec1 n) (hg : IsReal g) (hv : IsReal var)
    (h0 : ∀ h : Fin n, 0 ≤ var (ix1 h)) : IsReal (scaleQuot g var) := by
  intro h
  obtain ⟨gr, v, e, _, _, hq, _⟩ := scaleQuot_real g var hg hv h0 h
  exact ⟨_, hq⟩

/-! ## The two laws on numbers -/

/-- `(a + c + b - μ) · s + β = a · s + c · s + (s · (b - μ) + β)` for real numbers. -/
theorem norm_add_scalar {a c b m be s : EReal} (ha : ∃ r : ℝ, a = r) (hc : ∃ r : ℝ, c = r) (hb : ∃ r : ℝ, b = r)
    (hm : ∃ r : ℝ, m = r) (hbe : ∃ r : ℝ, be = r) (hs : ∃ r : ℝ, s = r) :
    (a + c + b - m) * s + be = a * s + c * s + (s * (b - m) + be) := by
  obtain ⟨a', rfl⟩ := ha; obtain ⟨c', rfl⟩ := hc; obtain ⟨b', rfl⟩ := hb
  obtain ⟨m', rfl⟩ := hm; obtain ⟨be', rfl⟩ := hbe; obtain ⟨s', rfl⟩ := hs
  have h : (a' + c' + b' - m') * s' + be' = a' * s' + c' * s' + (s' * (b' - m') + be') := by ring
  exact_mod_cast h

/-- `((∑ x · w) + b - μ) · s + β = (∑ x · (w · s)) + (s · (b - μ) + β)` for real numbers. -/
theorem norm_lin_scalar {K : ℕ} {x w : Fin K → EReal} {b m be s : EReal} (hx : ∀ k, ∃ r : ℝ, x k = r)
    (hw : ∀ k, ∃ r : ℝ, w k = r) (hb : ∃ r : ℝ, b = r) (hm : ∃ r : ℝ, m = r) (hbe : ∃ r : ℝ, be = r)
    (hs : ∃ r : ℝ, s = r) :
    ((∑ k : Fin K, x k * w k) + b - m) * s + be = (∑ k : Fin K, x k * (w k * s)) + (s * (b - m) + be) := by
  choose xr hxr using hx
  choose wr hwr using hw
  obtain ⟨b', rfl⟩ := hb; obtain ⟨m', rfl⟩ := hm; obtain ⟨be', rfl⟩ := hbe; obtain ⟨s', rfl⟩ := hs
  have hl : (∑ k : Fin K, x k * w k) = ((∑ k : Fin K, xr k * wr k : ℝ) : EReal) := by
    rw [SumSwap.coe_sum]
    exact Finset.sum_congr rfl fun k _ => by rw [hxr, hwr, EReal.coe_mul]
  have hr : (∑ k : Fin K, x k * (w k * (s' : EReal))) = ((∑ k : Fin K, xr k * (wr k * s') : ℝ) : EReal) := by
    rw [SumSwap.coe_sum]
    exact Finset.sum_congr rfl fun k _ => by rw [hxr, hwr, EReal.coe_mul, EReal.coe_mul]
  rw [hl, hr]
  have h : ((∑ k : Fin K, xr k * wr k) + b' - m') * s' + be'
      = (∑ k : Fin K, xr k * (wr k * s')) + (s' * (b' - m') + be') := by
    have h1 : (∑ k : Fin K, xr k * (wr k * s')) = (∑ k : Fin K, xr k * wr k) * s' := by
      rw [Finset.sum_mul]
      exact Finset.sum_congr rfl fun k _ => (mul_assoc _ _ _).symm
    rw [h1]; ring
  exact_mod_cast h

/-! ## The two laws on rows -/

/-- The normalisation of a sum of two real rows and a bias is the sum of the scaled rows and a new bias. -/
theorem normRow_add {n : ℕ} (s : Fin n → EReal) (mu be b : Vec1 n) (a c : Fin n → EReal) (hs : IsReal s)
    (hmu : IsReal mu) (hbe : IsReal be) (hb : IsReal b) (ha : IsReal a) (hc : IsReal c) :
    normRow s mu be (fun h => a h + c h + b (ix1 h))
      = fun h => a h * s h + c h * s h + (s h * (b (ix1 h) - mu (ix1 h)) + be (ix1 h)) := by
  funext h
  exact norm_add_scalar (ha h) (hc h) (hb (ix1 h)) (hmu (ix1 h)) (hbe (ix1 h)) (hs h)

/-- The normalisation of a linear layer on a real row is the folded linear layer. -/
theorem normRow_lin {K N : ℕ} (s : Fin N → EReal) (x : Fin K → EReal) (w : Mat N K) (b mu be : Vec1 N)
    (hs : IsReal s) (hx : IsReal x) (hw : IsReal w) (hb : IsReal b) (hmu : IsReal mu) (hbe : IsReal be) :
    normRow s mu be (lin x w b) = linFolded s x w b mu be := by
  funext q
  exact norm_lin_scalar (w := fun k => w (ix2 q k)) (fun k => hx k) (fun k => hw (ix2 q k)) (hb (ix1 q))
    (hmu (ix1 q)) (hbe (ix1 q)) (hs q)

/-! ## Real rows of the edge head -/

/-- The two projections of a real embedding by a real weight are real. -/
theorem isReal_projL (x : Mat 512 256) (eW1 : Mat 512 512) (hx : IsReal x) (hW1 : IsReal eW1) (p : Fin 512) :
    IsReal (projL x eW1 p) := by
  intro h
  exact real_sum _ _ fun k => real_mul (hx (ix2 p k)) (hW1 (ix2 h (leftCol k)))

/-- The same for the right half of the weight's columns. -/
theorem isReal_projR (x : Mat 512 256) (eW1 : Mat 512 512) (hx : IsReal x) (hW1 : IsReal eW1) (p : Fin 512) :
    IsReal (projR x eW1 p) := by
  intro h
  exact real_sum _ _ fun k => real_mul (hx (ix2 p k)) (hW1 (ix2 h (rightCol k)))

/-- The rectifier of a real row is real. -/
theorem isReal_reluRow {n : ℕ} (v : Fin n → EReal) (hv : IsReal v) : IsReal (reluRow v) := by
  intro h
  exact real_relu (hv h)

/-- The folded first layer of the edge head is real on real operands. -/
theorem isReal_pairRowFolded (s : Fin 512 → EReal) (x : Mat 512 256) (eW1 : Mat 512 512) (eb1 emean1 ebeta1 : Vec1 512)
    (hs : IsReal s) (hx : IsReal x) (hW1 : IsReal eW1) (hb1 : IsReal eb1) (hm1 : IsReal emean1) (hbe1 : IsReal ebeta1)
    (i j : Fin 512) : IsReal (pairRowFolded s x eW1 eb1 emean1 ebeta1 i j) := by
  intro h
  exact real_add
    (real_add (real_mul (isReal_projL x eW1 hx hW1 i h) (hs h)) (real_mul (isReal_projR x eW1 hx hW1 j h) (hs h)))
    (real_add (real_mul (hs h) (real_sub (hb1 (ix1 h)) (hm1 (ix1 h)))) (hbe1 (ix1 h)))

/-! ## The edge head -/

/-- Folding both normalisations of the edge head changes nothing on real numbers. -/
theorem edgeFolded_eq_edgeStated (s1 s2 : Fin 512 → EReal) (hs1 : IsReal s1) (hs2 : IsReal s2) (x : Mat 512 256)
    (eW1 : Mat 512 512) (eb1 ebeta1 emean1 : Vec1 512) (eW2 : Mat 512 512) (eb2 ebeta2 emean2 : Vec1 512)
    (eW3 : Mat 33 512) (eb3 : Vec1 33)
    (hx : IsReal x) (hW1 : IsReal eW1) (hb1 : IsReal eb1) (hbe1 : IsReal ebeta1) (hm1 : IsReal emean1)
    (hW2 : IsReal eW2) (hb2 : IsReal eb2) (hbe2 : IsReal ebeta2) (hm2 : IsReal emean2) :
    edgeFolded s1 s2 x eW1 eb1 ebeta1 emean1 eW2 eb2 ebeta2 emean2 eW3 eb3
      = edgeStated s1 s2 x eW1 eb1 ebeta1 emean1 eW2 eb2 ebeta2 emean2 eW3 eb3 := by
  funext i j
  have hA : normRow s1 emean1 ebeta1 (pairRow x eW1 eb1 i j) = pairRowFolded s1 x eW1 eb1 emean1 ebeta1 i j :=
    normRow_add s1 emean1 ebeta1 eb1 (projL x eW1 i) (projR x eW1 j) hs1 hm1 hbe1 hb1
      (isReal_projL x eW1 hx hW1 i) (isReal_projR x eW1 hx hW1 j)
  have hB := normRow_lin s2 (reluRow (pairRowFolded s1 x eW1 eb1 emean1 ebeta1 i j)) eW2 eb2 emean2 ebeta2 hs2
    (isReal_reluRow _ (isReal_pairRowFolded s1 x eW1 eb1 emean1 ebeta1 hs1 hx hW1 hb1 hm1 hbe1 i j)) hW2 hb2 hm2 hbe2
  show lin (reluRow (linFolded s2 (reluRow (pairRowFolded s1 x eW1 eb1 emean1 ebeta1 i j)) eW2 eb2 emean2 ebeta2)) eW3 eb3
    = lin (reluRow (normRow s2 emean2 ebeta2 (lin (reluRow (normRow s1 emean1 ebeta1 (pairRow x eW1 eb1 i j))) eW2 eb2)))
        eW3 eb3
  rw [hA, hB]

end Cert.PairDecoder

end
-- ==== Proof.Agree.lean ====
/-
  On inputs with real entries and nonnegative variances the two spellings of the decoder give the same three arrays.

  The two spellings differ in two ways. The column scale `γ / √(var + ε)` is spelt as a quotient by the root in one and as a
  product with the reciprocal root in the other: for a real `γ` and a real `var ≥ 0` both are the real number
  `γ · (√(var + ε))⁻¹`, so the three column scales (one of the node head, two of the edge head) agree and are real. And the
  edge head has its two normalisations folded into the layers before them in one spelling and standing where they are in
  the other: with real column scales and real operands the folded edge head is the stated one. The node features depend on
  the spelling only through the column scale, and the edge logits and the edge features are entries of the edge head.
-/
import proofs.«181811_j32916629356848_2_alg».proof.Proof.Law
import proofs.«181811_j32916629356848_2_alg».proof.Proof.PreFacts

noncomputable section

namespace Cert.PairDecoder

open Idealize.ShloMosaic Idealize.ShloMosaic.ValueIdx

/-- On inputs with real entries and nonnegative variances the three result arrays of the two spellings agree: the column
    scales agree, and then the folded edge head is the stated one. -/
theorem results_agree {a0 a1 : Mat 512 256} {a2 a3 a4 a5 a6 : Vec1 512} {a7 : Mat 128 512} {a8 : Vec1 128}
    {a9 : Mat 512 512} {a10 a11 a12 a13 a14 : Vec1 512} {a15 : Mat 512 512} {a16 a17 a18 a19 a20 : Vec1 512}
    {a21 : Mat 33 512} {a22 : Vec1 33}
    (h : InputsOk a0 a1 a2 a3 a4 a5 a6 a7 a8 a9 a10 a11 a12 a13 a14 a15 a16 a17 a18 a19 a20 a21 a22) :
    nodeArr (scaleRoot a3 a6) a0 a1 a2 a4 a5 a7 a8 = nodeArr (scaleQuot a3 a6) a0 a1 a2 a4 a5 a7 a8
    ∧ logitsArr (edgeFolded (scaleRoot a11 a14) (scaleRoot a17 a20) a0 a9 a10 a12 a13 a15 a16 a18 a19 a21 a22)
        = logitsArr (edgeStated (scaleQuot a11 a14) (scaleQuot a17 a20) a0 a9 a10 a12 a13 a15 a16 a18 a19 a21 a22)
    ∧ featArr (edgeFolded (scaleRoot a11 a14) (scaleRoot a17 a20) a0 a9 a10 a12 a13 a15 a16 a18 a19 a21 a22)
        = featArr (edgeStated (scaleQuot a11 a14) (scaleQuot a17 a20) a0 a9 a10 a12 a13 a15 a16 a18 a19 a21 a22) := by
  -- the three column scales agree
  have e0 : scaleRoot a3 a6 = scaleQuot a3 a6 := scaleRoot_eq_scaleQuot a3 a6 h.r3 h.r6 h.v6
  have e1 : scaleRoot a11 a14 = scaleQuot a11 a14 := scaleRoot_eq_scaleQuot a11 a14 h.r11 h.r14 h.v14
  have e2 : scaleRoot a17 a20 = scaleQuot a17 a20 := scaleRoot_eq_scaleQuot a17 a20 h.r17 h.r20 h.v20
  -- with real scales and real operands the folded edge head is the stated one
  have hE : edgeFolded (scaleRoot a11 a14) (scaleRoot a17 a20) a0 a9 a10 a12 a13 a15 a16 a18 a19 a21 a22
      = edgeStated (scaleQuot a11 a14) (scaleQuot a17 a20) a0 a9 a10 a12 a13 a15 a16 a18 a19 a21 a22 := by
    rw [e1, e2]
    exact edgeFolded_eq_edgeStated (scaleQuot a11 a14) (scaleQuot a17 a20)
      (isReal_scaleQuot a11 a14 h.r11 h.r14 h.v14) (isReal_scaleQuot a17 a20 h.r17 h.r20 h.v20)
      a0 a9 a10 a12 a13 a15 a16 a18 a19 a21 a22 h.r0 h.r9 h.r10 h.r12 h.r13 h.r15 h.r16 h.r18 h.r19
  exact ⟨by rw [e0], by rw [hE], by rw [hE]⟩

end Cert.PairDecoder

end
-- ==== Proof.Claims.lean ====
/-
  The five claims.

  The three frames: each program runs to the end without a fault and leaves its arguments as they were. For the two
  kernel programs this is the generated frame; for the reference it is its run with the results dropped.

  The idealization made no rewrite, so nothing is owed for it.

  The equivalence. From memories that agree on the arguments, the kernel program ends with its three results at the node
  head (column scale `γ · (var + ε)^(-1/2)`), and at the logits and features of the edge head with both normalisations
  folded into the layers before them; the reference ends at the node head with the scale `γ / √(var + ε)` and at the logits
  and features of the edge head with the normalisations where they stand. The precondition makes every argument entry a
  real number and the three variance vectors nonnegative, so `var + ε` is a positive real: the two spellings of the scale
  agree and are real, and on real numbers folding a normalisation into a linear layer is distributivity. Hence the
  three pairs of results are equal.
-/
import proofs.«181811_j32916629356848_2_alg».proof.Defs
import proofs.«181811_j32916629356848_2_alg».proof.Proof.Gen.Kernel.Frame
import proofs.«181811_j32916629356848_2_alg».proof.Proof.Gen.KernelIdeal.Frame
import proofs.«181811_j32916629356848_2_alg».proof.Proof.Gen.ReferenceIdeal.Run
import proofs.«181811_j32916629356848_2_alg».proof.Proof.Gen.ReferenceIdeal.Read
import proofs.«181811_j32916629356848_2_alg».proof.Proof.Gen.Pre_finite_inputs
import proofs.«181811_j32916629356848_2_alg».proof.Proof.KerValue
import proofs.«181811_j32916629356848_2_alg».proof.Proof.RefSide
import proofs.«181811_j32916629356848_2_alg».proof.Proof.PreFacts
import proofs.«181811_j32916629356848_2_alg».proof.Proof.Agree

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

set_option maxHeartbeats 1600000 in
theorem algebraic : Cert.algebraic_KernelIdeal_ReferenceIdeal := by
  intro m ρ m' ρ' hpre hagree
  refine ⟨_, _, _, Cert.KernelIdeal.Values.run m ρ, ?_⟩
  refine (θ_run Cert.ReferenceIdeal.defs _ _).mono (fun _ h c => ?_) (Cert.ReferenceIdeal.Value.run (F := Ideal) m' ρ')
  obtain ⟨h23, h79, h81, hargs⟩ := h c
  obtain ⟨g0, g1, g2, g3, g4, g5, g6, g7, g8, g9, g10, g11, g12, g13, g14, g15, g16, g17, g18, g19, g20, g21, g22⟩ := hagree c
  obtain ⟨n1, n2, n3⟩ := Cert.PairDecoder.results_agree
    (Cert.PairDecoder.inputsOk_of_pre _ _ _ _ _ _ _ _ _ _ _ _ _ _ _ _ _ _ _ _ _ _ _ (hpre c))
  refine ⟨?_, ?_, ?_, hargs⟩
  · rw [h23, Cert.ReferenceIdeal.Read.val_main_v23_eq, Cert.PairDecoder.RefSide.ref_node]
    simp only [g0, g1, g2, g3, g4, g5, g6, g7, g8]
    exact n1.symm
  · rw [h79, Cert.ReferenceIdeal.Read.val_main_v79_eq, Cert.PairDecoder.RefSide.ref_logits]
    simp only [g0, g9, g10, g11, g12, g13, g14, g15, g16, g17, g18, g19, g20, g21, g22]
    exact n2.symm
  · rw [h81, Cert.ReferenceIdeal.Read.val_main_v81_eq, Cert.PairDecoder.RefSide.ref_feat]
    simp only [g0, g9, g10, g11, g12, g13, g14, g15, g16, g17, g18, g19, g20, g21, g22]
    exact n3.symm

end Cert.Proof.Claims

end
-- ==== Proof.lean ====
/-
  A graph decoder's kernel program against its reference, on the extended reals.

  Both programs compute, from node embeddings `x : [512, 256]`, a node head `relu (bn (x · W1ᵀ + b1)) · W2ᵀ + b2` and, for
  every pair of nodes, an edge head of three linear layers with a batch normalisation and a rectifier after the first
  two; the edge head's entry 0 is the edge logit and its entries 1 to 32 the edge features. The reference applies each
  normalisation `v ↦ (v - μ) · (γ / √(var + ε)) + β` where it stands. The kernel program computes the scale as
  `γ · (var + ε)^(-1/2)`, folds the first edge normalisation into a scaling of the two projections and a new bias and the
  second into a scaling of the second weight's rows and a new bias, and evaluates the edge head tile by tile over the
  512 × 512 pairs. Under the precondition (every argument finite, the three variance vectors nonnegative) all numbers are
  real, the two spellings of the scale agree, and the folding is distributivity: the results are equal.

  Modules: Spec (the two spellings as functions), Law and Agree (their agreement on real inputs), PreFacts (what the
  precondition gives), RefSide (the reference's results are the stated spelling), KerRun / KerGlue / KerBody / KerBlocks0 /
  KerBlocks1 / KerValue (the kernel program's run, its prepared operands, its bodies' arithmetic, its two regions' output
  arrays, and its results as the folded spelling), Bridge (the tile of the prepared operands is the folded edge head),
  Claims (the five claims).
-/
import proofs.«181811_j32916629356848_2_alg».proof.Defs
import proofs.«181811_j32916629356848_2_alg».proof.Proof.Gen.Kernel
import proofs.«181811_j32916629356848_2_alg».proof.Proof.Gen.Kernel.Skeleton
import proofs.«181811_j32916629356848_2_alg».proof.Proof.Gen.Kernel.Launch
import proofs.«181811_j32916629356848_2_alg».proof.Proof.Gen.Kernel.Points
import proofs.«181811_j32916629356848_2_alg».proof.Proof.Gen.Kernel.Frame
import proofs.«181811_j32916629356848_2_alg».proof.Proof.Gen.KernelIdeal
import proofs.«181811_j32916629356848_2_alg».proof.Proof.Gen.KernelIdeal.Skeleton
import proofs.«181811_j32916629356848_2_alg».proof.Proof.Gen.KernelIdeal.Launch
import proofs.«181811_j32916629356848_2_alg».proof.Proof.Gen.KernelIdeal.Points
import proofs.«181811_j32916629356848_2_alg».proof.Proof.Gen.KernelIdeal.Frame
import proofs.«181811_j32916629356848_2_alg».proof.Proof.Gen.ReferenceIdeal
import proofs.«181811_j32916629356848_2_alg».proof.Proof.Gen.Pre_finite_inputs
import proofs.«181811_j32916629356848_2_alg».proof.Proof.Gen.ReferenceIdeal.Run
import proofs.«181811_j32916629356848_2_alg».proof.Proof.Gen.ReferenceIdeal.Read
import proofs.«181811_j32916629356848_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
